-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S3072x1024 .f32) (main_arg2 : FVec F S3072 .f32) (main_arg3 : FVec F S1024x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16384x1024 : Shape := ⟨2, ![16384, 1024]⟩
abbrev S1x3072 : Shape := ⟨2, ![1, 3072]⟩
abbrev S16384x3072 : Shape := ⟨2, ![16384, 3072]⟩
abbrev S256x1024 : Shape := ⟨2, ![256, 1024]⟩
abbrev S256x3072 : Shape := ⟨2, ![256, 3072]⟩
abbrev S256x2048 : Shape := ⟨2, ![256, 2048]⟩
abbrev S4x4096x3072 : Shape := ⟨3, ![4, 4096, 3072]⟩
abbrev S1x4096x256 : Shape := ⟨3, ![1, 4096, 256]⟩
abbrev S4096x256 : Shape := ⟨2, ![4096, 256]⟩
abbrev S256 : Shape := ⟨1, ![256]⟩
abbrev S1x256 : Shape := ⟨2, ![1, 256]⟩
abbrev S256x256 : Shape := ⟨2, ![256, 256]⟩
abbrev S1x1024 : Shape := ⟨2, ![1, 1024]⟩
abbrev S512x1024 : Shape := ⟨2, ![512, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S3072x1024, .bf16⟩
  | .hbm, ⟨7, _⟩ => ⟨S1024x1024, .bf16⟩
  | .hbm, ⟨8, _⟩ => ⟨S1x3072, .f32⟩
  | .hbm, ⟨9, _⟩ => ⟨S16384x3072, .bf16⟩
  | .hbm, ⟨10, _⟩ => ⟨S4x4096x3072, .bf16⟩
  | .hbm, ⟨11, _⟩ => ⟨S4x4096x1024, .bf16⟩
  | .hbm, ⟨12, _⟩ => ⟨S16384x1024, .bf16⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S1x3072, .f32⟩
  | .local _ .vmem, ⟨4, _⟩ => ⟨S256x3072, .bf16⟩
  | .local _ .vmem, ⟨5, _⟩ => ⟨S256x3072, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x4096x1024_S16384x1024 : S4x4096x1024.ShapeCasts S16384x1024
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x2048 : S256x3072.Slices ![0, 0] S256x2048
  slices_S256x3072_o0_2048_S256x1024 : S256x3072.Slices ![0, 2048] S256x1024
  inb_S256x3072_S256x2048_0_0 : ∀ a, (![0, 0] : Fin 2 → Nat) a + S256x2048.size a ≤ S256x3072.size a
  h_S256x2048 : 0 < S256x2048.numel
  packedbf16_S256x3072_S256x2048_0_0 : (Rect.unit (s := S256x3072) ![0, 0] S256x2048.size inb_S256x3072_S256x2048_0_0).PackedRows (EltTy.packing .bf16)
  inb_S256x3072_S256x1024_0_2048 : ∀ a, (![0, 2048] : Fin 2 → Nat) a + S256x1024.size a ≤ S256x3072.size a
  packedbf16_S256x3072_S256x1024_0_2048 : (Rect.unit (s := S256x3072) ![0, 2048] S256x1024.size inb_S256x3072_S256x1024_0_2048).PackedRows (EltTy.packing .bf16)
  shapeCasts_S16384x3072_S4x4096x3072 : S16384x3072.ShapeCasts S4x4096x3072
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x256_S256 : S4096x256.Reduces [0] S256
  shapeCasts_S256_S1x256 : S256.ShapeCasts S1x256
  iota_S256x256_d0_w32 : S256x256.Iotas .tc 32 [0]
  natLt_1_32 : 1 < 32
  iota_S256x256_d1_w32 : S256x256.Iotas .tc 32 [1]
  broadcasts_S1x256_S4096x256 : S1x256.Broadcasts S4096x256
  shapeCasts_S4096x256_S1x4096x256 : S4096x256.ShapeCasts S1x4096x256
  packedbf16_S1x4096x256_S1x4096x256_0_0_0 : (Rect.unit (s := S1x4096x256) ![0, 0, 0] S1x4096x256.size inb_S1x4096x256_S1x4096x256_0_0_0).PackedRows (EltTy.packing .bf16)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S256x1024_S3072x1024_S256x3072_1_1_0_0_n_n_wf : DotDims.WF S256x1024 S3072x1024 S256x3072 [1] [1] [0] [0] [] []
  dot_S4096x256_S4096x256_S256x256_0_0_1_1_n_n_wf : DotDims.WF S4096x256 S4096x256 S256x256 [0] [0] [1] [1] [] []
  dot_S4096x256_S256x256_S4096x256_1_0_0_1_n_n_wf : DotDims.WF S4096x256 S256x256 S4096x256 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S16384x3072.size a
  hwx0_3 : ∀ i : grid0.Coords, EltTy.bits .bf16 = 32 ∨ (Rect.block (s := S16384x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x4096x3072.size a
  hwx1_0 : ∀ i : grid1.Coords, EltTy.bits .bf16 = 32 ∨ (Rect.block (s := S4x4096x3072) S1x4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S4x4096x3072.size a
  hwx1_1 : ∀ i : grid1.Coords, EltTy.bits .bf16 = 32 ∨ (Rect.block (s := S4x4096x3072) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x3072.size a
  hwx1_2 : ∀ i : grid1.Coords, EltTy.bits .bf16 = 32 ∨ (Rect.block (s := S4x4096x3072) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S4x4096x1024.size a
  hwx1_3 : ∀ i : grid1.Coords, EltTy.bits .bf16 = 32 ∨ (Rect.block (s := S4x4096x1024) S1x4096x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .f32 = 32 ∨ (Rect.block (s := S16384x1024) S512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x4096x3072 : Shape := ⟨3, ![4, 4096, 3072]⟩
abbrev S1x1x3072 : Shape := ⟨3, ![1, 1, 3072]⟩
abbrev S4x4096x3x16x64 : Shape := ⟨5, ![4, 4096, 3, 16, 64]⟩
abbrev S3x4x16x4096x64 : Shape := ⟨5, ![3, 4, 16, 4096, 64]⟩
abbrev S1x4x16x4096x64 : Shape := ⟨5, ![1, 4, 16, 4096, 64]⟩
abbrev S4x16x4096x64 : Shape := ⟨4, ![4, 16, 4096, 64]⟩
abbrev S_ : Shape := ⟨0, ![]⟩
abbrev S4x16x64x64 : Shape := ⟨4, ![4, 16, 64, 64]⟩
abbrev S4x16x64 : Shape := ⟨3, ![4, 16, 64]⟩
abbrev S4x16x1x64 : Shape := ⟨4, ![4, 16, 1, 64]⟩
abbrev S4x4096x16x64 : Shape := ⟨4, ![4, 4096, 16, 64]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x4096x3072, .f32⟩
  | .hbm, ⟨6, _⟩ => ⟨S1x1x3072, .f32⟩
  | .hbm, ⟨7, _⟩ => ⟨S4x4096x3072, .f32⟩
  | .hbm, ⟨8, _⟩ => ⟨S4x4096x3072, .f32⟩
  | .hbm, ⟨9, _⟩ => ⟨S4x4096x3x16x64, .f32⟩
  | .hbm, ⟨10, _⟩ => ⟨S3x4x16x4096x64, .f32⟩
  | .hbm, ⟨11, _⟩ => ⟨S1x4x16x4096x64, .f32⟩
  | .hbm, ⟨12, _⟩ => ⟨S4x16x4096x64, .f32⟩
  | .hbm, ⟨13, _⟩ => ⟨S1x4x16x4096x64, .f32⟩
  | .hbm, ⟨14, _⟩ => ⟨S4x16x4096x64, .f32⟩
  | .hbm, ⟨15, _⟩ => ⟨S1x4x16x4096x64, .f32⟩
  | .hbm, ⟨16, _⟩ => ⟨S4x16x4096x64, .f32⟩
  | .hbm, ⟨17, _⟩ => ⟨S_, .f32⟩
  | .hbm, ⟨18, _⟩ => ⟨S4x16x4096x64, .f32⟩
  | .hbm, ⟨19, _⟩ => ⟨S4x16x4096x64, .i1⟩
  | .hbm, ⟨20, _⟩ => ⟨S_, .f32⟩
  | .hbm, ⟨21, _⟩ => ⟨S4x16x4096x64, .f32⟩
  | .hbm, ⟨22, _⟩ => ⟨S4x16x4096x64, .i1⟩
  | .hbm, ⟨23, _⟩ => ⟨S_, .f32⟩
  | .hbm, ⟨24, _⟩ => ⟨S_, .f32⟩
  | .hbm, ⟨25, _⟩ => ⟨S4x16x4096x64, .f32⟩
  | .hbm, ⟨26, _⟩ => ⟨S4x16x4096x64, .f32⟩
  | .hbm, ⟨27, _⟩ => ⟨S4x16x4096x64, .f32⟩
  | .hbm, ⟨28, _⟩ => ⟨S_, .f32⟩
  | .hbm, ⟨29, _⟩ => ⟨S4x16x4096x64, .f32⟩
  | .hbm, ⟨30, _⟩ => ⟨S4x16x4096x64, .f32⟩
  | .hbm, ⟨31, _⟩ => ⟨S4x16x4096x64, .f32⟩
  | .hbm, ⟨32, _⟩ => ⟨S_, .f32⟩
  | .hbm, ⟨33, _⟩ => ⟨S4x16x4096x64, .f32⟩
  | .hbm, ⟨34, _⟩ => ⟨S4x16x4096x64, .f32⟩
  | .hbm, ⟨35, _⟩ => ⟨S_, .f32⟩
  | .hbm, ⟨36, _⟩ => ⟨S4x16x4096x64, .f32⟩
  | .hbm, ⟨37, _⟩ => ⟨S4x16x4096x64, .i1⟩
  | .hbm, ⟨38, _⟩ => ⟨S_, .f32⟩
  | .hbm, ⟨39, _⟩ => ⟨S4x16x4096x64, .f32⟩
  | .hbm, ⟨40, _⟩ => ⟨S4x16x4096x64, .i1⟩
  | .hbm, ⟨41, _⟩ => ⟨S_, .f32⟩
  | .hbm, ⟨42, _⟩ => ⟨S_, .f32⟩
  | .hbm, ⟨43, _⟩ => ⟨S4x16x4096x64, .f32⟩
  | .hbm, ⟨44, _⟩ => ⟨S4x16x4096x64, .f32⟩
  | .hbm, ⟨45, _⟩ => ⟨S4x16x4096x64, .f32⟩
  | .hbm, ⟨46, _⟩ => ⟨S_, .f32⟩
  | .hbm, ⟨47, _⟩ => ⟨S4x16x4096x64, .f32⟩
  | .hbm, ⟨48, _⟩ => ⟨S4x16x4096x64, .f32⟩
  | .hbm, ⟨49, _⟩ => ⟨S4x16x4096x64, .f32⟩
  | .hbm, ⟨50, _⟩ => ⟨S_, .f32⟩
  | .hbm, ⟨51, _⟩ => ⟨S4x16x4096x64, .f32⟩
  | .hbm, ⟨52, _⟩ => ⟨S4x16x4096x64, .f32⟩
  | .hbm, ⟨53, _⟩ => ⟨S4x16x64x64, .f32⟩
  | .hbm, ⟨54, _⟩ => ⟨S4x16x4096x64, .f32⟩
  | .hbm, ⟨55, _⟩ => ⟨S_, .f32⟩
  | .hbm, ⟨56, _⟩ => ⟨S4x16x64, .f32⟩
  | .hbm, ⟨57, _⟩ => ⟨S4x16x1x64, .f32⟩
  | .hbm, ⟨58, _⟩ => ⟨S_, .f32⟩
  | .hbm, ⟨59, _⟩ => ⟨S4x16x1x64, .f32⟩
  | .hbm, ⟨60, _⟩ => ⟨S4x16x1x64, .f32⟩
  | .hbm, ⟨61, _⟩ => ⟨S4x16x4096x64, .f32⟩
  | .hbm, ⟨62, _⟩ => ⟨S4x16x4096x64, .f32⟩
  | .hbm, ⟨63, _⟩ => ⟨S4x4096x16x64, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_cst_1 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v4 : Ref sig .tc := ⟨.hbm, 26, rfl⟩
abbrev main_call0_v5 : Ref sig .tc := ⟨.hbm, 27, rfl⟩
abbrev main_call0_cst_2 : Ref sig .tc := ⟨.hbm, 28, rfl⟩
abbrev main_call0_v6 : Ref sig .tc := ⟨.hbm, 29, rfl⟩
abbrev main_call0_v7 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_v4 : Ref sig .tc := ⟨.hbm, 44, rfl⟩
abbrev main_call1_v5 : Ref sig .tc := ⟨.hbm, 45, rfl⟩
abbrev main_call1_cst_2 : Ref sig .tc := ⟨.hbm, 46, rfl⟩
abbrev main_call1_v6 : Ref sig .tc := ⟨.hbm, 47, rfl⟩
abbrev main_call1_v7 : Ref sig .tc := ⟨.hbm, 48, rfl⟩
abbrev main_v15 : Ref sig .tc := ⟨.hbm, 49, rfl⟩
abbrev main_cst_0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_1 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  shapeCasts_S4x4096x3072_S4x4096x3x16x64 : S4x4096x3072.ShapeCasts S4x4096x3x16x64
  transposes_S4x4096x3x16x64_S3x4x16x4096x64_2_0_3_1_4 : S4x4096x3x16x64.Transposes [2, 0, 3, 1, 4] S3x4x16x4096x64
  slices_S3x4x16x4096x64_S1x4x16x4096x64_0_0_0_0_0 : S3x4x16x4096x64.Slices ![0, 0, 0, 0, 0] S1x4x16x4096x64
  shapeCasts_S1x4x16x4096x64_S4x16x4096x64 : S1x4x16x4096x64.ShapeCasts S4x16x4096x64
  slices_S3x4x16x4096x64_S1x4x16x4096x64_1_0_0_0_0 : S3x4x16x4096x64.Slices ![1, 0, 0, 0, 0] S1x4x16x4096x64
  slices_S3x4x16x4096x64_S1x4x16x4096x64_2_0_0_0_0 : S3x4x16x4096x64.Slices ![2, 0, 0, 0, 0] S1x4x16x4096x64
  bcast_S_S4x16x4096x64 : S_.BroadcastsInDim S4x16x4096x64 (![] : Fin 0 → Fin S4x16x4096x64.rank)
  reducesTo_S4x16x4096x64_S4x16x64_d2 : S4x16x4096x64.ReducesTo [2] S4x16x64
  h_S_ : 0 < S_.numel
  bcast_S4x16x64_S4x16x1x64_0_1_3 : S4x16x64.BroadcastsInDim S4x16x1x64 (![0, 1, 3] : Fin 3 → Fin S4x16x1x64.rank)
  bcast_S_S4x16x1x64 : S_.BroadcastsInDim S4x16x1x64 (![] : Fin 0 → Fin S4x16x1x64.rank)
  bcast_S4x16x1x64_S4x16x4096x64_0_1_2_3 : S4x16x1x64.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Frame0.lean ====
/-
  The fused q/k/v projection's region (the first kernel launch), at the buffer contents `V` it is entered from.
  At grid point t the body reads a [256, 1024] block of x's rows, the whole [3072, 1024] weight array and the [1, 3072]
  bias row, and fills one [256, 3072] block by two stores: columns [0, 2048) (the queries and keys, through the feature
  map) and columns [2048, 3072) (the values, as projected).
  Here: what the two stores leave in the output's staging buffer as a function of the three input blocks, the body's
  triple, the region's proof data and the body obligation at every grid point.
-/
import proofs.«127050_j83339545411776_2_alg».proof.Proof.Gen.KernelIdeal.Launch
import proofs.«127050_j83339545411776_2_alg».proof.Proof.Gen.KernelIdeal.Skeleton
import proofs.«127050_j83339545411776_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it there or
    not: when it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it there or
    not: when it was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it there or
    not: when it was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S256x1024 := Rect.unit (s := S256x1024) ![0, 0] S256x1024.size inb_S256x1024_S256x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0
/-- Columns [0, 2048) of the output block. -/
abbrev r0_qk : Rect S256x3072 := Rect.unit (s := S256x3072) ![0, 0] S256x2048.size inb_S256x3072_S256x2048_0_0
/-- Columns [2048, 3072) of the output block. -/
abbrev r0_v : Rect S256x3072 := Rect.unit (s := S256x3072) ![0, 2048] S256x1024.size inb_S256x3072_S256x1024_0_2048

/-- What the body leaves in the output window's staging buffer, from the three input blocks: its two stores, the
    last one first. -/
def out0_3 (x0 : Vec F S256x1024 .f32) (x1 : Vec F S3072x1024 .bf16) (x2 : Vec F S1x3072 .f32) : Vec F S256x3072 .bf16 :=
  View.canon [⟨r0_v, k0_pay3 (View.ld x0 r0_x) (View.ld x1 r0_w) (View.ld x2 r0_b)⟩,
    ⟨r0_qk, k0_pay2 (View.ld x0 r0_x) (View.ld x1 r0_w) (View.ld x2 r0_b)⟩]

/-- The two column ranges, cut into [256, 1024] blocks, tile the [256, 3072] buffer. -/
theorem cover0_3 (p1 : Vec F S256x1024 .bf16) (p0 : Vec F S256x2048 .bf16) (y : S256x3072.Idx) :
    ∃ pc ∈ ([⟨r0_v, p1⟩, ⟨r0_qk, p0⟩] : List (View.Piece (Elt F) S256x3072 .bf16)), y ∈ pc.1.set :=
  View.cover_of_tiledBy [⟨r0_v, p1⟩, ⟨r0_qk, p0⟩] ![256, 1024] (by sl_kernel_rfl) y

/-! ## The body's triple -/

set_option maxHeartbeats 1000000 in
/-- The body on whole staging memrefs, the inputs' reading `x0`, `x1`, `x2` and the output's holding anything, runs to
    its continuation with the inputs' as they were and the output's at `out0_3` of them. -/
theorem sound_kernel0 (c : Dev nD) (E : Set ℕ) (i : grid0.Coords)
    (arg1 : Memref sig .tc .vmem S256x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S256x3072 .bf16) (harg4 : arg4.IsWhole)
    (x0 : Vec F S256x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_linear_kernel i arg1 harg1 arg2 harg2 arg3 harg3 arg4 harg4) K := by
  simp only [cc0__qkv_linear_kernel_eq_skeleton]; unfold cc0__qkv_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The region's proof data -/

/-- The arrays as the region finds them; after the body at point `t` each input's buffer still at its block and the
    output's at `out0_3` of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Frame1.lean ====
/-
  The attention core's region (the second kernel launch), at the buffer contents `V` it is entered from.
  Its grid is (batch, head-quad). At a point the body reads three [1, 4096, 256] blocks of ONE array — the queries',
  keys' and values' columns of the quad, at three column offsets of the fused projection — and stores one [1, 4096, 256]
  block of the attention output. The three input windows read the same array, so each holds it at a part of the full
  share; the three parts compose to the whole.
  Here: what the store leaves in the output's staging buffer as a function of the three input blocks, the body's
  triple, the region's proof data and the body obligation at every grid point.
-/
import proofs.«127050_j83339545411776_2_alg».proof.Proof.Gen.KernelIdeal.Launch
import proofs.«127050_j83339545411776_2_alg».proof.Proof.Gen.KernelIdeal.Skeleton
import proofs.«127050_j83339545411776_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there or
    not: when it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether the pipeline fetched it there or
    not: when it was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether the pipeline fetched it there or
    not: when it was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole [1, 4096, 256] buffer -/

abbrev r1_o : Rect S1x4096x256 := Rect.unit (s := S1x4096x256) ![0, 0, 0] S1x4096x256.size inb_S1x4096x256_S1x4096x256_0_0_0

/-- What the body leaves in the output window's staging buffer, from the queries', keys' and values' blocks: its one
    store. The keys' column sums, the keys-by-values product and the two head-index tables are the first part's. -/
def out1_3 (x0 x1 x2 : Vec F S1x4096x256 .bf16) : Vec F S1x4096x256 .bf16 :=
  View.canon [⟨r1_o, k1_pay1 (k1_pay2 (View.ld x0 r1_o)) (k1_pay4 (View.ld x1 r1_o)) (k1_pay5 (View.ld x1 r1_o) (View.ld x2 r1_o))
    k1_pay6 (iota .tc S256x256 32 [1] iota_S256x256_d1_w32) 64#32 k1_pay7 0#32⟩]

/-- The store's rectangle is the whole buffer. -/
theorem cover1_3 (p0 : Vec F S1x4096x256 .bf16) (y : S1x4096x256.Idx) :
    ∃ pc ∈ ([⟨r1_o, p0⟩] : List (View.Piece (Elt F) S1x4096x256 .bf16)), y ∈ pc.1.set :=
  View.cover_of_tiled [⟨r1_o, p0⟩] S1x4096x256.size (by rfl) y

/-! ## The body's triple -/

set_option maxHeartbeats 1000000 in
/-- The body on whole staging memrefs, the inputs' reading `x0`, `x1`, `x2` and the output's holding anything, runs to
    its continuation with the inputs' as they were and the output's at `out1_3` of them. -/
theorem sound_kernel1 (c : Dev nD) (E : Set ℕ) (i : grid1.Coords)
    (arg2 : Memref sig .tc .vmem S1x4096x256 .bf16) (harg2 : arg2.IsWhole) (arg3 : Memref sig .tc .vmem S1x4096x256 .bf16) (harg3 : arg3.IsWhole)
    (arg4 : Memref sig .tc .vmem S1x4096x256 .bf16) (harg4 : arg4.IsWhole) (arg5 : Memref sig .tc .vmem S1x4096x256 .bf16) (harg5 : arg5.IsWhole)
    (x0 x1 x2 : Vec F S1x4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The share each window's array is held at: the three input windows read one array, at three parts of the full share
    that compose to it (the left half; the right half's left and right halves); the output's is its own, whole. -/
def q1 : Fin cfg1.W → PosShare TreeShare
  | ⟨0, _⟩ => (fullShare : PosShare TreeShare).left
  | ⟨1, _⟩ => (fullShare : PosShare TreeShare).right.left
  | ⟨2, _⟩ => (fullShare : PosShare TreeShare).right.right
  | ⟨3, _⟩ => fullShare

/-- The arrays as the region finds them; after the body at point `t` each input's buffer still at its block and the
    output's at `out1_3` of the input blocks; the invariant is the scoped rest and the generator register, untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Frame2.lean ====
/-
  The output projection's region (the third kernel launch), at the buffer contents `V` it is entered from.
  At grid point t the body reads a [512, 1024] block of the attention output, the whole [1024, 1024] weight array and the
  [1, 1024] bias row, and stores one [512, 1024] block: the block's rows against the weights' rows, plus the bias.
  Here: what the one store leaves in the output's staging buffer as a function of the three input blocks, the body's
  triple, the region's proof data and the body obligation at every grid point.
-/
import proofs.«127050_j83339545411776_2_alg».proof.Proof.Gen.KernelIdeal.Launch
import proofs.«127050_j83339545411776_2_alg».proof.Proof.Gen.KernelIdeal.Skeleton
import proofs.«127050_j83339545411776_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the pipeline fetched it there or
    not: when it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether the pipeline fetched it there or
    not: when it was not, the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether the pipeline fetched it there or
    not: when it was not, the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output window's staging buffer, from the three input blocks: its one store. -/
def out2_3 (x0 : Vec F S512x1024 .bf16) (x1 : Vec F S1024x1024 .bf16) (x2 : Vec F S1x1024 .f32) : Vec F S512x1024 .f32 :=
  View.canon [⟨r2_x, k2_pay1 (View.ld x0 r2_x) (View.ld x1 r2_w) (View.ld x2 r2_b)⟩]

/-- The store's rectangle is the whole buffer. -/
theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

/-! ## The body's triple -/

set_option maxHeartbeats 1000000 in
/-- The body on whole staging memrefs, the inputs' reading `x0`, `x1`, `x2` and the output's holding anything, runs to
    its continuation with the inputs' as they were and the output's at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer still at its block and the
    output's at `out2_3` of the input blocks; the invariant is the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.LibWithArrays.lean ====
/-
  A region's arrays put back among a core's buffer contents, when several windows read ONE array.

  `Pipeline.withArrays win c V A` is the contents `V` with each window's array replaced by `A w`. When the windows' arrays
  are distinct, the array of window `w` then holds `A w`. When two windows share an array that is still so provided
  the windows that share it agree on what it holds.
-/
import Idealize.ShloMosaic.Lib.Pipeline.FrameSuffix

noncomputable section

namespace Cert.Lib

open Idealize.ShloMosaic Idealize.ShloMosaic.Pipeline

/-- The buffer behind window `w`'s array holds `A w` after `withArrays`, when every window on the same array is given
    the same contents (`hA`) — no distinctness of the windows' arrays is asked. -/
theorem withArrays_arr_of_agree {nD : Nat} {τ : Topo} {sig : RefSig} {Val : EltTy → Type} {gr : Nat} {W : Nat}
    (win : Fin W → WinSpec sig gr) (c : Dev nD) (V : Valuation τ sig Val)
    (A : (w : Fin W) → Buf Val ((win w).arr.view.loc (c.tc : Thread nD τ))) (w : Fin W)
    (hA : ∀ w', arrRef win w' = arrRef win w → HEq (A w') (A w)) :
    withArrays win c V A (Proc.devRef .tc (arrRef win w)) = A w := by
  unfold withArrays
  have h : ∃ w', Proc.devRef .tc (arrRef win w') = Proc.devRef (τ := τ) .tc (arrRef win w) := ⟨w, rfl⟩
  rw [dif_pos h]
  exact eq_of_heq ((cast_heq _ _).trans (hA _ (Proc.devRef_injective _ h.choose_spec)))

end Cert.Lib

end
-- ==== Proof.FrameFold.lean ====
/-
  The buffer contents at every boundary of @main, from the launch to the return.

  @main is seven items: a stretch of host operations, the projection's region, a host reshape, the attention core's
  region, two host reshapes, the output projection's region, a host reshape. Between two items a core's unscoped buffers
  hold: the launch memory; then `StableHlo.after` each host stretch; and after a region, its windows' arrays at what the
  region's write-backs leave (the inputs as entered, the output with every grid point's block written back) and every
  other buffer as it was.
  No item writes an argument array: read back through the seven boundaries each holds its launch contents.
-/
import proofs.«127050_j83339545411776_2_alg».proof.Proof.Frame0
import proofs.«127050_j83339545411776_2_alg».proof.Proof.Frame1
import proofs.«127050_j83339545411776_2_alg».proof.Proof.Frame2
import proofs.«127050_j83339545411776_2_alg».proof.Proof.LibWithArrays
import proofs.«127050_j83339545411776_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev Wb0 : Dev nD → Valuation τ sig (Elt F) := fun c b => (s₀ m ρ).mem ((c : Dev nD), b)
/-- After the first host stretch (the projection region's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the projection region's exit. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the reshape of the projection (the attention region's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the attention region's exit. Its three input windows read one array; an input array is never written, so all
    three leave it as entered. -/
def Wb4 (c : Dev nD) : Valuation τ sig (Elt F) :=
  Pipeline.withArrays spec1 c (Wb3 m ρ c) fun w => (dat1 (Vb3 m ρ) c).arrAt w cfg1.N
/-- An input window's array ends as the region found it. -/
theorem arrAt1_in (c : Dev nD) (w : Fin cfg1.W) (hw : (cfg1.win w).isOut = false) (n : Nat) :
    (dat1 (Vb3 m ρ) c).arrAt w n = Vb3 m ρ c (Pipeline.arrRef spec1 w) :=
  ((dat1 (Vb3 m ρ) c).arrAt_in w hw n).trans (A_eq1 (Vb3 m ρ) c w)
/-- Two different windows of the attention region on one array are both inputs. -/
theorem shared1_inputs : ∀ w w' : Fin cfg1.W, Pipeline.arrRef spec1 w' = Pipeline.arrRef spec1 w → w' ≠ w →
    (cfg1.win w').isOut = false ∧ (cfg1.win w).isOut = false := by decide
theorem Wb4_arr (c : Dev nD) (w : Fin cfg1.W) :
    Wb4 m ρ c (Proc.devRef .tc (Pipeline.arrRef spec1 w)) = (dat1 (Vb3 m ρ) c).arrAt w cfg1.N := by
  unfold Wb4
  refine Cert.Lib.withArrays_arr_of_agree spec1 c _ _ w fun w' e => ?_
  by_cases hw : w' = w
  · subst hw; exact HEq.rfl
  · obtain ⟨h', h⟩ := shared1_inputs w w' e hw
    rw [arrAt1_in m ρ c w' h', arrAt1_in m ρ c w h]
    exact congr_arg_heq (Vb3 m ρ c) e
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- After the two reshapes (the output projection region's entry). -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b
/-- At the output projection region's exit. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
abbrev Vb6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vb6 m ρ c (Pipeline.arrRef spec2 w) :=
  (Wb6_arr m ρ c w).symm
theorem hrest2 (c : Dev nD) : ∀ b, b ∉ Finset.univ.image (Pipeline.arrRef spec2) → Vb6 m ρ c b = Vb5 m ρ c b :=
  fun b hb => Wb6_of_ne m ρ c b fun w e => hb (Finset.mem_image.mpr ⟨w, Finset.mem_univ _, e⟩)

/-- After the last reshape: what @main returns from. -/
abbrev Wb7 : Dev nD → Valuation τ sig (Elt F) := fun c => StableHlo.after hostOps3 (Wb6 m ρ c)

/-! ## The arguments end as launched -/

/-- A buffer that no host stretch writes and that is no window's array of any region holds, at the end, its launch
    contents. -/
theorem Wb7_of_bypass (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    Wb7 m ρ c (Proc.devRef .tc r) = m ((c : Thread nD τ).loc r) :=
  calc Wb7 m ρ c (Proc.devRef .tc r)
    _ = Wb6 m ρ c (Proc.devRef .tc r) := StableHlo.after_of_writes_sub hostOps3 _ hostOps3_writes h3
    _ = Wb5 m ρ c (Proc.devRef .tc r) := Wb6_of_ne m ρ c r a2
    _ = Wb4 m ρ c (Proc.devRef .tc r) := StableHlo.after_of_writes_sub hostOps2 _ hostOps2_writes h2
    _ = Wb3 m ρ c (Proc.devRef .tc r) := Wb4_of_ne m ρ c r a1
    _ = Wb2 m ρ c (Proc.devRef .tc r) := StableHlo.after_of_writes_sub hostOps1 _ hostOps1_writes h1
    _ = Wb1 m ρ c (Proc.devRef .tc r) := Wb2_of_ne m ρ c r a0
    _ = Wb0 m ρ c (Proc.devRef .tc r) := StableHlo.after_of_writes_sub hostOps0 _ hostOps0_writes h0
    _ = m ((c : Thread nD τ).loc r) := rfl

theorem Wb7_main_arg0 (c : Dev nD) : Wb7 m ρ c (Proc.devRef .tc main_arg0) = m ((c : Thread nD τ).loc main_arg0) :=
  Wb7_of_bypass m ρ c main_arg0 (by decide) (by decide) (by decide) (by decide) (by decide) (by decide) (by decide)
theorem Wb7_main_arg1 (c : Dev nD) : Wb7 m ρ c (Proc.devRef .tc main_arg1) = m ((c : Thread nD τ).loc main_arg1) :=
  Wb7_of_bypass m ρ c main_arg1 (by decide) (by decide) (by decide) (by decide) (by decide) (by decide) (by decide)
theorem Wb7_main_arg2 (c : Dev nD) : Wb7 m ρ c (Proc.devRef .tc main_arg2) = m ((c : Thread nD τ).loc main_arg2) :=
  Wb7_of_bypass m ρ c main_arg2 (by decide) (by decide) (by decide) (by decide) (by decide) (by decide) (by decide)
theorem Wb7_main_arg3 (c : Dev nD) : Wb7 m ρ c (Proc.devRef .tc main_arg3) = m ((c : Thread nD τ).loc main_arg3) :=
  Wb7_of_bypass m ρ c main_arg3 (by decide) (by decide) (by decide) (by decide) (by decide) (by decide) (by decide)
theorem Wb7_main_arg4 (c : Dev nD) : Wb7 m ρ c (Proc.devRef .tc main_arg4) = m ((c : Thread nD τ).loc main_arg4) :=
  Wb7_of_bypass m ρ c main_arg4 (by decide) (by decide) (by decide) (by decide) (by decide) (by decide) (by decide)

/-! ## The proof data family -/

/-- No launch has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c

end Cert.KernelIdeal.Fr

end
-- ==== Proof.FrameRegs.lean ====
/-
  @main's run: its seven items as segments over one thread state — every unscoped buffer of the core at the boundary's
  contents, the generator register at some state, nothing owed — and the launch.
  Each region takes its windows' arrays out of the unscoped buffers at entry and puts them back at exit. The attention
  region's three input windows read ONE array: at entry that buffer's full share is split in three parts, one per
  window, and at exit the three parts are put together again.
  The result: every weakly fair execution of @main terminates, faults nowhere, and ends with every unscoped buffer at the
  last boundary's contents.
-/
import proofs.«127050_j83339545411776_2_alg».proof.Proof.FrameFold

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One array read through three windows -/

/-- The two distinct buffers behind the attention region's four windows, each whole at the full share, ARE the four
    windows' arrays at their shares: the fused projection's buffer at the full share is its left half, its right
    half's left half and its right half's right half together; the output's buffer is its own window's. -/
theorem arrays1_iff (c : Dev nD) (dat : Dat τ (Elt F) Unit ℕ (UR sig nD τ) ℕ cfg1 c) (hq : dat.q = q1)
    (V : (b : Ref sig .tc) → Buf (Elt F) ((c : Thread nD τ).loc b))
    (Fa : (w : Fin cfg1.W) → Buf (Elt F) ((cfg1.win w).arr.view.loc (c.tc : Thread nD τ)))
    (hF : ∀ w, Fa w = V (Pipeline.arrRef spec1 w)) :
    (Pipeline.arrBufs (Ix := Unit) (Name := ℕ) (U := UR sig nD τ) (Lvl := ℕ) spec1 c V : sProp 𝕄) ⊣⊢ dat.arrays Fa := by
  unfold Pipeline.arrBufs Dat.arrays
  rw [show Finset.univ.image (Pipeline.arrRef spec1) = ({main_v5, main_v6} : Finset (Ref sig .tc)) from by decide]
  rw [bigSep_W1]
  rw [hF 0, hF 1, hF 2, hF 3]
  rw [(arr_whole1 0).set_eq_univ, (arr_whole1 3).set_eq_univ]
  have s0 : dat.share 0 = (fullShare : PosShare TreeShare).left := by unfold Dat.share; rw [hq]; rfl
  have s1 : dat.share 1 = (fullShare : PosShare TreeShare).right.left := by unfold Dat.share; rw [hq]; rfl
  have s2 : dat.share 2 = (fullShare : PosShare TreeShare).right.right := by unfold Dat.share; rw [hq]; rfl
  have s3 : dat.share 3 = fullShare := by unfold Dat.share; rfl
  rw [s0, s1, s2, s3]
  rw [bigSep_insert (by decide : main_v5 ∉ ({main_v6} : Finset (Ref sig .tc))), bigSep_singleton]
  have h1 := PosShare.mem_left_op_right (fullShare : PosShare TreeShare)
  have h2 := PosShare.mem_left_op_right ((fullShare : PosShare TreeShare).right)
  show iprop(((c : Thread nD τ).loc main_v5 ↦{fullShare} V main_v5) ∗ ((c : Thread nD τ).loc main_v6 ↦{fullShare} V main_v6)) ⊣⊢
    (iprop(((c : Thread nD τ).loc main_v5 ↦{(fullShare : PosShare TreeShare).left} V main_v5)
      ∗ ((c : Thread nD τ).loc main_v5 ↦{(fullShare : PosShare TreeShare).right.left} V main_v5)
      ∗ ((c : Thread nD τ).loc main_v5 ↦{(fullShare : PosShare TreeShare).right.right} V main_v5)
      ∗ ((c : Thread nD τ).loc main_v6 ↦{fullShare} V main_v6)) : sProp 𝕄)
  constructor
  · iintro ⟨H5, H6⟩
    ihave H := (pointsTo_share h1).1 $$ H5
    icases H with ⟨HL, HR⟩
    ihave H' := (pointsTo_share h2).1 $$ HR
    icases H' with ⟨HRL, HRR⟩
    isplitl [HL]; · iexact HL
    isplitl [HRL]; · iexact HRL
    isplitl [HRR]; · iexact HRR
    iexact H6
  · iintro ⟨HL, HRL, HRR, H6⟩
    isplitr [H6]
    · ihave HR := (pointsTo_share h2).2 $$ [HRL HRR]
      · isplitl [HRL]; · iexact HRL
        iexact HRR
      iapply (pointsTo_share h1).2
      isplitl [HL]; · iexact HL
      iexact HR
    · iexact H6

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Wb7 m ρ c) ∗ ∃ r, prngReg c r)

/-! ## The regions as segments -/

set_option backward.isDefEq.respectTransparency.types false in
/-- Region 0 over the thread state: entered from every unscoped buffer at `Wb1`, left with its arrays at what the
    write-backs leave and every other buffer as entered. Its arrays are split out of the unscoped buffers at entry and
    put back at exit; the generator register goes into the region's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. Its windows share an array, so its arrays are taken out of, and put back
    among, the unscoped buffers by `arrays1_iff`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit : (unscopedBufs c (Vb3 m ρ c) : sProp 𝕄)
        ⊢ iprop((pdats m ρ 1 c).arrays (pdats m ρ 1 c).A ∗ Pipeline.unscopedRest spec1 c (Vb3 m ρ c)) := by
      rw [Pipeline.unscopedBufs_split₀ (Pipeline.pin (pcfgs (F := F)) adm) 1 winFacts₀1.arr_unscoped c (Vb3 m ρ c)]
      exact sep_mono (arrays1_iff c (pdats m ρ 1 c) rfl (Vb3 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vb3 m ρ c))
        ⊢ (unscopedBufs c (Vb4 m ρ c) : sProp 𝕄) := by
      rw [Pipeline.unscopedBufs_split₀ (Pipeline.pin (pcfgs (F := F)) adm) 1 winFacts₀1.arr_unscoped c (Vb4 m ρ c)]
      refine sep_mono (arrays1_iff c (pdats m ρ 1 c) rfl (Vb4 m ρ c) _ (hF1 m ρ c)).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wb5`, left with its arrays at what the
    write-backs leave and every other buffer as entered. Its arrays are split out of the unscoped buffers at entry and
    put back at exit; the generator register goes into the region's invariant and comes back; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vb6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (Wb0 m ρ)),
    .region (reg0 m ρ),
    .host (hseg hostOps1 hostOps1_sub hostOps1_fresh (Wb2 m ρ)),
    .region (reg1 m ρ),
    .host (hseg hostOps2 hostOps2_sub hostOps2_fresh (Wb4 m ρ)),
    .region (reg2 m ρ),
    .host (hseg hostOps3 hostOps3_sub hostOps3_fresh (Wb6 m ρ)) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters, every weakly fair execution of @main on the
    TensorCores terminates, nothing faulting, and every final state has every unscoped buffer of every core at the last
    boundary's contents `Wb7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wb7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Wb7 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      · iexact Ho⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb7 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wb7_main_arg0 m ρ c),
     (h c _ (mem_uc main_arg1 (by decide))).trans (Wb7_main_arg1 m ρ c),
     (h c _ (mem_uc main_arg2 (by decide))).trans (Wb7_main_arg2 m ρ c),
     (h c _ (mem_uc main_arg3 (by decide))).trans (Wb7_main_arg3 m ρ c),
     (h c _ (mem_uc main_arg4 (by decide))).trans (Wb7_main_arg4 m ρ c)⟩) (run_main m ρ)

end Cert.KernelIdeal.Fr

end
-- ==== Proof.KFrame0.lean ====
/-
  The fused q/k/v projection's region (the first kernel launch), at the buffer contents `V` it is entered from.
  At grid point t the body reads a [256, 1024] block of x's rows, the whole [3072, 1024] weight array and the [1, 3072]
  bias row, and fills one [256, 3072] block by two stores: columns [0, 2048) (the queries and keys, through the feature
  map) and columns [2048, 3072) (the values, as projected).
  Here: what the two stores leave in the output's staging buffer as a function of the three input blocks, the body's
  triple, the region's proof data and the body obligation at every grid point.
-/
import proofs.«127050_j83339545411776_2_alg».proof.Proof.Gen.Kernel.Launch
import proofs.«127050_j83339545411776_2_alg».proof.Proof.Gen.Kernel.Skeleton
import proofs.«127050_j83339545411776_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it there or
    not: when it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it there or
    not: when it was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it there or
    not: when it was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S256x1024 := Rect.unit (s := S256x1024) ![0, 0] S256x1024.size inb_S256x1024_S256x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0
/-- Columns [0, 2048) of the output block. -/
abbrev r0_qk : Rect S256x3072 := Rect.unit (s := S256x3072) ![0, 0] S256x2048.size inb_S256x3072_S256x2048_0_0
/-- Columns [2048, 3072) of the output block. -/
abbrev r0_v : Rect S256x3072 := Rect.unit (s := S256x3072) ![0, 2048] S256x1024.size inb_S256x3072_S256x1024_0_2048

/-- What the body leaves in the output window's staging buffer, from the three input blocks: its two stores, the
    last one first. -/
def out0_3 (x0 : Vec F S256x1024 .f32) (x1 : Vec F S3072x1024 .bf16) (x2 : Vec F S1x3072 .f32) : Vec F S256x3072 .bf16 :=
  View.canon [⟨r0_v, k0_pay3 (View.ld x0 r0_x) (View.ld x1 r0_w) (View.ld x2 r0_b)⟩,
    ⟨r0_qk, k0_pay2 (View.ld x0 r0_x) (View.ld x1 r0_w) (View.ld x2 r0_b)⟩]

/-- The two column ranges, cut into [256, 1024] blocks, tile the [256, 3072] buffer. -/
theorem cover0_3 (p1 : Vec F S256x1024 .bf16) (p0 : Vec F S256x2048 .bf16) (y : S256x3072.Idx) :
    ∃ pc ∈ ([⟨r0_v, p1⟩, ⟨r0_qk, p0⟩] : List (View.Piece (Elt F) S256x3072 .bf16)), y ∈ pc.1.set :=
  View.cover_of_tiledBy [⟨r0_v, p1⟩, ⟨r0_qk, p0⟩] ![256, 1024] (by sl_kernel_rfl) y

/-! ## The body's triple -/

set_option maxHeartbeats 1000000 in
/-- The body on whole staging memrefs, the inputs' reading `x0`, `x1`, `x2` and the output's holding anything, runs to
    its continuation with the inputs' as they were and the output's at `out0_3` of them. -/
theorem sound_kernel0 (c : Dev nD) (E : Set ℕ) (i : grid0.Coords)
    (arg1 : Memref sig .tc .vmem S256x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S256x3072 .bf16) (harg4 : arg4.IsWhole)
    (x0 : Vec F S256x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_linear_kernel i arg1 harg1 arg2 harg2 arg3 harg3 arg4 harg4) K := by
  simp only [cc0__qkv_linear_kernel_eq_skeleton]; unfold cc0__qkv_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The region's proof data -/

/-- The arrays as the region finds them; after the body at point `t` each input's buffer still at its block and the
    output's at `out0_3` of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrame1.lean ====
/-
  The attention core's region (the second kernel launch), at the buffer contents `V` it is entered from.
  Its grid is (batch, head-quad). At a point the body reads three [1, 4096, 256] blocks of ONE array — the queries',
  keys' and values' columns of the quad, at three column offsets of the fused projection — and stores one [1, 4096, 256]
  block of the attention output. The three input windows read the same array, so each holds it at a part of the full
  share; the three parts compose to the whole.
  Here: what the store leaves in the output's staging buffer as a function of the three input blocks, the body's
  triple, the region's proof data and the body obligation at every grid point.
-/
import proofs.«127050_j83339545411776_2_alg».proof.Proof.Gen.Kernel.Launch
import proofs.«127050_j83339545411776_2_alg».proof.Proof.Gen.Kernel.Skeleton
import proofs.«127050_j83339545411776_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there or
    not: when it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether the pipeline fetched it there or
    not: when it was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether the pipeline fetched it there or
    not: when it was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole [1, 4096, 256] buffer -/

abbrev r1_o : Rect S1x4096x256 := Rect.unit (s := S1x4096x256) ![0, 0, 0] S1x4096x256.size inb_S1x4096x256_S1x4096x256_0_0_0

/-- What the body leaves in the output window's staging buffer, from the queries', keys' and values' blocks: its one
    store. The keys' column sums, the keys-by-values product and the two head-index tables are the first part's. -/
def out1_3 (x0 x1 x2 : Vec F S1x4096x256 .bf16) : Vec F S1x4096x256 .bf16 :=
  View.canon [⟨r1_o, k1_pay1 (k1_pay2 (View.ld x0 r1_o)) (k1_pay4 (View.ld x1 r1_o)) (k1_pay5 (View.ld x1 r1_o) (View.ld x2 r1_o))
    k1_pay6 (iota .tc S256x256 32 [1] iota_S256x256_d1_w32) 64#32 k1_pay7 0#32⟩]

/-- The store's rectangle is the whole buffer. -/
theorem cover1_3 (p0 : Vec F S1x4096x256 .bf16) (y : S1x4096x256.Idx) :
    ∃ pc ∈ ([⟨r1_o, p0⟩] : List (View.Piece (Elt F) S1x4096x256 .bf16)), y ∈ pc.1.set :=
  View.cover_of_tiled [⟨r1_o, p0⟩] S1x4096x256.size (by rfl) y

/-! ## The body's triple -/

set_option maxHeartbeats 1000000 in
/-- The body on whole staging memrefs, the inputs' reading `x0`, `x1`, `x2` and the output's holding anything, runs to
    its continuation with the inputs' as they were and the output's at `out1_3` of them. -/
theorem sound_kernel1 (c : Dev nD) (E : Set ℕ) (i : grid1.Coords)
    (arg2 : Memref sig .tc .vmem S1x4096x256 .bf16) (harg2 : arg2.IsWhole) (arg3 : Memref sig .tc .vmem S1x4096x256 .bf16) (harg3 : arg3.IsWhole)
    (arg4 : Memref sig .tc .vmem S1x4096x256 .bf16) (harg4 : arg4.IsWhole) (arg5 : Memref sig .tc .vmem S1x4096x256 .bf16) (harg5 : arg5.IsWhole)
    (x0 x1 x2 : Vec F S1x4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The share each window's array is held at: the three input windows read one array, at three parts of the full share
    that compose to it (the left half; the right half's left and right halves); the output's is its own, whole. -/
def q1 : Fin cfg1.W → PosShare TreeShare
  | ⟨0, _⟩ => (fullShare : PosShare TreeShare).left
  | ⟨1, _⟩ => (fullShare : PosShare TreeShare).right.left
  | ⟨2, _⟩ => (fullShare : PosShare TreeShare).right.right
  | ⟨3, _⟩ => fullShare

/-- The arrays as the region finds them; after the body at point `t` each input's buffer still at its block and the
    output's at `out1_3` of the input blocks; the invariant is the scoped rest and the generator register, untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrame2.lean ====
/-
  The output projection's region (the third kernel launch), at the buffer contents `V` it is entered from.
  At grid point t the body reads a [512, 1024] block of the attention output, the whole [1024, 1024] weight array and the
  [1, 1024] bias row, and stores one [512, 1024] block: the block's rows against the weights' rows, plus the bias.
  Here: what the one store leaves in the output's staging buffer as a function of the three input blocks, the body's
  triple, the region's proof data and the body obligation at every grid point.
-/
import proofs.«127050_j83339545411776_2_alg».proof.Proof.Gen.Kernel.Launch
import proofs.«127050_j83339545411776_2_alg».proof.Proof.Gen.Kernel.Skeleton
import proofs.«127050_j83339545411776_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the pipeline fetched it there or
    not: when it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether the pipeline fetched it there or
    not: when it was not, the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether the pipeline fetched it there or
    not: when it was not, the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output window's staging buffer, from the three input blocks: its one store. -/
def out2_3 (x0 : Vec F S512x1024 .bf16) (x1 : Vec F S1024x1024 .bf16) (x2 : Vec F S1x1024 .f32) : Vec F S512x1024 .f32 :=
  View.canon [⟨r2_x, k2_pay1 (View.ld x0 r2_x) (View.ld x1 r2_w) (View.ld x2 r2_b)⟩]

/-- The store's rectangle is the whole buffer. -/
theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

/-! ## The body's triple -/

set_option maxHeartbeats 1000000 in
/-- The body on whole staging memrefs, the inputs' reading `x0`, `x1`, `x2` and the output's holding anything, runs to
    its continuation with the inputs' as they were and the output's at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer still at its block and the
    output's at `out2_3` of the input blocks; the invariant is the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrameFold.lean ====
/-
  The buffer contents at every boundary of @main, from the launch to the return.

  @main is seven items: a stretch of host operations, the projection's region, a host reshape, the attention core's
  region, two host reshapes, the output projection's region, a host reshape. Between two items a core's unscoped buffers
  hold: the launch memory; then `StableHlo.after` each host stretch; and after a region, its windows' arrays at what the
  region's write-backs leave (the inputs as entered, the output with every grid point's block written back) and every
  other buffer as it was.
  No item writes an argument array: read back through the seven boundaries each holds its launch contents.
-/
import proofs.«127050_j83339545411776_2_alg».proof.Proof.KFrame0
import proofs.«127050_j83339545411776_2_alg».proof.Proof.KFrame1
import proofs.«127050_j83339545411776_2_alg».proof.Proof.KFrame2
import proofs.«127050_j83339545411776_2_alg».proof.Proof.LibWithArrays
import proofs.«127050_j83339545411776_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev Wb0 : Dev nD → Valuation τ sig (Elt F) := fun c b => (s₀ m ρ).mem ((c : Dev nD), b)
/-- After the first host stretch (the projection region's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the projection region's exit. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the reshape of the projection (the attention region's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the attention region's exit. Its three input windows read one array; an input array is never written, so all
    three leave it as entered. -/
def Wb4 (c : Dev nD) : Valuation τ sig (Elt F) :=
  Pipeline.withArrays spec1 c (Wb3 m ρ c) fun w => (dat1 (Vb3 m ρ) c).arrAt w cfg1.N
/-- An input window's array ends as the region found it. -/
theorem arrAt1_in (c : Dev nD) (w : Fin cfg1.W) (hw : (cfg1.win w).isOut = false) (n : Nat) :
    (dat1 (Vb3 m ρ) c).arrAt w n = Vb3 m ρ c (Pipeline.arrRef spec1 w) :=
  ((dat1 (Vb3 m ρ) c).arrAt_in w hw n).trans (A_eq1 (Vb3 m ρ) c w)
/-- Two different windows of the attention region on one array are both inputs. -/
theorem shared1_inputs : ∀ w w' : Fin cfg1.W, Pipeline.arrRef spec1 w' = Pipeline.arrRef spec1 w → w' ≠ w →
    (cfg1.win w').isOut = false ∧ (cfg1.win w).isOut = false := by decide
theorem Wb4_arr (c : Dev nD) (w : Fin cfg1.W) :
    Wb4 m ρ c (Proc.devRef .tc (Pipeline.arrRef spec1 w)) = (dat1 (Vb3 m ρ) c).arrAt w cfg1.N := by
  unfold Wb4
  refine Cert.Lib.withArrays_arr_of_agree spec1 c _ _ w fun w' e => ?_
  by_cases hw : w' = w
  · subst hw; exact HEq.rfl
  · obtain ⟨h', h⟩ := shared1_inputs w w' e hw
    rw [arrAt1_in m ρ c w' h', arrAt1_in m ρ c w h]
    exact congr_arg_heq (Vb3 m ρ c) e
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- After the two reshapes (the output projection region's entry). -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b
/-- At the output projection region's exit. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
abbrev Vb6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vb6 m ρ c (Pipeline.arrRef spec2 w) :=
  (Wb6_arr m ρ c w).symm
theorem hrest2 (c : Dev nD) : ∀ b, b ∉ Finset.univ.image (Pipeline.arrRef spec2) → Vb6 m ρ c b = Vb5 m ρ c b :=
  fun b hb => Wb6_of_ne m ρ c b fun w e => hb (Finset.mem_image.mpr ⟨w, Finset.mem_univ _, e⟩)

/-- After the last reshape: what @main returns from. -/
abbrev Wb7 : Dev nD → Valuation τ sig (Elt F) := fun c => StableHlo.after hostOps3 (Wb6 m ρ c)

/-! ## The arguments end as launched -/

/-- A buffer that no host stretch writes and that is no window's array of any region holds, at the end, its launch
    contents. -/
theorem Wb7_of_bypass (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    Wb7 m ρ c (Proc.devRef .tc r) = m ((c : Thread nD τ).loc r) :=
  calc Wb7 m ρ c (Proc.devRef .tc r)
    _ = Wb6 m ρ c (Proc.devRef .tc r) := StableHlo.after_of_writes_sub hostOps3 _ hostOps3_writes h3
    _ = Wb5 m ρ c (Proc.devRef .tc r) := Wb6_of_ne m ρ c r a2
    _ = Wb4 m ρ c (Proc.devRef .tc r) := StableHlo.after_of_writes_sub hostOps2 _ hostOps2_writes h2
    _ = Wb3 m ρ c (Proc.devRef .tc r) := Wb4_of_ne m ρ c r a1
    _ = Wb2 m ρ c (Proc.devRef .tc r) := StableHlo.after_of_writes_sub hostOps1 _ hostOps1_writes h1
    _ = Wb1 m ρ c (Proc.devRef .tc r) := Wb2_of_ne m ρ c r a0
    _ = Wb0 m ρ c (Proc.devRef .tc r) := StableHlo.after_of_writes_sub hostOps0 _ hostOps0_writes h0
    _ = m ((c : Thread nD τ).loc r) := rfl

theorem Wb7_main_arg0 (c : Dev nD) : Wb7 m ρ c (Proc.devRef .tc main_arg0) = m ((c : Thread nD τ).loc main_arg0) :=
  Wb7_of_bypass m ρ c main_arg0 (by decide) (by decide) (by decide) (by decide) (by decide) (by decide) (by decide)
theorem Wb7_main_arg1 (c : Dev nD) : Wb7 m ρ c (Proc.devRef .tc main_arg1) = m ((c : Thread nD τ).loc main_arg1) :=
  Wb7_of_bypass m ρ c main_arg1 (by decide) (by decide) (by decide) (by decide) (by decide) (by decide) (by decide)
theorem Wb7_main_arg2 (c : Dev nD) : Wb7 m ρ c (Proc.devRef .tc main_arg2) = m ((c : Thread nD τ).loc main_arg2) :=
  Wb7_of_bypass m ρ c main_arg2 (by decide) (by decide) (by decide) (by decide) (by decide) (by decide) (by decide)
theorem Wb7_main_arg3 (c : Dev nD) : Wb7 m ρ c (Proc.devRef .tc main_arg3) = m ((c : Thread nD τ).loc main_arg3) :=
  Wb7_of_bypass m ρ c main_arg3 (by decide) (by decide) (by decide) (by decide) (by decide) (by decide) (by decide)
theorem Wb7_main_arg4 (c : Dev nD) : Wb7 m ρ c (Proc.devRef .tc main_arg4) = m ((c : Thread nD τ).loc main_arg4) :=
  Wb7_of_bypass m ρ c main_arg4 (by decide) (by decide) (by decide) (by decide) (by decide) (by decide) (by decide)

/-! ## The proof data family -/

/-- No launch has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c

end Cert.Kernel.Fr

end
-- ==== Proof.KFrameRegs.lean ====
/-
  @main's run: its seven items as segments over one thread state — every unscoped buffer of the core at the boundary's
  contents, the generator register at some state, nothing owed — and the launch.
  Each region takes its windows' arrays out of the unscoped buffers at entry and puts them back at exit. The attention
  region's three input windows read ONE array: at entry that buffer's full share is split in three parts, one per
  window, and at exit the three parts are put together again.
  The result: every weakly fair execution of @main terminates, faults nowhere, and ends with every unscoped buffer at the
  last boundary's contents.
-/
import proofs.«127050_j83339545411776_2_alg».proof.Proof.KFrameFold

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One array read through three windows -/

/-- The two distinct buffers behind the attention region's four windows, each whole at the full share, ARE the four
    windows' arrays at their shares: the fused projection's buffer at the full share is its left half, its right
    half's left half and its right half's right half together; the output's buffer is its own window's. -/
theorem arrays1_iff (c : Dev nD) (dat : Dat τ (Elt F) Unit ℕ (UR sig nD τ) ℕ cfg1 c) (hq : dat.q = q1)
    (V : (b : Ref sig .tc) → Buf (Elt F) ((c : Thread nD τ).loc b))
    (Fa : (w : Fin cfg1.W) → Buf (Elt F) ((cfg1.win w).arr.view.loc (c.tc : Thread nD τ)))
    (hF : ∀ w, Fa w = V (Pipeline.arrRef spec1 w)) :
    (Pipeline.arrBufs (Ix := Unit) (Name := ℕ) (U := UR sig nD τ) (Lvl := ℕ) spec1 c V : sProp 𝕄) ⊣⊢ dat.arrays Fa := by
  unfold Pipeline.arrBufs Dat.arrays
  rw [show Finset.univ.image (Pipeline.arrRef spec1) = ({main_v5, main_v6} : Finset (Ref sig .tc)) from by decide]
  rw [bigSep_W1]
  rw [hF 0, hF 1, hF 2, hF 3]
  rw [(arr_whole1 0).set_eq_univ, (arr_whole1 3).set_eq_univ]
  have s0 : dat.share 0 = (fullShare : PosShare TreeShare).left := by unfold Dat.share; rw [hq]; rfl
  have s1 : dat.share 1 = (fullShare : PosShare TreeShare).right.left := by unfold Dat.share; rw [hq]; rfl
  have s2 : dat.share 2 = (fullShare : PosShare TreeShare).right.right := by unfold Dat.share; rw [hq]; rfl
  have s3 : dat.share 3 = fullShare := by unfold Dat.share; rfl
  rw [s0, s1, s2, s3]
  rw [bigSep_insert (by decide : main_v5 ∉ ({main_v6} : Finset (Ref sig .tc))), bigSep_singleton]
  have h1 := PosShare.mem_left_op_right (fullShare : PosShare TreeShare)
  have h2 := PosShare.mem_left_op_right ((fullShare : PosShare TreeShare).right)
  show iprop(((c : Thread nD τ).loc main_v5 ↦{fullShare} V main_v5) ∗ ((c : Thread nD τ).loc main_v6 ↦{fullShare} V main_v6)) ⊣⊢
    (iprop(((c : Thread nD τ).loc main_v5 ↦{(fullShare : PosShare TreeShare).left} V main_v5)
      ∗ ((c : Thread nD τ).loc main_v5 ↦{(fullShare : PosShare TreeShare).right.left} V main_v5)
      ∗ ((c : Thread nD τ).loc main_v5 ↦{(fullShare : PosShare TreeShare).right.right} V main_v5)
      ∗ ((c : Thread nD τ).loc main_v6 ↦{fullShare} V main_v6)) : sProp 𝕄)
  constructor
  · iintro ⟨H5, H6⟩
    ihave H := (pointsTo_share h1).1 $$ H5
    icases H with ⟨HL, HR⟩
    ihave H' := (pointsTo_share h2).1 $$ HR
    icases H' with ⟨HRL, HRR⟩
    isplitl [HL]; · iexact HL
    isplitl [HRL]; · iexact HRL
    isplitl [HRR]; · iexact HRR
    iexact H6
  · iintro ⟨HL, HRL, HRR, H6⟩
    isplitr [H6]
    · ihave HR := (pointsTo_share h2).2 $$ [HRL HRR]
      · isplitl [HRL]; · iexact HRL
        iexact HRR
      iapply (pointsTo_share h1).2
      isplitl [HL]; · iexact HL
      iexact HR
    · iexact H6

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Wb7 m ρ c) ∗ ∃ r, prngReg c r)

/-! ## The regions as segments -/

set_option backward.isDefEq.respectTransparency.types false in
/-- Region 0 over the thread state: entered from every unscoped buffer at `Wb1`, left with its arrays at what the
    write-backs leave and every other buffer as entered. Its arrays are split out of the unscoped buffers at entry and
    put back at exit; the generator register goes into the region's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. Its windows share an array, so its arrays are taken out of, and put back
    among, the unscoped buffers by `arrays1_iff`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit : (unscopedBufs c (Vb3 m ρ c) : sProp 𝕄)
        ⊢ iprop((pdats m ρ 1 c).arrays (pdats m ρ 1 c).A ∗ Pipeline.unscopedRest spec1 c (Vb3 m ρ c)) := by
      rw [Pipeline.unscopedBufs_split₀ (Pipeline.pin (pcfgs (F := F)) adm) 1 winFacts₀1.arr_unscoped c (Vb3 m ρ c)]
      exact sep_mono (arrays1_iff c (pdats m ρ 1 c) rfl (Vb3 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vb3 m ρ c))
        ⊢ (unscopedBufs c (Vb4 m ρ c) : sProp 𝕄) := by
      rw [Pipeline.unscopedBufs_split₀ (Pipeline.pin (pcfgs (F := F)) adm) 1 winFacts₀1.arr_unscoped c (Vb4 m ρ c)]
      refine sep_mono (arrays1_iff c (pdats m ρ 1 c) rfl (Vb4 m ρ c) _ (hF1 m ρ c)).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wb5`, left with its arrays at what the
    write-backs leave and every other buffer as entered. Its arrays are split out of the unscoped buffers at entry and
    put back at exit; the generator register goes into the region's invariant and comes back; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vb6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (Wb0 m ρ)),
    .region (reg0 m ρ),
    .host (hseg hostOps1 hostOps1_sub hostOps1_fresh (Wb2 m ρ)),
    .region (reg1 m ρ),
    .host (hseg hostOps2 hostOps2_sub hostOps2_fresh (Wb4 m ρ)),
    .region (reg2 m ρ),
    .host (hseg hostOps3 hostOps3_sub hostOps3_fresh (Wb6 m ρ)) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters, every weakly fair execution of @main on the
    TensorCores terminates, nothing faulting, and every final state has every unscoped buffer of every core at the last
    boundary's contents `Wb7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wb7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Wb7 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      · iexact Ho⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb7 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wb7_main_arg0 m ρ c),
     (h c _ (mem_uc main_arg1 (by decide))).trans (Wb7_main_arg1 m ρ c),
     (h c _ (mem_uc main_arg2 (by decide))).trans (Wb7_main_arg2 m ρ c),
     (h c _ (mem_uc main_arg3 (by decide))).trans (Wb7_main_arg3 m ρ c),
     (h c _ (mem_uc main_arg4 (by decide))).trans (Wb7_main_arg4 m ρ c)⟩) (run_main m ρ)

end Cert.Kernel.Fr

end
-- ==== Proof.RefStages.lean ====
/-
  The reference program's result as named stages: each one step of the layer — the fused projection, the split into
  thirds and heads, the feature map, the key-value state, the numerator, the normaliser, the merge of heads, the output
  projection — a small term over its operands, and the layer their composition.
-/
import proofs.«127050_j83339545411776_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The result as named stages

Each stage is one step of the layer, a small term over its operands; the run's result is their composition. -/

/-- The fused projection with its bias: x against w's rows, plus b broadcast over batch and sequence. -/
def projS (x : FVec F S4x4096x1024 .f32) (w : FVec F S3072x1024 .f32) (b : FVec F S3072 .f32) : FVec F S4x4096x3072 .f32 :=
  addf (Host.dotGeneral dot_S4x4096x1024_S3072x1024_S4x4096x3072_2_1_01_0_n_n none x w)
    (broadcastInDim S4x4096x3072 ![0, 1, 2] bcast_S1x1x3072_S4x4096x3072_0_1_2
      (broadcastInDim S1x1x3072 ![2] bcast_S3072_S1x1x3072_2 b))

/-- The projection's columns split (third, head, feature) and the thirds and heads brought to the front. -/
def headsS (p : FVec F S4x4096x3072 .f32) : FVec F S3x4x16x4096x64 .f32 :=
  transpose S3x4x16x4096x64 [2, 0, 3, 1, 4] (shapeCast S4x4096x3x16x64 p shapeCasts_S4x4096x3072_S4x4096x3x16x64)
    transposes_S4x4096x3x16x64_S3x4x16x4096x64_2_0_3_1_4

/-- The first third (queries before the feature map). -/
def third0S (h : FVec F S3x4x16x4096x64 .f32) : FVec F S4x16x4096x64 .f32 :=
  shapeCast S4x16x4096x64 (extractStridedSlice S1x4x16x4096x64 ![0, 0, 0, 0, 0] h slices_S3x4x16x4096x64_S1x4x16x4096x64_0_0_0_0_0)
    shapeCasts_S1x4x16x4096x64_S4x16x4096x64
/-- The second third (keys before the feature map). -/
def third1S (h : FVec F S3x4x16x4096x64 .f32) : FVec F S4x16x4096x64 .f32 :=
  shapeCast S4x16x4096x64 (extractStridedSlice S1x4x16x4096x64 ![1, 0, 0, 0, 0] h slices_S3x4x16x4096x64_S1x4x16x4096x64_1_0_0_0_0)
    shapeCasts_S1x4x16x4096x64_S4x16x4096x64
/-- The last third (values). -/
def third2S (h : FVec F S3x4x16x4096x64 .f32) : FVec F S4x16x4096x64 .f32 :=
  shapeCast S4x16x4096x64 (extractStridedSlice S1x4x16x4096x64 ![2, 0, 0, 0, 0] h slices_S3x4x16x4096x64_S1x4x16x4096x64_2_0_0_0_0)
    shapeCasts_S1x4x16x4096x64_S4x16x4096x64

/-- The constant c at every index of a head-split array. -/
def splatS (c : BitVec 32) : FVec F S4x16x4096x64 .f32 :=
  broadcastInDim S4x16x4096x64 ![] bcast_S_S4x16x4096x64 (constant S_ .f32 c)

/-- elu: z where z > 0, otherwise 1 · expm1 of (0 where z > 0, otherwise z). -/
def eluS (z : FVec F S4x16x4096x64 .f32) : FVec F S4x16x4096x64 .f32 :=
  select (cmpf .ogt z (splatS 0x00000000#32)) z
    (mulf (splatS 0x3F800000#32)
      (Host.expm1 (select (cmpf .ogt z (splatS 0x00000000#32))
        (broadcastInDim S4x16x4096x64 ![] bcast_S_S4x16x4096x64 (id (constant S_ .f32 0x00000000#32))) z)))

/-- The feature map elu + 1. -/
def featS (z : FVec F S4x16x4096x64 .f32) : FVec F S4x16x4096x64 .f32 := addf (eluS z) (splatS 0x3F800000#32)

/-- The key-value state per batch and head: keys against values over the sequence. -/
def kvS (k v : FVec F S4x16x4096x64 .f32) : FVec F S4x16x64x64 .f32 :=
  Host.dotGeneral dot_S4x16x4096x64_S4x16x4096x64_S4x16x64x64_2_2_3_3_01_01 none k v

/-- The numerator: queries against the state over the feature axis. -/
def numS (q : FVec F S4x16x4096x64 .f32) (kv : FVec F S4x16x64x64 .f32) : FVec F S4x16x4096x64 .f32 :=
  Host.dotGeneral dot_S4x16x4096x64_S4x16x64x64_S4x16x4096x64_3_2_2_3_01_01 none q kv

/-- The normaliser: the keys summed over the sequence, plus the small constant, broadcast back over the sequence. -/
def denS (k : FVec F S4x16x4096x64 .f32) : FVec F S4x16x4096x64 .f32 :=
  broadcastInDim S4x16x4096x64 ![0, 1, 2, 3] bcast_S4x16x1x64_S4x16x4096x64_0_1_2_3
    (addf
      (broadcastInDim S4x16x1x64 ![0, 1, 3] bcast_S4x16x64_S4x16x1x64_0_1_3
        (Host.reduceAdd k (constant S_ .f32 0x00000000#32) reducesTo_S4x16x4096x64_S4x16x64_d2 h_S_))
      (broadcastInDim S4x16x1x64 ![] bcast_S_S4x16x1x64 (constant S_ .f32 0x358637BD#32)))

/-- Heads merged back into columns: (batch, head, position, feature) to (batch, position, 64·head + feature). -/
def mergeS (a : FVec F S4x16x4096x64 .f32) : FVec F S4x4096x1024 .f32 :=
  shapeCast S4x4096x1024 (transpose S4x4096x16x64 [0, 2, 1, 3] a transposes_S4x16x4096x64_S4x4096x16x64_0_2_1_3)
    shapeCasts_S4x4096x16x64_S4x4096x1024

/-- The output projection with its bias. -/
def outS (a : FVec F S4x4096x1024 .f32) (wo : FVec F S1024x1024 .f32) (bo : FVec F S1024 .f32) : FVec F S4x4096x1024 .f32 :=
  addf (Host.dotGeneral dot_S4x4096x1024_S1024x1024_S4x4096x1024_2_1_01_0_n_n none a wo)
    (broadcastInDim S4x4096x1024 ![0, 1, 2] bcast_S1x1x1024_S4x4096x1024_0_1_2
      (broadcastInDim S1x1x1024 ![2] bcast_S1024_S1x1x1024_2 bo))

/-- Queries, keys and values of the arguments, per head. -/
def qS (x : FVec F S4x4096x1024 .f32) (w : FVec F S3072x1024 .f32) (b : FVec F S3072 .f32) : FVec F S4x16x4096x64 .f32 :=
  featS (third0S (headsS (projS x w b)))
@[inherit_doc qS]
def kS (x : FVec F S4x4096x1024 .f32) (w : FVec F S3072x1024 .f32) (b : FVec F S3072 .f32) : FVec F S4x16x4096x64 .f32 :=
  featS (third1S (headsS (projS x w b)))
@[inherit_doc qS]
def vS (x : FVec F S4x4096x1024 .f32) (w : FVec F S3072x1024 .f32) (b : FVec F S3072 .f32) : FVec F S4x16x4096x64 .f32 :=
  third2S (headsS (projS x w b))

/-- The attention output per head: numerator over normaliser. -/
def attnS (x : FVec F S4x4096x1024 .f32) (w : FVec F S3072x1024 .f32) (b : FVec F S3072 .f32) : FVec F S4x16x4096x64 .f32 :=
  Host.divf (numS (qS x w b) (kvS (kS x w b) (vS x w b))) (denS (kS x w b))

/-- The whole layer: what @main leaves in its result buffer, as a term of the five arguments. -/
def resultS (x : FVec F S4x4096x1024 .f32) (w : FVec F S3072x1024 .f32) (b : FVec F S3072 .f32)
    (wo : FVec F S1024x1024 .f32) (bo : FVec F S1024 .f32) : FVec F S4x4096x1024 .f32 :=
  outS (mergeS (attnS x w b)) wo bo

end Cert.ReferenceIdeal.RefRun

end
-- ==== Proof.RefRun.lean ====
/-
  The reference program's @main as ONE list of its 64 host operations — the 34 of @main itself and, at each of
  the two calls of @elu, that function's 15 (its own 11, the 3 of the select-against-a-scalar helper it calls and
  the 1 of the plain select helper), listed where the call stands over that call's own buffers — and its run read
  back: every weakly fair execution terminates with each buffer at the operations' fold over the launch contents.
-/
import proofs.«127050_j83339545411776_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 64 operations, in program order, the calls unfolded at their sites. -/
abbrev ops : List (HloOp τ sig (Elt F)) :=
  [ binary main_arg0 main_arg1 main_v0 ((fun l r => Host.dotGeneral dot_S4x4096x1024_S3072x1024_S4x4096x3072_2_1_01_0_n_n none l r) : (⟨S4x4096x1024, .f32⟩ : BufTy).Contents (Elt F) → (⟨S3072x1024, .f32⟩ : BufTy).Contents (Elt F) → (⟨S4x4096x3072, .f32⟩ : BufTy).Contents (Elt F)),
    unary main_arg2 main_v1 (broadcastInDim S1x1x3072 ![2] bcast_S3072_S1x1x3072_2 : (⟨S3072, .f32⟩ : BufTy).Contents (Elt F) → (⟨S1x1x3072, .f32⟩ : BufTy).Contents (Elt F)),
    unary main_v1 main_v2 (broadcastInDim S4x4096x3072 ![0, 1, 2] bcast_S1x1x3072_S4x4096x3072_0_1_2 : (⟨S1x1x3072, .f32⟩ : BufTy).Contents (Elt F) → (⟨S4x4096x3072, .f32⟩ : BufTy).Contents (Elt F)),
    binary main_v0 main_v2 main_v3 (addf : (⟨S4x4096x3072, .f32⟩ : BufTy).Contents (Elt F) → (⟨S4x4096x3072, .f32⟩ : BufTy).Contents (Elt F) → (⟨S4x4096x3072, .f32⟩ : BufTy).Contents (Elt F)),
    reshape main_v3 main_v4 rfl shapeCasts_S4x4096x3072_S4x4096x3x16x64,
    unary main_v4 main_v5 ((transpose S3x4x16x4096x64 [2, 0, 3, 1, 4] · transposes_S4x4096x3x16x64_S3x4x16x4096x64_2_0_3_1_4) : (⟨S4x4096x3x16x64, .f32⟩ : BufTy).Contents (Elt F) → (⟨S3x4x16x4096x64, .f32⟩ : BufTy).Contents (Elt F)),
    unary main_v5 main_v6 ((extractStridedSlice S1x4x16x4096x64 ![0, 0, 0, 0, 0] · slices_S3x4x16x4096x64_S1x4x16x4096x64_0_0_0_0_0) : (⟨S3x4x16x4096x64, .f32⟩ : BufTy).Contents (Elt F) → (⟨S1x4x16x4096x64, .f32⟩ : BufTy).Contents (Elt F)),
    reshape main_v6 main_v7 rfl shapeCasts_S1x4x16x4096x64_S4x16x4096x64,
    unary main_v5 main_v8 ((extractStridedSlice S1x4x16x4096x64 ![1, 0, 0, 0, 0] · slices_S3x4x16x4096x64_S1x4x16x4096x64_1_0_0_0_0) : (⟨S3x4x16x4096x64, .f32⟩ : BufTy).Contents (Elt F) → (⟨S1x4x16x4096x64, .f32⟩ : BufTy).Contents (Elt F)),
    reshape main_v8 main_v9 rfl shapeCasts_S1x4x16x4096x64_S4x16x4096x64,
    unary main_v5 main_v10 ((extractStridedSlice S1x4x16x4096x64 ![2, 0, 0, 0, 0] · slices_S3x4x16x4096x64_S1x4x16x4096x64_2_0_0_0_0) : (⟨S3x4x16x4096x64, .f32⟩ : BufTy).Contents (Elt F) → (⟨S1x4x16x4096x64, .f32⟩ : BufTy).Contents (Elt F)),
    reshape main_v10 main_v11 rfl shapeCasts_S1x4x16x4096x64_S4x16x4096x64,
    TRef.nullary main_call0.cst (constant S_ .f32 0x00000000#32),
    TRef.unary main_call0.cst main_call0.v0 (broadcastInDim S4x16x4096x64 ![] bcast_S_S4x16x4096x64),
    TRef.binary (.of main_v7) main_call0.v0 main_call0.v1 (cmpf .ogt),
    TRef.nullary main_call0.cst_0 (constant S_ .f32 0x00000000#32),
    TRef.unary main_call0.cst_0 main_call0.v2 (broadcastInDim S4x16x4096x64 ![] bcast_S_S4x16x4096x64),
    TRef.binary (.of main_v7) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x16x4096x64 ![] bcast_S_S4x16x4096x64),
    TRef.ternary main_call0.v3 main_call0.call0.v1 (.of main_v7) main_call0.call0.v2 select,
    TRef.unary main_call0.call0.v2 main_call0.v5 Host.expm1,
    TRef.nullary main_call0.cst_2 (constant S_ .f32 0x3F800000#32),
    TRef.unary main_call0.cst_2 main_call0.v6 (broadcastInDim S4x16x4096x64 ![] bcast_S_S4x16x4096x64),
    TRef.binary main_call0.v6 main_call0.v5 main_call0.v7 mulf,
    TRef.ternary main_call0.v1 (.of main_v7) main_call0.v7 main_call0.call1.v0 select,
    nullary main_cst (constant S_ .f32 0x3F800000#32),
    unary main_cst main_v13 (broadcastInDim S4x16x4096x64 ![] bcast_S_S4x16x4096x64 : (⟨S_, .f32⟩ : BufTy).Contents (Elt F) → (⟨S4x16x4096x64, .f32⟩ : BufTy).Contents (Elt F)),
    binary main_v12 main_v13 main_v14 (addf : (⟨S4x16x4096x64, .f32⟩ : BufTy).Contents (Elt F) → (⟨S4x16x4096x64, .f32⟩ : BufTy).Contents (Elt F) → (⟨S4x16x4096x64, .f32⟩ : BufTy).Contents (Elt F)),
    TRef.nullary main_call1.cst (constant S_ .f32 0x00000000#32),
    TRef.unary main_call1.cst main_call1.v0 (broadcastInDim S4x16x4096x64 ![] bcast_S_S4x16x4096x64),
    TRef.binary (.of main_v9) main_call1.v0 main_call1.v1 (cmpf .ogt),
    TRef.nullary main_call1.cst_0 (constant S_ .f32 0x00000000#32),
    TRef.unary main_call1.cst_0 main_call1.v2 (broadcastInDim S4x16x4096x64 ![] bcast_S_S4x16x4096x64),
    TRef.binary (.of main_v9) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x16x4096x64 ![] bcast_S_S4x16x4096x64),
    TRef.ternary main_call1.v3 main_call1.call0.v1 (.of main_v9) main_call1.call0.v2 select,
    TRef.unary main_call1.call0.v2 main_call1.v5 Host.expm1,
    TRef.nullary main_call1.cst_2 (constant S_ .f32 0x3F800000#32),
    TRef.unary main_call1.cst_2 main_call1.v6 (broadcastInDim S4x16x4096x64 ![] bcast_S_S4x16x4096x64),
    TRef.binary main_call1.v6 main_call1.v5 main_call1.v7 mulf,
    TRef.ternary main_call1.v1 (.of main_v9) main_call1.v7 main_call1.call1.v0 select,
    nullary main_cst_0 (constant S_ .f32 0x3F800000#32),
    unary main_cst_0 main_v16 (broadcastInDim S4x16x4096x64 ![] bcast_S_S4x16x4096x64 : (⟨S_, .f32⟩ : BufTy).Contents (Elt F) → (⟨S4x16x4096x64, .f32⟩ : BufTy).Contents (Elt F)),
    binary main_v15 main_v16 main_v17 (addf : (⟨S4x16x4096x64, .f32⟩ : BufTy).Contents (Elt F) → (⟨S4x16x4096x64, .f32⟩ : BufTy).Contents (Elt F) → (⟨S4x16x4096x64, .f32⟩ : BufTy).Contents (Elt F)),
    binary main_v17 main_v11 main_v18 ((fun l r => Host.dotGeneral dot_S4x16x4096x64_S4x16x4096x64_S4x16x64x64_2_2_3_3_01_01 none l r) : (⟨S4x16x4096x64, .f32⟩ : BufTy).Contents (Elt F) → (⟨S4x16x4096x64, .f32⟩ : BufTy).Contents (Elt F) → (⟨S4x16x64x64, .f32⟩ : BufTy).Contents (Elt F)),
    binary main_v14 main_v18 main_v19 ((fun l r => Host.dotGeneral dot_S4x16x4096x64_S4x16x64x64_S4x16x4096x64_3_2_2_3_01_01 none l r) : (⟨S4x16x4096x64, .f32⟩ : BufTy).Contents (Elt F) → (⟨S4x16x64x64, .f32⟩ : BufTy).Contents (Elt F) → (⟨S4x16x4096x64, .f32⟩ : BufTy).Contents (Elt F)),
    nullary main_cst_1 (constant S_ .f32 0x00000000#32),
    binary main_v17 main_cst_1 main_v20 ((fun x v => Host.reduceAdd x v reducesTo_S4x16x4096x64_S4x16x64_d2 h_S_) : (⟨S4x16x4096x64, .f32⟩ : BufTy).Contents (Elt F) → (⟨S_, .f32⟩ : BufTy).Contents (Elt F) → (⟨S4x16x64, .f32⟩ : BufTy).Contents (Elt F)),
    unary main_v20 main_v21 (broadcastInDim S4x16x1x64 ![0, 1, 3] bcast_S4x16x64_S4x16x1x64_0_1_3 : (⟨S4x16x64, .f32⟩ : BufTy).Contents (Elt F) → (⟨S4x16x1x64, .f32⟩ : BufTy).Contents (Elt F)),
    nullary main_cst_2 (constant S_ .f32 0x358637BD#32),
    unary main_cst_2 main_v22 (broadcastInDim S4x16x1x64 ![] bcast_S_S4x16x1x64 : (⟨S_, .f32⟩ : BufTy).Contents (Elt F) → (⟨S4x16x1x64, .f32⟩ : BufTy).Contents (Elt F)),
    binary main_v21 main_v22 main_v23 (addf : (⟨S4x16x1x64, .f32⟩ : BufTy).Contents (Elt F) → (⟨S4x16x1x64, .f32⟩ : BufTy).Contents (Elt F) → (⟨S4x16x1x64, .f32⟩ : BufTy).Contents (Elt F)),
    unary main_v23 main_v24 (broadcastInDim S4x16x4096x64 ![0, 1, 2, 3] bcast_S4x16x1x64_S4x16x4096x64_0_1_2_3 : (⟨S4x16x1x64, .f32⟩ : BufTy).Contents (Elt F) → (⟨S4x16x4096x64, .f32⟩ : BufTy).Contents (Elt F)),
    binary main_v19 main_v24 main_v25 (Host.divf : (⟨S4x16x4096x64, .f32⟩ : BufTy).Contents (Elt F) → (⟨S4x16x4096x64, .f32⟩ : BufTy).Contents (Elt F) → (⟨S4x16x4096x64, .f32⟩ : BufTy).Contents (Elt F)),
    unary main_v25 main_v26 ((transpose S4x4096x16x64 [0, 2, 1, 3] · transposes_S4x16x4096x64_S4x4096x16x64_0_2_1_3) : (⟨S4x16x4096x64, .f32⟩ : BufTy).Contents (Elt F) → (⟨S4x4096x16x64, .f32⟩ : BufTy).Contents (Elt F)),
    reshape main_v26 main_v27 rfl shapeCasts_S4x4096x16x64_S4x4096x1024,
    binary main_v27 main_arg3 main_v28 ((fun l r => Host.dotGeneral dot_S4x4096x1024_S1024x1024_S4x4096x1024_2_1_01_0_n_n none l r) : (⟨S4x4096x1024, .f32⟩ : BufTy).Contents (Elt F) → (⟨S1024x1024, .f32⟩ : BufTy).Contents (Elt F) → (⟨S4x4096x1024, .f32⟩ : BufTy).Contents (Elt F)),
    unary main_arg4 main_v29 (broadcastInDim S1x1x1024 ![2] bcast_S1024_S1x1x1024_2 : (⟨S1024, .f32⟩ : BufTy).Contents (Elt F) → (⟨S1x1x1024, .f32⟩ : BufTy).Contents (Elt F)),
    unary main_v29 main_v30 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v28 main_v30 main_v31 (addf : (⟨S4x4096x1024, .f32⟩ : BufTy).Contents (Elt F) → (⟨S4x4096x1024, .f32⟩ : BufTy).Contents (Elt F) → (⟨S4x4096x1024, .f32⟩ : BufTy).Contents (Elt F)) ]

-- sixty-four binds re-associated: the rewrite under the chain recurses once per statement
set_option maxRecDepth 2048 in
/-- @main is that straight line: the three functions' bodies unfolded at their calls, both sides are one chain
    of steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., binary_bufs_sub .., unary_bufs_sub .., unary_bufs_sub .., binary_bufs_sub ..⟩

/-- On the one device, for any float values, from any memory with zero counters: every weakly fair execution of
    @main terminates, and every buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 1600000 in
/-- The fold at the result buffer is the composition of the stages: the fold unrolled, each operation's result read
    at its own buffer and skipped at every other, the typed references' transports the identity at these literal
    references; what is left is the stages' definitions unfolded. -/
theorem result_eq (V : Valuation τ sig (Elt F)) :
    after ops V (main_v31 : DevRef τ sig)
      = resultS (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On the one device, for any float values, from any memory with zero counters: every weakly fair execution of @main
    terminates with the result buffer at the stages' composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = resultS (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (result_eq _),
      (h c main_arg0).trans (arg0_eq _), (h c main_arg1).trans (arg1_eq _), (h c main_arg2).trans (arg2_eq _),
      (h c main_arg3).trans (arg3_eq _), (h c main_arg4).trans (arg4_eq _)⟩)
    (run_all m ρ)

end Cert.ReferenceIdeal.RefRun

end
-- ==== Proof.RefValueDots.lean ====
/-
  The layer's four contractions read at an index, on the extended reals: each host product is, at a result index,
  the sum over its one contracted coordinate of the operands' products, and the two bias broadcasts read the bias at
  the column.
-/
import proofs.«127050_j83339545411776_2_alg».proof.Proof.RefStages
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-- A rank-1 bias broadcast to [1,1,n] and then over batch and sequence reads the bias at the column. -/
theorem bias3072_apply (b : FVec Ideal S3072 .f32) (bb : Fin 4) (s : Fin 4096) (e : Fin 3072) :
    broadcastInDim S4x4096x3072 ![0, 1, 2] bcast_S1x1x3072_S4x4096x3072_0_1_2
      (broadcastInDim S1x1x3072 ![2] bcast_S3072_S1x1x3072_2 b) (ix3 bb s e) = b (ix1 e) := by
  refine (broadcastInDim_apply _ _ _ (ix3 bb s e) (ix3 (0 : Fin 1) (0 : Fin 1) e) ?_).trans ?_
  · intro a
    match a with
    | ⟨0, _⟩ => rfl
    | ⟨1, _⟩ => rfl
    | ⟨2, _⟩ => rfl
  · refine broadcastInDim_apply _ _ _ (ix3 (0 : Fin 1) (0 : Fin 1) e) (ix1 e) ?_
    intro a
    match a with
    | ⟨0, _⟩ => rfl

@[inherit_doc bias3072_apply]
theorem bias1024_apply (b : FVec Ideal S1024 .f32) (bb : Fin 4) (s : Fin 4096) (e : Fin 1024) :
    broadcastInDim S4x4096x1024 ![0, 1, 2] bcast_S1x1x1024_S4x4096x1024_0_1_2
      (broadcastInDim S1x1x1024 ![2] bcast_S1024_S1x1x1024_2 b) (ix3 bb s e) = b (ix1 e) := by
  refine (broadcastInDim_apply _ _ _ (ix3 bb s e) (ix3 (0 : Fin 1) (0 : Fin 1) e) ?_).trans ?_
  · intro a
    match a with
    | ⟨0, _⟩ => rfl
    | ⟨1, _⟩ => rfl
    | ⟨2, _⟩ => rfl
  · refine broadcastInDim_apply _ _ _ (ix3 (0 : Fin 1) (0 : Fin 1) e) (ix1 e) ?_
    intro a
    match a with
    | ⟨0, _⟩ => rfl

/-- The fused projection at (batch, position, column): the row of x against the row of w, plus the bias. -/
theorem projS_apply (x : FVec Ideal S4x4096x1024 .f32) (w : FVec Ideal S3072x1024 .f32) (b : FVec Ideal S3072 .f32)
    (bb : Fin 4) (s : Fin 4096) (e : Fin 3072) :
    projS x w b (ix3 bb s e) = (∑ k : Fin 1024, x (ix3 bb s k) * w (ix2 e k)) + b (ix1 e) := by
  unfold projS
  rw [addf_apply, bias3072_apply]
  congr 1
  show FloatOps.dotGeneral _ none _ x w (ix3 bb s e) = _
  rw [Ideal.dotGeneral_apply,
    ← Equiv.sum_comp (contrEquiv1 dot_S4x4096x1024_S3072x1024_S4x4096x3072_2_1_01_0_n_n 1024 rfl rfl).symm]
  refine Finset.sum_congr rfl fun c _ => ?_
  have c1 := contrEquiv1_symm_val dot_S4x4096x1024_S3072x1024_S4x4096x3072_2_1_01_0_n_n 1024 rfl rfl c
  have l : dot_S4x4096x1024_S3072x1024_S4x4096x3072_2_1_01_0_n_n.lhsIdx (ix3 bb s e)
      ((contrEquiv1 _ 1024 rfl rfl).symm c) = ix3 bb s c := by
    funext ax; apply Fin.ext
    match ax with
    | ⟨0, _⟩ => simp [DotDims.lhsIdx, dot_S4x4096x1024_S3072x1024_S4x4096x3072_2_1_01_0_n_n]; rfl
    | ⟨1, _⟩ => simp [DotDims.lhsIdx, dot_S4x4096x1024_S3072x1024_S4x4096x3072_2_1_01_0_n_n]; rfl
    | ⟨2, _⟩ => simp [DotDims.lhsIdx, dot_S4x4096x1024_S3072x1024_S4x4096x3072_2_1_01_0_n_n]; exact c1
  have r : dot_S4x4096x1024_S3072x1024_S4x4096x3072_2_1_01_0_n_n.rhsIdx (ix3 bb s e)
      ((contrEquiv1 _ 1024 rfl rfl).symm c) = ix2 e c := by
    funext ax; apply Fin.ext
    match ax with
    | ⟨0, _⟩ => simp [DotDims.rhsIdx, dot_S4x4096x1024_S3072x1024_S4x4096x3072_2_1_01_0_n_n]; rfl
    | ⟨1, _⟩ => simp [DotDims.rhsIdx, dot_S4x4096x1024_S3072x1024_S4x4096x3072_2_1_01_0_n_n]; exact c1
  rw [l, r]

/-- The key-value state at (batch, head, d, e): keys' feature d against values' feature e over the sequence. -/
theorem kvS_apply (k v : FVec Ideal S4x16x4096x64 .f32) (bb : Fin 4) (h : Fin 16) (d e : Fin 64) :
    kvS k v (ix4 bb h d e) = ∑ s : Fin 4096, k (ix4 bb h s d) * v (ix4 bb h s e) := by
  unfold kvS
  show FloatOps.dotGeneral _ none _ k v (ix4 bb h d e) = _
  rw [Ideal.dotGeneral_apply, ← Equiv.sum_comp (contrEquiv1 dot_S4x16x4096x64_S4x16x4096x64_S4x16x64x64_2_2_3_3_01_01 4096 rfl rfl).symm]
  refine Finset.sum_congr rfl fun c _ => ?_
  have c1 := contrEquiv1_symm_val dot_S4x16x4096x64_S4x16x4096x64_S4x16x64x64_2_2_3_3_01_01 4096 rfl rfl c
  have l : dot_S4x16x4096x64_S4x16x4096x64_S4x16x64x64_2_2_3_3_01_01.lhsIdx (ix4 bb h d e)
      ((contrEquiv1 _ 4096 rfl rfl).symm c) = ix4 bb h c d := by
    funext ax; apply Fin.ext
    match ax with
    | ⟨0, _⟩ => simp [DotDims.lhsIdx, dot_S4x16x4096x64_S4x16x4096x64_S4x16x64x64_2_2_3_3_01_01]; rfl
    | ⟨1, _⟩ => simp [DotDims.lhsIdx, dot_S4x16x4096x64_S4x16x4096x64_S4x16x64x64_2_2_3_3_01_01]; rfl
    | ⟨2, _⟩ => simp [DotDims.lhsIdx, dot_S4x16x4096x64_S4x16x4096x64_S4x16x64x64_2_2_3_3_01_01]; exact c1
    | ⟨3, _⟩ => simp [DotDims.lhsIdx, dot_S4x16x4096x64_S4x16x4096x64_S4x16x64x64_2_2_3_3_01_01]; rfl
  have r : dot_S4x16x4096x64_S4x16x4096x64_S4x16x64x64_2_2_3_3_01_01.rhsIdx (ix4 bb h d e)
      ((contrEquiv1 _ 4096 rfl rfl).symm c) = ix4 bb h c e := by
    funext ax; apply Fin.ext
    match ax with
    | ⟨0, _⟩ => simp [DotDims.rhsIdx, dot_S4x16x4096x64_S4x16x4096x64_S4x16x64x64_2_2_3_3_01_01]; rfl
    | ⟨1, _⟩ => simp [DotDims.rhsIdx, dot_S4x16x4096x64_S4x16x4096x64_S4x16x64x64_2_2_3_3_01_01]; rfl
    | ⟨2, _⟩ => simp [DotDims.rhsIdx, dot_S4x16x4096x64_S4x16x4096x64_S4x16x64x64_2_2_3_3_01_01]; exact c1
    | ⟨3, _⟩ => simp [DotDims.rhsIdx, dot_S4x16x4096x64_S4x16x4096x64_S4x16x64x64_2_2_3_3_01_01]; rfl
  rw [l, r]

/-- The numerator at (batch, head, position, e): the query's features against the state's column e. -/
theorem numS_apply (q : FVec Ideal S4x16x4096x64 .f32) (kv : FVec Ideal S4x16x64x64 .f32) (bb : Fin 4) (h : Fin 16)
    (s : Fin 4096) (e : Fin 64) :
    numS q kv (ix4 bb h s e) = ∑ d : Fin 64, q (ix4 bb h s d) * kv (ix4 bb h d e) := by
  unfold numS
  show FloatOps.dotGeneral _ none _ q kv (ix4 bb h s e) = _
  rw [Ideal.dotGeneral_apply, ← Equiv.sum_comp (contrEquiv1 dot_S4x16x4096x64_S4x16x64x64_S4x16x4096x64_3_2_2_3_01_01 64 rfl rfl).symm]
  refine Finset.sum_congr rfl fun c _ => ?_
  have c1 := contrEquiv1_symm_val dot_S4x16x4096x64_S4x16x64x64_S4x16x4096x64_3_2_2_3_01_01 64 rfl rfl c
  have l : dot_S4x16x4096x64_S4x16x64x64_S4x16x4096x64_3_2_2_3_01_01.lhsIdx (ix4 bb h s e)
      ((contrEquiv1 _ 64 rfl rfl).symm c) = ix4 bb h s c := by
    funext ax; apply Fin.ext
    match ax with
    | ⟨0, _⟩ => simp [DotDims.lhsIdx, dot_S4x16x4096x64_S4x16x64x64_S4x16x4096x64_3_2_2_3_01_01]; rfl
    | ⟨1, _⟩ => simp [DotDims.lhsIdx, dot_S4x16x4096x64_S4x16x64x64_S4x16x4096x64_3_2_2_3_01_01]; rfl
    | ⟨2, _⟩ => simp [DotDims.lhsIdx, dot_S4x16x4096x64_S4x16x64x64_S4x16x4096x64_3_2_2_3_01_01]; rfl
    | ⟨3, _⟩ => simp [DotDims.lhsIdx, dot_S4x16x4096x64_S4x16x64x64_S4x16x4096x64_3_2_2_3_01_01]; exact c1
  have r : dot_S4x16x4096x64_S4x16x64x64_S4x16x4096x64_3_2_2_3_01_01.rhsIdx (ix4 bb h s e)
      ((contrEquiv1 _ 64 rfl rfl).symm c) = ix4 bb h c e := by
    funext ax; apply Fin.ext
    match ax with
    | ⟨0, _⟩ => simp [DotDims.rhsIdx, dot_S4x16x4096x64_S4x16x64x64_S4x16x4096x64_3_2_2_3_01_01]; rfl
    | ⟨1, _⟩ => simp [DotDims.rhsIdx, dot_S4x16x4096x64_S4x16x64x64_S4x16x4096x64_3_2_2_3_01_01]; rfl
    | ⟨2, _⟩ => simp [DotDims.rhsIdx, dot_S4x16x4096x64_S4x16x64x64_S4x16x4096x64_3_2_2_3_01_01]; exact c1
    | ⟨3, _⟩ => simp [DotDims.rhsIdx, dot_S4x16x4096x64_S4x16x64x64_S4x16x4096x64_3_2_2_3_01_01]; rfl
  rw [l, r]

/-- The output projection at (batch, position, column): the row of a against the row of wo, plus the bias. -/
theorem outS_apply (a : FVec Ideal S4x4096x1024 .f32) (wo : FVec Ideal S1024x1024 .f32) (bo : FVec Ideal S1024 .f32)
    (bb : Fin 4) (s : Fin 4096) (e : Fin 1024) :
    outS a wo bo (ix3 bb s e) = (∑ k : Fin 1024, a (ix3 bb s k) * wo (ix2 e k)) + bo (ix1 e) := by
  unfold outS
  rw [addf_apply, bias1024_apply]
  congr 1
  show FloatOps.dotGeneral _ none _ a wo (ix3 bb s e) = _
  rw [Ideal.dotGeneral_apply, ← Equiv.sum_comp (contrEquiv1 dot_S4x4096x1024_S1024x1024_S4x4096x1024_2_1_01_0_n_n 1024 rfl rfl).symm]
  refine Finset.sum_congr rfl fun c _ => ?_
  have c1 := contrEquiv1_symm_val dot_S4x4096x1024_S1024x1024_S4x4096x1024_2_1_01_0_n_n 1024 rfl rfl c
  have l : dot_S4x4096x1024_S1024x1024_S4x4096x1024_2_1_01_0_n_n.lhsIdx (ix3 bb s e)
      ((contrEquiv1 _ 1024 rfl rfl).symm c) = ix3 bb s c := by
    funext ax; apply Fin.ext
    match ax with
    | ⟨0, _⟩ => simp [DotDims.lhsIdx, dot_S4x4096x1024_S1024x1024_S4x4096x1024_2_1_01_0_n_n]; rfl
    | ⟨1, _⟩ => simp [DotDims.lhsIdx, dot_S4x4096x1024_S1024x1024_S4x4096x1024_2_1_01_0_n_n]; rfl
    | ⟨2, _⟩ => simp [DotDims.lhsIdx, dot_S4x4096x1024_S1024x1024_S4x4096x1024_2_1_01_0_n_n]; exact c1
  have r : dot_S4x4096x1024_S1024x1024_S4x4096x1024_2_1_01_0_n_n.rhsIdx (ix3 bb s e)
      ((contrEquiv1 _ 1024 rfl rfl).symm c) = ix2 e c := by
    funext ax; apply Fin.ext
    match ax with
    | ⟨0, _⟩ => simp [DotDims.rhsIdx, dot_S4x4096x1024_S1024x1024_S4x4096x1024_2_1_01_0_n_n]; rfl
    | ⟨1, _⟩ => simp [DotDims.rhsIdx, dot_S4x4096x1024_S1024x1024_S4x4096x1024_2_1_01_0_n_n]; exact c1
  rw [l, r]

/-- The normaliser at (batch, head, position, e): the keys' feature e summed over the sequence, plus the constant. -/
theorem denS_apply (k : FVec Ideal S4x16x4096x64 .f32) (bb : Fin 4) (h : Fin 16) (s : Fin 4096) (e : Fin 64) :
    denS k (ix4 bb h s e) = (∑ s' : Fin 4096, k (ix4 bb h s' e)) + Ideal.ofBits .f32 0x358637BD#32 := by
  unfold denS
  refine (broadcastInDim_apply _ _ _ (ix4 bb h s e) (ix4 bb h (0 : Fin 1) e) ?_).trans ?_
  · intro a
    match a with
    | ⟨0, _⟩ => rfl
    | ⟨1, _⟩ => rfl
    | ⟨2, _⟩ => rfl
    | ⟨3, _⟩ => rfl
  rw [addf_apply]
  congr 1
  · refine (broadcastInDim_apply _ _ _ (ix4 bb h (0 : Fin 1) e) (ix3 bb h e) ?_).trans ?_
    · intro a
      match a with
      | ⟨0, _⟩ => rfl
      | ⟨1, _⟩ => rfl
      | ⟨2, _⟩ => rfl
    rw [hostReduceAdd_apply,
      Ideal.hostReduceAdd_single _ (by decide : S4x16x4096x64.Reduces [2] S4x16x64)]
    show Ideal.ofBits .f32 0x00000000#32 + _ = _
    rw [Ideal.ofBits_zero_f32, zero_add]
    refine Finset.sum_congr rfl fun s' _ => congrArg k ?_
    funext ax; apply Fin.ext
    match ax with
    | ⟨0, _⟩ => rfl
    | ⟨1, _⟩ => rfl
    | ⟨2, _⟩ => rfl
    | ⟨3, _⟩ => rfl

end Cert.ReferenceIdeal.RefValue

end
-- ==== Proof.RefValueLayout.lean ====
/-
  The layer's layout steps read at an index: the split of the projection's columns into (third, head, feature) with
  the thirds and heads brought to the front, the three thirds, and the merge of heads back into columns. Column
  1024·t + 64·h + d of the projection is third t, head h, feature d; column j of the merged array is head j / 64,
  feature j % 64.
-/
import proofs.«127050_j83339545411776_2_alg».proof.Proof.RefStages
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-- Third t, batch bb, head h, position s, feature d of the split projection is its column 1024·t + 64·h + d. -/
theorem headsS_apply (p : FVec F S4x4096x3072 .f32) (t : Fin 3) (bb : Fin 4) (h : Fin 16) (s : Fin 4096) (d : Fin 64) :
    headsS p (ix5 t bb h s d) = p (ix3 bb s (⟨1024 * t.val + 64 * h.val + d.val, by omega⟩ : Fin 3072)) := by
  unfold headsS
  refine (transpose_apply _ _ _ (ix5 t bb h s d) (ix5 bb s t h d) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ _ (ix5 bb s t h d) (ix3 bb s (⟨1024 * t.val + 64 * h.val + d.val, by omega⟩ : Fin 3072)) ?_
  rw [Shape.rowMajor_val_three, Shape.rowMajor_val_five]
  show (bb.val * 4096 + s.val) * 3072 + (1024 * t.val + 64 * h.val + d.val)
    = (((bb.val * 4096 + s.val) * 3 + t.val) * 16 + h.val) * 64 + d.val
  omega

/-- The thirds of the split projection: third t at (batch, head, position, feature). -/
theorem third0S_apply (hh : FVec F S3x4x16x4096x64 .f32) (bb : Fin 4) (h : Fin 16) (s : Fin 4096) (d : Fin 64) :
    third0S hh (ix4 bb h s d) = hh (ix5 (0 : Fin 3) bb h s d) := by
  unfold third0S
  refine (shapeCast_apply _ _ (ix4 bb h s d) (ix5 (0 : Fin 1) bb h s d) ?_).trans ?_
  · rw [Shape.rowMajor_val_five, Shape.rowMajor_val_four]
    show (((0 * 4 + bb.val) * 16 + h.val) * 4096 + s.val) * 64 + d.val = ((bb.val * 16 + h.val) * 4096 + s.val) * 64 + d.val
    omega
  refine extractStridedSlice_apply _ _ _ (ix5 (0 : Fin 1) bb h s d) (ix5 (0 : Fin 3) bb h s d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

@[inherit_doc third0S_apply]
theorem third1S_apply (hh : FVec F S3x4x16x4096x64 .f32) (bb : Fin 4) (h : Fin 16) (s : Fin 4096) (d : Fin 64) :
    third1S hh (ix4 bb h s d) = hh (ix5 (1 : Fin 3) bb h s d) := by
  unfold third1S
  refine (shapeCast_apply _ _ (ix4 bb h s d) (ix5 (0 : Fin 1) bb h s d) ?_).trans ?_
  · rw [Shape.rowMajor_val_five, Shape.rowMajor_val_four]
    show (((0 * 4 + bb.val) * 16 + h.val) * 4096 + s.val) * 64 + d.val = ((bb.val * 16 + h.val) * 4096 + s.val) * 64 + d.val
    omega
  refine extractStridedSlice_apply _ _ _ (ix5 (0 : Fin 1) bb h s d) (ix5 (1 : Fin 3) bb h s d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

@[inherit_doc third0S_apply]
theorem third2S_apply (hh : FVec F S3x4x16x4096x64 .f32) (bb : Fin 4) (h : Fin 16) (s : Fin 4096) (d : Fin 64) :
    third2S hh (ix4 bb h s d) = hh (ix5 (2 : Fin 3) bb h s d) := by
  unfold third2S
  refine (shapeCast_apply _ _ (ix4 bb h s d) (ix5 (0 : Fin 1) bb h s d) ?_).trans ?_
  · rw [Shape.rowMajor_val_five, Shape.rowMajor_val_four]
    show (((0 * 4 + bb.val) * 16 + h.val) * 4096 + s.val) * 64 + d.val = ((bb.val * 16 + h.val) * 4096 + s.val) * 64 + d.val
    omega
  refine extractStridedSlice_apply _ _ _ (ix5 (0 : Fin 1) bb h s d) (ix5 (2 : Fin 3) bb h s d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- Column j of the merged array at (batch, position) is head j / 64, feature j % 64 of the per-head array. -/
theorem mergeS_apply (a : FVec F S4x16x4096x64 .f32) (bb : Fin 4) (s : Fin 4096) (j : Fin 1024) :
    mergeS a (ix3 bb s j)
      = a (ix4 bb (⟨j.val / 64, by omega⟩ : Fin 16) s (⟨j.val % 64, Nat.mod_lt _ (by decide)⟩ : Fin 64)) := by
  unfold mergeS
  refine (shapeCast_apply _ _ (ix3 bb s j)
    (ix4 bb s (⟨j.val / 64, by omega⟩ : Fin 16) (⟨j.val % 64, Nat.mod_lt _ (by decide)⟩ : Fin 64)) ?_).trans ?_
  · rw [Shape.rowMajor_val_four, Shape.rowMajor_val_three]
    show ((bb.val * 4096 + s.val) * 16 + j.val / 64) * 64 + j.val % 64 = (bb.val * 4096 + s.val) * 1024 + j.val
    omega
  refine transpose_apply _ _ _ (ix4 bb s (⟨j.val / 64, by omega⟩ : Fin 16) (⟨j.val % 64, Nat.mod_lt _ (by decide)⟩ : Fin 64))
    (ix4 bb (⟨j.val / 64, by omega⟩ : Fin 16) s (⟨j.val % 64, Nat.mod_lt _ (by decide)⟩ : Fin 64)) ?_
  intro b
  match b with
  | ⟨0, _⟩ => rfl
  | ⟨1, _⟩ => rfl
  | ⟨2, _⟩ => rfl
  | ⟨3, _⟩ => rfl

end Cert.ReferenceIdeal.RefValue

end
-- ==== Proof.Spec.lean ====
/-
  The linear-attention layer as ONE function of its five argument arrays, on the extended reals.

  With x : [4, 4096, 1024], w : [3072, 1024], b : [3072], wo : [1024, 1024], bo : [1024]:
    proj b s e   = (Σ_k x[b,s,k] · w[e,k]) + b[e]                       the fused q/k/v projection, e < 3072
    q, k         = phi of columns [0,1024) and [1024,2048) of proj;  v = columns [2048,3072)
    phi z        = (z if 0 < z else exp z − 1) + 1                      the elu(+1) feature map
    kv b j j'    = Σ_s k[b,s,j] · v[b,s,j']                             (used only for j, j' in one head)
    ksum b j     = Σ_s k[b,s,j]
    attn b s j   = (Σ_{d<64} q[b,s,h(j)+d] · kv b (h(j)+d) j) / (ksum b j + ε),   h(j) = 64·(j / 64)
    out b s e    = (Σ_k attn b s k · wo[e,k]) + bo[e]
  Both programs are shown to compute `G` index by index.
-/
import Idealize.ShloMosaic.PureOps.Ideal
import Idealize.ShloMosaic.PureOps.Ideal.Laws
import Idealize.ShloMosaic.Lib.ValueIdx

noncomputable section

open scoped BigOperators

namespace Cert.LinAttn

open Idealize.ShloMosaic Idealize.ShloMosaic.ValueIdx

/-- The feature map elu(z) + 1 on the extended reals. -/
def phi (z : EReal) : EReal := (if 0 < z then z else Ideal.exp z - 1) + 1

/-- The value of the f32 literal 1e-6 that both programs add to the key sums. -/
def eps : EReal := Ideal.ofBits .f32 0x358637BD#32

/-- Column `64·(j/64) + d`: the `d`-th column of the head that column `j` lies in. -/
def headCol (j : Fin 1024) (d : Fin 64) : Fin 1024 := ⟨64 * (j.val / 64) + d.val, by omega⟩

section

variable (x : (⟨3, ![4, 4096, 1024]⟩ : Shape).Idx → EReal) (w : (⟨2, ![3072, 1024]⟩ : Shape).Idx → EReal)
  (b : (⟨1, ![3072]⟩ : Shape).Idx → EReal) (wo : (⟨2, ![1024, 1024]⟩ : Shape).Idx → EReal)
  (bo : (⟨1, ![1024]⟩ : Shape).Idx → EReal)

/-- The fused projection: row (bb, s) of x against row e of w, plus the bias. -/
def proj (bb : Fin 4) (s : Fin 4096) (e : Fin 3072) : EReal :=
  (∑ k : Fin 1024, x (ix3 bb s k) * w (ix2 e k)) + b (ix1 e)

/-- Queries: phi of the first third of the projection's columns. -/
def qf (bb : Fin 4) (s : Fin 4096) (j : Fin 1024) : EReal := phi (proj x w b bb s ⟨j.val, by omega⟩)
/-- Keys: phi of the second third. -/
def kf (bb : Fin 4) (s : Fin 4096) (j : Fin 1024) : EReal := phi (proj x w b bb s ⟨1024 + j.val, by omega⟩)
/-- Values: the last third, as projected. -/
def vf (bb : Fin 4) (s : Fin 4096) (j : Fin 1024) : EReal := proj x w b bb s ⟨2048 + j.val, by omega⟩

/-- The key-value state: keys' column j against values' column j', summed over the sequence. -/
def kv (bb : Fin 4) (j j' : Fin 1024) : EReal := ∑ s : Fin 4096, kf x w b bb s j * vf x w b bb s j'
/-- The keys' column sums over the sequence. -/
def ksum (bb : Fin 4) (j : Fin 1024) : EReal := ∑ s : Fin 4096, kf x w b bb s j

/-- Attention output at column j: the query's head against that head's state, over the normaliser. -/
def attn (bb : Fin 4) (s : Fin 4096) (j : Fin 1024) : EReal :=
  Ideal.div (∑ d : Fin 64, qf x w b bb s (headCol j d) * kv x w b bb (headCol j d) j) (ksum x w b bb j + eps)

/-- The output projection. -/
def out (bb : Fin 4) (s : Fin 4096) (e : Fin 1024) : EReal :=
  (∑ k : Fin 1024, attn x w b bb s k * wo (ix2 e k)) + bo (ix1 e)

/-- The layer's result array, index by index. -/
def G : (⟨3, ![4, 4096, 1024]⟩ : Shape).Idx → EReal := fun i => out x w b wo bo (i 0) (i 1) (i 2)

theorem G_apply (bb : Fin 4) (s : Fin 4096) (e : Fin 1024) : G x w b wo bo (ix3 bb s e) = out x w b wo bo bb s e := rfl

end

end Cert.LinAttn

end
-- ==== Proof.RefValueElu.lean ====
/-
  The feature map read at an index: elu(z) + 1, as the program spells it — z where z > 0, otherwise
  1 · (exp of (0 where z > 0, otherwise z) − 1), plus 1 — is phi z: in the first case both are z + 1, in the second the
  inner choice is z and the product with 1 drops.
-/
import proofs.«127050_j83339545411776_2_alg».proof.Proof.RefStages
import proofs.«127050_j83339545411776_2_alg».proof.Proof.Spec
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx

/-- The comparison z > 0 as a one-bit word, when it holds and when it does not. -/
theorem cmp_ogt_zero_of_pos {z : EReal} (hz : 0 < z) : Ideal.cmp .ogt z 0 = 1#1 := by
  simp [Ideal.cmp, hz]
@[inherit_doc cmp_ogt_zero_of_pos]
theorem cmp_ogt_zero_of_not_pos {z : EReal} (hz : ¬ 0 < z) : Ideal.cmp .ogt z 0 = 0#1 := by
  simp [Ideal.cmp, hz]

/-- The feature map at an index is phi of the element. -/
theorem featS_apply (z : FVec Ideal S4x16x4096x64 .f32) (i : S4x16x4096x64.Idx) :
    featS z i = Cert.LinAttn.phi (z i) := by
  show Scalar.select (Ideal.cmp .ogt (z i) (Ideal.ofBits .f32 0x00000000#32)) (z i)
      (Ideal.ofBits .f32 0x3F800000#32
        * (Ideal.exp (Scalar.select (Ideal.cmp .ogt (z i) (Ideal.ofBits .f32 0x00000000#32))
            (Ideal.ofBits .f32 0x00000000#32) (z i)) - 1))
      + Ideal.ofBits .f32 0x3F800000#32
    = (if 0 < z i then z i else Ideal.exp (z i) - 1) + 1
  rw [Ideal.ofBits_zero_f32, Ideal.ofBits_one_f32, one_mul]
  by_cases hz : 0 < z i
  · rw [cmp_ogt_zero_of_pos hz, select_one, if_pos hz]
  · rw [cmp_ogt_zero_of_not_pos hz, select_zero, select_zero, if_neg hz]

end Cert.ReferenceIdeal.RefValue

end
-- ==== Proof.RefValue.lean ====
/-
  The reference program computes the layer G: its run leaves, in the result buffer, the stages' composition of the
  five arguments (the run module), and that composition is G index by index — queries, keys and values are the
  feature map (or nothing) of the projection's thirds at column 64·head + feature; the key-value state, the
  numerator and the normaliser are the sums the specification names; the merged column j is head j / 64, feature
  j % 64, so 64·(j / 64) + j % 64 = j puts the per-head quotient at column j; the output projection is the last sum.
-/
import proofs.«127050_j83339545411776_2_alg».proof.Proof.RefRun
import proofs.«127050_j83339545411776_2_alg».proof.Proof.RefValueDots
import proofs.«127050_j83339545411776_2_alg».proof.Proof.RefValueLayout
import proofs.«127050_j83339545411776_2_alg».proof.Proof.RefValueElu
import proofs.«127050_j83339545411776_2_alg».proof.Proof.Spec

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.ValueIdx Cert.LinAttn

section Value

variable (x : FVec Ideal S4x4096x1024 .f32) (w : FVec Ideal S3072x1024 .f32) (b : FVec Ideal S3072 .f32)
  (wo : FVec Ideal S1024x1024 .f32) (bo : FVec Ideal S1024 .f32)

/-- Queries at (batch, head, position, feature) are the specification's at column 64·head + feature. -/
theorem qS_apply (bb : Fin 4) (h : Fin 16) (s : Fin 4096) (d : Fin 64) (j : Fin 1024) (hj : j.val = 64 * h.val + d.val) :
    qS x w b (ix4 bb h s d) = qf x w b bb s j := by
  unfold qS
  rw [featS_apply, third0S_apply, headsS_apply, projS_apply]
  exact congrArg (fun e => phi (proj x w b bb s e))
    (Fin.ext (by show 1024 * 0 + 64 * h.val + d.val = j.val; omega))

/-- Keys likewise, from the second third. -/
theorem kS_apply (bb : Fin 4) (h : Fin 16) (s : Fin 4096) (d : Fin 64) (j : Fin 1024) (hj : j.val = 64 * h.val + d.val) :
    kS x w b (ix4 bb h s d) = kf x w b bb s j := by
  unfold kS
  rw [featS_apply, third1S_apply, headsS_apply, projS_apply]
  exact congrArg (fun e => phi (proj x w b bb s e))
    (Fin.ext (by show 1024 * 1 + 64 * h.val + d.val = 1024 + j.val; omega))

/-- Values likewise, from the last third, with no feature map. -/
theorem vS_apply (bb : Fin 4) (h : Fin 16) (s : Fin 4096) (d : Fin 64) (j : Fin 1024) (hj : j.val = 64 * h.val + d.val) :
    vS x w b (ix4 bb h s d) = vf x w b bb s j := by
  unfold vS
  rw [third2S_apply, headsS_apply, projS_apply]
  exact congrArg (fun e => proj x w b bb s e)
    (Fin.ext (by show 1024 * 2 + 64 * h.val + d.val = 2048 + j.val; omega))

/-- The key-value state of a head at features (d, e) is the specification's at the two columns. -/
theorem kvS_eq (bb : Fin 4) (h : Fin 16) (d e : Fin 64) (jd je : Fin 1024) (hd : jd.val = 64 * h.val + d.val)
    (he : je.val = 64 * h.val + e.val) :
    kvS (kS x w b) (vS x w b) (ix4 bb h d e) = kv x w b bb jd je := by
  rw [kvS_apply]
  exact Finset.sum_congr rfl fun s _ => by rw [kS_apply x w b bb h s d jd hd, vS_apply x w b bb h s e je he]

/-- The per-head attention output at (batch, head, position, feature) is the specification's at column 64·head + feature. -/
theorem attnS_apply (bb : Fin 4) (h : Fin 16) (s : Fin 4096) (e : Fin 64) (j : Fin 1024) (hj : j.val = 64 * h.val + e.val) :
    attnS x w b (ix4 bb h s e) = attn x w b bb s j := by
  unfold attnS attn
  rw [hostDivf_apply, numS_apply, denS_apply]
  congr 1
  · refine Finset.sum_congr rfl fun d _ => ?_
    have hd : (headCol j d).val = 64 * h.val + d.val := by
      show 64 * (j.val / 64) + d.val = 64 * h.val + d.val
      have := e.isLt
      omega
    rw [qS_apply x w b bb h s d (headCol j d) hd, kvS_eq x w b bb h d e (headCol j d) j hd hj]
  · unfold ksum eps
    congr 1
    exact Finset.sum_congr rfl fun s' _ => kS_apply x w b bb h s' e j hj

/-- The stages' composition is the layer. -/
theorem resultS_eq_G : resultS x w b wo bo = G x w b wo bo := by
  funext i
  obtain ⟨bb, s, e, rfl⟩ : ∃ (bb : Fin 4) (s : Fin 4096) (e : Fin 1024), i = ix3 bb s e := ⟨i 0, i 1, i 2, eq_ix3 i⟩
  rw [G_apply]
  unfold resultS out
  rw [outS_apply]
  congr 1
  refine Finset.sum_congr rfl fun k _ => ?_
  rw [mergeS_apply, attnS_apply x w b bb _ s _ k (by show k.val = 64 * (k.val / 64) + k.val % 64; omega)]

end Value

/-- On the one device, at the extended reals, from any memory with zero counters: every weakly fair execution of
    @main terminates with the result buffer at the layer G of the five argument arrays and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v31)
        = Cert.LinAttn.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h c).1.trans (resultS_eq_G _ _ _ _ _), (h c).2⟩) (RefRun.run m ρ)

end Cert.ReferenceIdeal.RefValue

end
-- ==== Proof.Pay0.lean ====
/-
  The fused q/k/v projection's block read at an index, on the extended reals.

  One grid point of the first kernel multiplies a [256, 1024] block of input rows against the [3072, 1024] weights,
  contracting the second axis of both, into a zero accumulator, and adds the [1, 3072] bias row broadcast over the 256
  rows: at entry (r, c) the projection is  (Σ_k x[r, k] · w[c, k]) + b[0, c].  Columns [0, 2048) — queries and keys —
  then pass through the feature map  z ↦ (z if 0 < z else exp(min z 0) − 1) + 1,  which is elu(z) + 1 since
  min z 0 = z when z is not positive; columns [2048, 3072) — values — are stored as projected.
-/
import proofs.«127050_j83339545411776_2_alg».proof.Proof.Gen.KernelIdeal.Skeleton
import proofs.«127050_j83339545411776_2_alg».proof.Proof.Spec
import Idealize.ShloMosaic.Lib.ValueLayout
import Idealize.ShloMosaic.Lib.IdealHost

noncomputable section

open scoped BigOperators

namespace Cert.KernelIdeal.PayValue

open Cert.KernelIdeal Cert.KernelIdeal.Gen Idealize.ShloMosaic Idealize.ShloMosaic.ValueIdx

/-- The fused projection's dimension numbers: [256,1024] × [3072,1024] → [256,3072], contracting the second axis of both operands. -/
abbrev dotQkv := dot_S256x1024_S3072x1024_S256x3072_1_1_0_0_n_n

/-- The operand indices of that product at output entry `i` and contraction position `q`: the free axes read `i`, the contracted axes read `q`. -/
theorem lhs_free_qkv (i : S256x3072.Idx) (q : dotQkv.contr.Idx) : (dotQkv.lhsIdx i q 0).val = (i 0).val := by
  unfold DotDims.lhsIdx
  rw [dif_neg (show ¬(0 : Fin S256x1024.rank) ∈ dotQkv.lhsBatch by decide),
    dif_pos (show (0 : Fin S256x1024.rank) ∈ dotQkv.lhsNonContracting by decide)]
  rfl
theorem lhs_contr_qkv (i : S256x3072.Idx) (q : dotQkv.contr.Idx) :
    (dotQkv.lhsIdx i q 1).val = (q ⟨0, by decide⟩).val :=
  dotQkv.lhsIdx_val_of_single rfl i q
theorem rhs_free_qkv (i : S256x3072.Idx) (q : dotQkv.contr.Idx) : (dotQkv.rhsIdx i q 0).val = (i 1).val := by
  unfold DotDims.rhsIdx
  rw [dif_neg (show ¬(0 : Fin S3072x1024.rank) ∈ dotQkv.rhsBatch by decide),
    dif_pos (show (0 : Fin S3072x1024.rank) ∈ dotQkv.rhsNonContracting by decide)]
  rfl
theorem rhs_contr_qkv (i : S256x3072.Idx) (q : dotQkv.contr.Idx) :
    (dotQkv.rhsIdx i q 1).val = (q ⟨0, by decide⟩).val :=
  dotQkv.rhsIdx_val_of_single rfl i q

/-- That product into the zero accumulator, at entry (r, c): the sum over the shared axis of row r of the left operand against row c of the right. -/
theorem matmul_qkv_apply (a : FVec Ideal S256x1024 .bf16) (b : FVec Ideal S3072x1024 .bf16) (r : Fin 256) (c : Fin 3072) :
    matmul dotQkv none a b (constant S256x3072 .f32 0x00000000#32) (ix2 r c)
      = ∑ k : Fin 1024, a (ix2 r k) * b (ix2 c k) := by
  refine (Ideal.matmul_constant_zero_apply dotQkv none a b (ix2 r c)).trans ?_
  rw [← Equiv.sum_comp (contrEquiv1 dotQkv 1024 rfl rfl).symm]
  refine Finset.sum_congr rfl fun k _ => ?_
  have hk := contrEquiv1_symm_val dotQkv 1024 rfl rfl k
  have el : dotQkv.lhsIdx (ix2 r c) ((contrEquiv1 dotQkv 1024 rfl rfl).symm k) = ix2 r k :=
    funext fun ax => Fin.ext (by
      match ax with
      | ⟨0, _⟩ => exact lhs_free_qkv _ _
      | ⟨1, _⟩ => exact (lhs_contr_qkv _ _).trans hk)
  have er : dotQkv.rhsIdx (ix2 r c) ((contrEquiv1 dotQkv 1024 rfl rfl).symm k) = ix2 c k :=
    funext fun ax => Fin.ext (by
      match ax with
      | ⟨0, _⟩ => exact rhs_free_qkv _ _
      | ⟨1, _⟩ => exact (rhs_contr_qkv _ _).trans hk)
  rw [el, er]

/-- The fused projection at entry (r, c): row r of the input block against row c of the weights, plus the bias at
    column c. -/
theorem pay0_proj (v0 : Vec Ideal S256x1024 .f32) (v3 : Vec Ideal S3072x1024 .bf16) (v6 : Vec Ideal S1x3072 .f32)
    (r : Fin 256) (c : Fin 3072) :
    k0_pay1 (F := Ideal) v0 v3 v6 (ix2 r c)
      = (∑ k : Fin 1024, v0 (ix2 r k) * v3 (ix2 c k)) + v6 (ix2 (0 : Fin 1) c) := by
  unfold k0_pay1
  rw [addf_apply, shapeCast_self, shapeCast_self, shapeCast_self]
  exact congrArg₂ (· + ·) (matmul_qkv_apply _ _ r c) (broadcastTo_1b_ab_apply _ _ r c)

/-- The exponential of a vector, read at an index, is the exponential of the element. -/
theorem exp_apply {s : Shape} {φ : FTy} (a : FVec Ideal s φ) (i : s.Idx) : exp a i = Ideal.exp (a i) := rfl

/-- The kernel's spelling of the feature map on one extended real — select (z > 0) z (exp (min z 0) − 1), plus 1, with
    the f32 words of 0 and 1 — is elu(z) + 1: where z is not positive, min z 0 is z. -/
theorem elu_add_one_eq_phi (z : EReal) :
    Scalar.select (Ideal.cmp .ogt z (Ideal.ofBits .f32 0x00000000#32)) z
        (Ideal.exp (min z (Ideal.ofBits .f32 0x00000000#32)) - Ideal.ofBits .f32 0x3F800000#32)
      + Ideal.ofBits .f32 0x3F800000#32 = Cert.LinAttn.phi z := by
  rw [Ideal.ofBits_zero_f32, Ideal.ofBits_one_f32]
  unfold Cert.LinAttn.phi Scalar.select Ideal.cmp
  by_cases h : 0 < z
  · simp [h]
  · simp [h, min_eq_left (not_lt.mp h)]

/-- Queries and keys: the stored block at entry (r, e), e < 2048, is the feature map of the projection at column e. -/
theorem pay0_qk (v0 : Vec Ideal S256x1024 .f32) (v3 : Vec Ideal S3072x1024 .bf16) (v6 : Vec Ideal S1x3072 .f32)
    (r : Fin 256) (e : Fin 2048) :
    k0_pay2 (F := Ideal) v0 v3 v6 (ix2 r e)
      = Cert.LinAttn.phi ((∑ k : Fin 1024, v0 (ix2 r k) * v3 (ix2 (⟨e.val, by omega⟩ : Fin 3072) k))
          + v6 (ix2 (0 : Fin 1) (⟨e.val, by omega⟩ : Fin 3072))) := by
  have hs : extractStridedSlice S256x2048 ![0, 0] (k0_pay1 (F := Ideal) v0 v3 v6) slices_S256x3072_o0_0_S256x2048 (ix2 r e)
      = k0_pay1 (F := Ideal) v0 v3 v6 (ix2 r (⟨e.val, by omega⟩ : Fin 3072)) :=
    slice2_axis1_apply 0 _ _ r e _ (Nat.zero_add _).symm
  unfold k0_pay2
  simp only [truncf_apply, addf_apply, select_apply, cmpf_apply, subf_apply, exp_apply, minimumf_apply, broadcast_apply]
  rw [hs, pay0_proj v0 v3 v6 r _]
  exact elu_add_one_eq_phi _

/-- Values: the stored block at entry (r, e), e < 1024, is the projection at column 2048 + e. -/
theorem pay0_v (v0 : Vec Ideal S256x1024 .f32) (v3 : Vec Ideal S3072x1024 .bf16) (v6 : Vec Ideal S1x3072 .f32)
    (r : Fin 256) (e : Fin 1024) :
    k0_pay3 (F := Ideal) v0 v3 v6 (ix2 r e)
      = (∑ k : Fin 1024, v0 (ix2 r k) * v3 (ix2 (⟨2048 + e.val, by omega⟩ : Fin 3072) k))
          + v6 (ix2 (0 : Fin 1) (⟨2048 + e.val, by omega⟩ : Fin 3072)) := by
  have hs : extractStridedSlice S256x1024 ![0, 2048] (k0_pay1 (F := Ideal) v0 v3 v6) slices_S256x3072_o0_2048_S256x1024 (ix2 r e)
      = k0_pay1 (F := Ideal) v0 v3 v6 (ix2 r (⟨2048 + e.val, by omega⟩ : Fin 3072)) :=
    slice2_axis1_apply 2048 _ _ r e _ rfl
  unfold k0_pay3
  rw [truncf_apply]
  exact hs.trans (pay0_proj v0 v3 v6 r _)

end Cert.KernelIdeal.PayValue

end
-- ==== Proof.ArrSpec.lean ====
/-
  What each of the kernel's three launches leaves in its output array, as ONE function of the arrays it reads.

  projAt / proj2d : the fused projection over the [16384, 1024] rows of x: row r against the weights' row e plus the bias,
                    through the feature map on columns [0, 2048) (queries and keys) and as projected on columns
                    [2048, 3072) (values).
  attnAt / attn3  : the attention core over the fused [4, 4096, 3072] array: at (b, s, j) the query's head (64 columns
                    starting at 64·(j/64)) against that head's keys-by-values sums, over the keys' column sum plus ε.
  outAt / out2d   : the output projection over [16384, 1024] rows.
  Each comes at literal coordinates (`…At`) and as the whole array's function of an index.
-/
import proofs.«127050_j83339545411776_2_alg».proof.Proof.Spec
import proofs.«127050_j83339545411776_2_alg».proof.KernelIdeal

noncomputable section

open scoped BigOperators

namespace Cert.KernelIdeal.ArrValue

open Cert.KernelIdeal Idealize.ShloMosaic Idealize.ShloMosaic.ValueIdx

/-- The fused q/k/v projection at row `r`, column `e`. -/
def projAt (x2 : FVec Ideal S16384x1024 .f32) (wq : FVec Ideal S3072x1024 .bf16) (b2 : FVec Ideal S1x3072 .f32)
    (r : Fin 16384) (e : Fin 3072) : EReal :=
  if e.val < 2048
    then Cert.LinAttn.phi ((∑ k : Fin 1024, x2 (ix2 r k) * wq (ix2 e k)) + b2 (ix2 (0 : Fin 1) e))
    else (∑ k : Fin 1024, x2 (ix2 r k) * wq (ix2 e k)) + b2 (ix2 (0 : Fin 1) e)

/-- The fused q/k/v projection as one whole-array function. -/
def proj2d (x2 : FVec Ideal S16384x1024 .f32) (wq : FVec Ideal S3072x1024 .bf16) (b2 : FVec Ideal S1x3072 .f32) : S16384x3072.Idx → EReal :=
  fun i => projAt x2 wq b2 (i 0) (i 1)

/-- The attention core at batch `bb`, position `s`, column `j`. -/
def attnAt (qkv : FVec Ideal S4x4096x3072 .bf16) (bb : Fin 4) (s : Fin 4096) (j : Fin 1024) : EReal :=
  Ideal.div
    (∑ d : Fin 64, qkv (ix3 bb s (⟨64 * (j.val / 64) + d.val, by omega⟩ : Fin 3072))
      * (∑ s' : Fin 4096, qkv (ix3 bb s' (⟨1024 + 64 * (j.val / 64) + d.val, by omega⟩ : Fin 3072))
          * qkv (ix3 bb s' (⟨2048 + j.val, by omega⟩ : Fin 3072))))
    ((∑ s' : Fin 4096, qkv (ix3 bb s' (⟨1024 + j.val, by omega⟩ : Fin 3072))) + Cert.LinAttn.eps)

/-- The attention core as one whole-array function of the fused projection. -/
def attn3 (qkv : FVec Ideal S4x4096x3072 .bf16) : S4x4096x1024.Idx → EReal := fun i => attnAt qkv (i 0) (i 1) (i 2)

/-- The output projection at row `r`, column `e`. -/
def outAt (a2 : FVec Ideal S16384x1024 .bf16) (wo : FVec Ideal S1024x1024 .bf16) (b2 : FVec Ideal S1x1024 .f32)
    (r : Fin 16384) (e : Fin 1024) : EReal :=
  (∑ k : Fin 1024, a2 (ix2 r k) * wo (ix2 e k)) + b2 (ix2 (0 : Fin 1) e)

/-- The output projection as one whole-array function. -/
def out2d (a2 : FVec Ideal S16384x1024 .bf16) (wo : FVec Ideal S1024x1024 .bf16) (b2 : FVec Ideal S1x1024 .f32) : S16384x1024.Idx → EReal :=
  fun i => outAt a2 wo b2 (i 0) (i 1)

theorem proj2d_apply (x2 : FVec Ideal S16384x1024 .f32) (wq : FVec Ideal S3072x1024 .bf16) (b2 : FVec Ideal S1x3072 .f32)
    (r : Fin 16384) (e : Fin 3072) : proj2d x2 wq b2 (ix2 r e) = projAt x2 wq b2 r e := rfl
theorem attn3_apply (qkv : FVec Ideal S4x4096x3072 .bf16) (bb : Fin 4) (s : Fin 4096) (j : Fin 1024) :
    attn3 qkv (ix3 bb s j) = attnAt qkv bb s j := rfl
theorem out2d_apply (a2 : FVec Ideal S16384x1024 .bf16) (wo : FVec Ideal S1024x1024 .bf16) (b2 : FVec Ideal S1x1024 .f32)
    (r : Fin 16384) (e : Fin 1024) : out2d a2 wo b2 (ix2 r e) = outAt a2 wo b2 r e := rfl

end Cert.KernelIdeal.ArrValue

end
-- ==== Proof.Arr0.lean ====
/-
  The fused q/k/v projection's launch, from blocks to the whole array, on the extended reals.

  Grid point t of the first launch reads rows [256 t, 256 t + 256) of x, all of the fused weights and the bias row, and
  writes rows [256 t, 256 t + 256) of the fused [16384, 3072] array with two stores: columns [0, 2048) (queries and keys)
  hold the feature map of the projected entry, columns [2048, 3072) (values) the projected entry itself, the projected
  entry at (r, e) being (Σ_k block[r, k] · w[e, k]) + b[0, e]. The 64 points' row blocks tile the array, so after the
  launch the array holds the fused projection of the arrays the launch was entered with at every index.
-/
import proofs.«127050_j83339545411776_2_alg».proof.Proof.Frame0
import proofs.«127050_j83339545411776_2_alg».proof.Proof.Pay0
import proofs.«127050_j83339545411776_2_alg».proof.Proof.ArrSpec
import Idealize.ShloMosaic.Lib.Pipeline.Value
import Idealize.ShloMosaic.Lib.ValueIdx

set_option maxRecDepth 16384

noncomputable section

open scoped BigOperators

namespace Cert.KernelIdeal.ArrValue

open Cert.KernelIdeal Cert.KernelIdeal.Gen Cert.KernelIdeal.Fr Cert.KernelIdeal.PayValue
open Idealize.ShloMosaic Idealize.ShloMosaic.TcCoe Idealize.ShloMosaic.ValueIdx
open Idealize.ShloMosaic.Pipeline (Dat)

-- the TensorCore's buffer contents when the launch is entered
variable (V : (c : Dev nD) → (b : Ref sig .tc) → Buf (Elt Ideal) ((c : Thread nD τ).loc b))

theorem zero_off_proj : (![0, 0] : Fin 2 → Nat) = fun _ => 0 := funext fun a => by fin_cases a <;> rfl

/-- The block's two stores read at entry (r, e): a column below 2048 lies in the first store's columns only, a column
    from 2048 on in the last store's, at column e - 2048 of its payload. -/
theorem stores_entry (p1 : Vec Ideal S256x1024 .bf16) (p0 : Vec Ideal S256x2048 .bf16) (r : Fin 256) (e : Fin 3072) :
    View.canon ([⟨r0_v, p1⟩, ⟨r0_qk, p0⟩] : List (View.Piece (Elt Ideal) S256x3072 .bf16)) (ix2 r e)
      = if h : e.val < 2048 then p0 (ix2 r (⟨e.val, h⟩ : Fin 2048))
        else p1 (ix2 r (⟨e.val - 2048, by omega⟩ : Fin 1024)) := by
  by_cases h : e.val < 2048
  · rw [dif_pos h]
    have hn : ix2 r e ∉ (r0_v).set := by
      rw [Rect.mem_set_unit]
      intro H
      have h2048 : 2048 ≤ e.val := (H ⟨1, Nat.one_lt_two⟩).1
      omega
    have he : ix2 r e = r0_qk.emb (ix2 r (⟨e.val, h⟩ : Fin 2048)) := funext fun a => Fin.ext (by
      match a with
      | ⟨0, _⟩ => show r.val = 0 + 1 * r.val; omega
      | ⟨1, _⟩ => show e.val = 0 + 1 * e.val; omega)
    exact (View.canon_cons_of_not_mem (⟨r0_v, p1⟩ : View.Piece (Elt Ideal) S256x3072 .bf16) [⟨r0_qk, p0⟩] hn).trans
      ((congrArg (View.canon ([⟨r0_qk, p0⟩] : List (View.Piece (Elt Ideal) S256x3072 .bf16))) he).trans
        (View.canon_cons_emb r0_qk p0 [] (ix2 r (⟨e.val, h⟩ : Fin 2048))))
  · rw [dif_neg h]
    have he : ix2 r e = r0_v.emb (ix2 r (⟨e.val - 2048, by omega⟩ : Fin 1024)) := funext fun a => Fin.ext (by
      match a with
      | ⟨0, _⟩ => show r.val = 0 + 1 * r.val; omega
      | ⟨1, _⟩ => show e.val = 2048 + 1 * (e.val - 2048); omega)
    exact (congrArg (View.canon ([⟨r0_v, p1⟩, ⟨r0_qk, p0⟩] : List (View.Piece (Elt Ideal) S256x3072 .bf16))) he).trans
      (View.canon_cons_emb r0_v p1 [⟨r0_qk, p0⟩] (ix2 r (⟨e.val - 2048, by omega⟩ : Fin 1024)))

/-- The values' store at (r, e) with the column spelt in the fused array: column e' = 2048 + e. -/
theorem pay0_v_at (v0 : Vec Ideal S256x1024 .f32) (v3 : Vec Ideal S3072x1024 .bf16) (v6 : Vec Ideal S1x3072 .f32)
    (r : Fin 256) (e : Fin 1024) (e' : Fin 3072) (he : e'.val = 2048 + e.val) :
    k0_pay3 (F := Ideal) v0 v3 v6 (ix2 r e)
      = (∑ k : Fin 1024, v0 (ix2 r k) * v3 (ix2 e' k)) + v6 (ix2 (0 : Fin 1) e') := by
  have hlt : 2048 + e.val < 3072 := by omega
  obtain rfl : e' = (⟨2048 + e.val, hlt⟩ : Fin 3072) := Fin.ext he
  exact pay0_v v0 v3 v6 r e

/-- The queries' and keys' store at (r, e) with the column spelt in the fused array: column e' = e. -/
theorem pay0_qk_at (v0 : Vec Ideal S256x1024 .f32) (v3 : Vec Ideal S3072x1024 .bf16) (v6 : Vec Ideal S1x3072 .f32)
    (r : Fin 256) (e : Fin 2048) (e' : Fin 3072) (he : e'.val = e.val) :
    k0_pay2 (F := Ideal) v0 v3 v6 (ix2 r e)
      = Cert.LinAttn.phi ((∑ k : Fin 1024, v0 (ix2 r k) * v3 (ix2 e' k)) + v6 (ix2 (0 : Fin 1) e')) := by
  have hlt : e.val < 3072 := by omega
  obtain rfl : e' = (⟨e.val, hlt⟩ : Fin 3072) := Fin.ext he
  exact pay0_qk v0 v3 v6 r e

/-- One entry of a block is the entry of the fused projection it sits at, once the block's row is the array's row R,
    the weights' row and the bias entry are the array's at the same column. -/
theorem block_entry0 (x0 : Vec Ideal S256x1024 .f32) (x1 : Vec Ideal S3072x1024 .bf16) (x2 : Vec Ideal S1x3072 .f32)
    (xa : FVec Ideal S16384x1024 .f32) (wq : FVec Ideal S3072x1024 .bf16) (b2 : FVec Ideal S1x3072 .f32)
    (r : Fin 256) (e : Fin 3072) (R : Fin 16384)
    (h0 : ∀ k : Fin 1024, x0 (ix2 r k) = xa (ix2 R k))
    (h1 : ∀ k : Fin 1024, x1 (ix2 e k) = wq (ix2 e k))
    (h2 : x2 (ix2 (0 : Fin 1) e) = b2 (ix2 (0 : Fin 1) e)) :
    View.canon ([⟨r0_v, k0_pay3 (F := Ideal) x0 x1 x2⟩, ⟨r0_qk, k0_pay2 (F := Ideal) x0 x1 x2⟩] :
        List (View.Piece (Elt Ideal) S256x3072 .bf16)) (ix2 r e)
      = projAt xa wq b2 R e := by
  have hsum : (∑ k : Fin 1024, x0 (ix2 r k) * x1 (ix2 e k)) + x2 (ix2 (0 : Fin 1) e)
      = (∑ k : Fin 1024, xa (ix2 R k) * wq (ix2 e k)) + b2 (ix2 (0 : Fin 1) e) := by
    rw [h2]
    exact congrArg (· + _) (Finset.sum_congr rfl fun k _ => by rw [h0 k, h1 k])
  refine (stores_entry _ _ r e).trans ?_
  unfold projAt
  by_cases h : e.val < 2048
  · rw [dif_pos h, if_pos h]
    refine (pay0_qk_at x0 x1 x2 r ⟨e.val, h⟩ e rfl).trans ?_
    rw [hsum]
  · rw [dif_neg h, if_neg h]
    refine (pay0_v_at x0 x1 x2 r ⟨e.val - 2048, by omega⟩ e (by show e.val = 2048 + (e.val - 2048); omega)).trans ?_
    exact hsum

/-- The same over a block index y and an array index i with the same column. -/
theorem block_entry0_idx (x0 : Vec Ideal S256x1024 .f32) (x1 : Vec Ideal S3072x1024 .bf16) (x2 : Vec Ideal S1x3072 .f32)
    (xa : FVec Ideal S16384x1024 .f32) (wq : FVec Ideal S3072x1024 .bf16) (b2 : FVec Ideal S1x3072 .f32)
    (y : S256x3072.Idx) (i : S16384x3072.Idx)
    (hcol : (i 1 : Fin 3072) = y 1)
    (h0 : ∀ k : Fin 1024, x0 (ix2 (y 0) k) = xa (ix2 (i 0) k))
    (h1 : ∀ k : Fin 1024, x1 (ix2 (y 1) k) = wq (ix2 (y 1) k))
    (h2 : x2 (ix2 (0 : Fin 1) (y 1)) = b2 (ix2 (0 : Fin 1) (y 1))) :
    View.canon ([⟨r0_v, k0_pay3 (F := Ideal) x0 x1 x2⟩, ⟨r0_qk, k0_pay2 (F := Ideal) x0 x1 x2⟩] :
        List (View.Piece (Elt Ideal) S256x3072 .bf16)) y
      = proj2d xa wq b2 i := by
  refine (congrArg (View.canon _) (eq_ix2 y)).trans ?_
  refine (block_entry0 x0 x1 x2 xa wq b2 (y 0) (y 1) (i 0) h0 h1 h2).trans ?_
  exact congrArg (projAt xa wq b2 (i 0)) hcol.symm

/-- The printed index maps, decided once over the 64 grid points: the block of x and the result block are row block t,
    the weights and the bias are whole arrays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of the fused projection of the arrays the launch was entered with. -/
theorem flushed0_eq (c : Dev nD) (t : Fin cfg0.N) :
    (dat0 (F := Ideal) V c).flushed 3 t
      = ((cfg0.win 3).blk t).view.read (Elt Ideal) (proj2d (V c main_v0) (V c main_v1) (V c main_v3)) := by
  show (cfg0.win 3).cut (grid0.coords t) ((dat0 (F := Ideal) V c).after 3 t) = _
  rw [after0_3]
  unfold out0_3
  simp only [View.ld_unit_zero (S := S256x1024) zero_off_proj, View.ld_unit_zero (S := S3072x1024) zero_off_proj,
    View.ld_unit_zero (S := S1x3072) zero_off_proj]
  obtain ⟨e0, e1, e2, e3, e4, e5, e6, e7⟩ := idx_facts0 t
  funext y
  show View.canon ([⟨r0_v, k0_pay3 (F := Ideal) (iblk0 V c 0 t) (iblk0 V c 1 t) (iblk0 V c 2 t)⟩,
        ⟨r0_qk, k0_pay2 (F := Ideal) (iblk0 V c 0 t) (iblk0 V c 1 t) (iblk0 V c 2 t)⟩] :
        List (View.Piece (Elt Ideal) S256x3072 .bf16)) y
    = proj2d (V c main_v0) (V c main_v1) (V c main_v3) (((cfg0.win 3).blk t).view.emb y)
  refine block_entry0_idx (iblk0 V c 0 t) (iblk0 V c 1 t) (iblk0 V c 2 t) (V c main_v0) (V c main_v1) (V c main_v3) y
    (((cfg0.win 3).blk t).view.emb y) ?_ (fun k => ?_) (fun k => ?_) ?_
  · refine Fin.ext ?_
    show win0_3.index t (1 : Fin 2) * 3072 + 1 * (y 1).val = (y 1).val
    omega
  · show V c main_v0 (((cfg0.win 0).blk t).view.emb (ix2 (y 0) k)) = V c main_v0 (ix2 ((((cfg0.win 3).blk t).view.emb y) 0) k)
    refine congrArg (V c main_v0) (funext fun a => Fin.ext ?_)
    match a with
    | ⟨0, _⟩ => show win0_0.index t (0 : Fin 2) * 256 + 1 * (y 0).val = win0_3.index t (0 : Fin 2) * 256 + 1 * (y 0).val; omega
    | ⟨1, _⟩ => show win0_0.index t (1 : Fin 2) * 1024 + 1 * k.val = k.val; omega
  · show V c main_v1 (((cfg0.win 1).blk t).view.emb (ix2 (y 1) k)) = V c main_v1 (ix2 (y 1) k)
    refine congrArg (V c main_v1) (funext fun a => Fin.ext ?_)
    match a with
    | ⟨0, _⟩ => show win0_1.index t (0 : Fin 2) * 3072 + 1 * (y 1).val = (y 1).val; omega
    | ⟨1, _⟩ => show win0_1.index t (1 : Fin 2) * 1024 + 1 * k.val = k.val; omega
  · show V c main_v3 (((cfg0.win 2).blk t).view.emb (ix2 (0 : Fin 1) (y 1))) = V c main_v3 (ix2 (0 : Fin 1) (y 1))
    refine congrArg (V c main_v3) (funext fun a => Fin.ext ?_)
    match a with
    | ⟨0, _⟩ => show win0_2.index t (0 : Fin 2) * 1 + 1 * 0 = 0; omega
    | ⟨1, _⟩ => show win0_2.index t (1 : Fin 2) * 3072 + 1 * (y 1).val = (y 1).val; omega

/-- An index of the array is in point t's block iff each coordinate is in the block's range on its axis. -/
theorem mem_blk0 (t : Fin cfg0.N) (i : S16384x3072.Idx) :
    i ∈ ((cfg0.win 3).blk t).view.set ↔ ∀ a : Fin 2, win0_3.index t a * S256x3072.size a ≤ (i a).val
      ∧ (i a).val < win0_3.index t a * S256x3072.size a + S256x3072.size a := by
  show i ∈ ((View.whole main_v4).slice (win0_3.rect t)).set ↔ _
  rw [View.set_slice_whole, Rect.mem_set_unit]
  exact Iff.rfl

/-- Every index of the array is in some point's block: row r is in the block of point r / 256. -/
theorem cover0 (i : S16384x3072.Idx) :
    ∃ t : Fin cfg0.N, (cfg0.win 3).flush t = true ∧ i ∈ ((cfg0.win 3).blk t).view.set := by
  have hN : grid0.N = 64 := N_0
  have hi0 : (i 0).val < 16384 := (i 0).isLt
  have hi1 : (i 1).val < 3072 := (i 1).isLt
  have hlt : (i 0).val / 256 < cfg0.N := by show _ < grid0.N; omega
  obtain ⟨e0, e1, e2, e3, e4, e5, e6, e7⟩ := idx_facts0 ⟨(i 0).val / 256, hlt⟩
  refine ⟨⟨(i 0).val / 256, hlt⟩, flush0_3 _, ?_⟩
  rw [mem_blk0]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, hlt⟩ (1 : Fin 2) * 3072 ≤ (i 1).val
      ∧ (i 1).val < win0_3.index ⟨(i 0).val / 256, hlt⟩ (1 : Fin 2) * 3072 + 3072
    rw [e7]; omega

/-- The fused array after the launch is the fused projection of the arrays the launch was entered with. -/
theorem final0 (c : Dev nD) :
    (dat0 (F := Ideal) V c).arrAt 3 cfg0.N = proj2d (V c main_v0) (V c main_v1) (V c main_v3) :=
  (dat0 (F := Ideal) V c).arrAt_eq_of_cover 3 (proj2d (V c main_v0) (V c main_v1) (V c main_v3))
    (fun t _ => flushed0_eq V c t) cover0

end Cert.KernelIdeal.ArrValue

end
-- ==== Proof.Pay1Sums.lean ====
/-
  The attention core's sums read at an index, on the extended reals: the pieces of one [1, 4096, 256] quad of queries,
  keys and values that the masked product is built from.

  With the leading unit axis dropped, q, k, v are [4096, 256] matrices (sequence × column). The keys' column sums are
  ksum[e] = Σ_s k[s, e]  (a reduction over axis 0, stored as a [1, 256] row); the key-value state is the product
  contracting the sequence axis of both operands,  kv[d, e] = Σ_s k[s, d] · v[s, e];  and the final product contracts the
  columns of q against the rows of a [256, 256] matrix m:  (q · m)[s, e] = Σ_d q[s, d] · m[d, e].
-/
import proofs.«127050_j83339545411776_2_alg».proof.Proof.Gen.KernelIdeal.Skeleton
import proofs.«127050_j83339545411776_2_alg».proof.Proof.Spec
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The key-value state's dimension numbers: [4096,256] × [4096,256] → [256,256], contracting the first (sequence) axis of both operands. -/
abbrev dotKv := dot_S4096x256_S4096x256_S256x256_0_0_1_1_n_n

/-- The operand indices of that product at output entry `i` and contraction position `q`: the free axes read `i`, the contracted axes read `q`. -/
theorem lhs_free_kv (i : S256x256.Idx) (q : dotKv.contr.Idx) : (dotKv.lhsIdx i q 1).val = (i 0).val := by
  unfold DotDims.lhsIdx
  rw [dif_neg (show ¬(1 : Fin S4096x256.rank) ∈ dotKv.lhsBatch by decide),
    dif_pos (show (1 : Fin S4096x256.rank) ∈ dotKv.lhsNonContracting by decide)]
  rfl
theorem lhs_contr_kv (i : S256x256.Idx) (q : dotKv.contr.Idx) :
    (dotKv.lhsIdx i q 0).val = (q ⟨0, by decide⟩).val :=
  dotKv.lhsIdx_val_of_single rfl i q
theorem rhs_free_kv (i : S256x256.Idx) (q : dotKv.contr.Idx) : (dotKv.rhsIdx i q 1).val = (i 1).val := by
  unfold DotDims.rhsIdx
  rw [dif_neg (show ¬(1 : Fin S4096x256.rank) ∈ dotKv.rhsBatch by decide),
    dif_pos (show (1 : Fin S4096x256.rank) ∈ dotKv.rhsNonContracting by decide)]
  rfl
theorem rhs_contr_kv (i : S256x256.Idx) (q : dotKv.contr.Idx) :
    (dotKv.rhsIdx i q 0).val = (q ⟨0, by decide⟩).val :=
  dotKv.rhsIdx_val_of_single rfl i q

/-- That product into the zero accumulator, at entry (d, e): the sum over the sequence of column d of the left operand against column e of the right. -/
theorem matmul_kv_apply (a : FVec Ideal S4096x256 .bf16) (b : FVec Ideal S4096x256 .bf16) (d e : Fin 256) :
    matmul dotKv none a b (constant S256x256 .f32 0x00000000#32) (ix2 d e)
      = ∑ k : Fin 4096, a (ix2 k d) * b (ix2 k e) := by
  refine (Ideal.matmul_constant_zero_apply dotKv none a b (ix2 d e)).trans ?_
  rw [← Equiv.sum_comp (contrEquiv1 dotKv 4096 rfl rfl).symm]
  refine Finset.sum_congr rfl fun k _ => ?_
  have hk := contrEquiv1_symm_val dotKv 4096 rfl rfl k
  have el : dotKv.lhsIdx (ix2 d e) ((contrEquiv1 dotKv 4096 rfl rfl).symm k) = ix2 k d :=
    funext fun ax => Fin.ext (by
      match ax with
      | ⟨0, _⟩ => exact (lhs_contr_kv _ _).trans hk
      | ⟨1, _⟩ => exact lhs_free_kv _ _)
  have er : dotKv.rhsIdx (ix2 d e) ((contrEquiv1 dotKv 4096 rfl rfl).symm k) = ix2 k e :=
    funext fun ax => Fin.ext (by
      match ax with
      | ⟨0, _⟩ => exact (rhs_contr_kv _ _).trans hk
      | ⟨1, _⟩ => exact rhs_free_kv _ _)
  rw [el, er]

/-- The query-state product's dimension numbers: [4096,256] × [256,256] → [4096,256], contracting the left operand's columns against the right operand's rows. -/
abbrev dotAttn := dot_S4096x256_S256x256_S4096x256_1_0_0_1_n_n

/-- The operand indices of that product at output entry `i` and contraction position `q`: the free axes read `i`, the contracted axes read `q`. -/
theorem lhs_free_attn (i : S4096x256.Idx) (q : dotAttn.contr.Idx) : (dotAttn.lhsIdx i q 0).val = (i 0).val := by
  unfold DotDims.lhsIdx
  rw [dif_neg (show ¬(0 : Fin S4096x256.rank) ∈ dotAttn.lhsBatch by decide),
    dif_pos (show (0 : Fin S4096x256.rank) ∈ dotAttn.lhsNonContracting by decide)]
  rfl
theorem lhs_contr_attn (i : S4096x256.Idx) (q : dotAttn.contr.Idx) :
    (dotAttn.lhsIdx i q 1).val = (q ⟨0, by decide⟩).val :=
  dotAttn.lhsIdx_val_of_single rfl i q
theorem rhs_free_attn (i : S4096x256.Idx) (q : dotAttn.contr.Idx) : (dotAttn.rhsIdx i q 1).val = (i 1).val := by
  unfold DotDims.rhsIdx
  rw [dif_neg (show ¬(1 : Fin S256x256.rank) ∈ dotAttn.rhsBatch by decide),
    dif_pos (show (1 : Fin S256x256.rank) ∈ dotAttn.rhsNonContracting by decide)]
  rfl
theorem rhs_contr_attn (i : S4096x256.Idx) (q : dotAttn.contr.Idx) :
    (dotAttn.rhsIdx i q 0).val = (q ⟨0, by decide⟩).val :=
  dotAttn.rhsIdx_val_of_single rfl i q

/-- That product into the zero accumulator, at entry (s, e): the sum over d of the left operand at (s, d) against the right operand at (d, e). -/
theorem matmul_attn_apply (a : FVec Ideal S4096x256 .bf16) (b : FVec Ideal S256x256 .bf16) (s : Fin 4096) (e : Fin 256) :
    matmul dotAttn none a b (constant S4096x256 .f32 0x00000000#32) (ix2 s e)
      = ∑ k : Fin 256, a (ix2 s k) * b (ix2 k e) := by
  refine (Ideal.matmul_constant_zero_apply dotAttn none a b (ix2 s e)).trans ?_
  rw [← Equiv.sum_comp (contrEquiv1 dotAttn 256 rfl rfl).symm]
  refine Finset.sum_congr rfl fun k _ => ?_
  have hk := contrEquiv1_symm_val dotAttn 256 rfl rfl k
  have el : dotAttn.lhsIdx (ix2 s e) ((contrEquiv1 dotAttn 256 rfl rfl).symm k) = ix2 s k :=
    funext fun ax => Fin.ext (by
      match ax with
      | ⟨0, _⟩ => exact lhs_free_attn _ _
      | ⟨1, _⟩ => exact (lhs_contr_attn _ _).trans hk)
  have er : dotAttn.rhsIdx (ix2 s e) ((contrEquiv1 dotAttn 256 rfl rfl).symm k) = ix2 k e :=
    funext fun ax => Fin.ext (by
      match ax with
      | ⟨0, _⟩ => exact (rhs_contr_attn _ _).trans hk
      | ⟨1, _⟩ => exact rhs_free_attn _ _)
  rw [el, er]

/-- The queries with the leading unit axis dropped, at (s, d). -/
theorem k1_pay2_apply (q : Vec Ideal S1x4096x256 .bf16) (s : Fin 4096) (d : Fin 256) :
    k1_pay2 (F := Ideal) q (ix2 s d) = q (ix3 (0 : Fin 1) s d) := by
  unfold k1_pay2
  exact shapeCast_1ab_ab_apply _ _ s d

/-- The keys with the leading unit axis dropped, at (s, d). -/
theorem k1_pay3_apply (k : Vec Ideal S1x4096x256 .bf16) (s : Fin 4096) (d : Fin 256) :
    k1_pay3 (F := Ideal) k (ix2 s d) = k (ix3 (0 : Fin 1) s d) := by
  unfold k1_pay3
  exact shapeCast_1ab_ab_apply _ _ s d

/-- The sum over axis 0 of a [4096, 256] matrix, from the zero word, at column e: the sum of the column's entries. -/
theorem colsum_apply (src : FVec Ideal S4096x256 .f32) (hφ : FKind.Formats .f32)
    (hacc : (0x00000000#32 : BitVec 32) = 0x00000000#32) (e : Fin 256) :
    multiReduction .add [0] S256 src 0x00000000#32 reduces_S4096x256_S256 hφ hacc (ix1 e)
      = ∑ s' : Fin 4096, src (ix2 s' e) := by
  refine (Ideal.multiReduction_add_single src 0x00000000#32 reduces_S4096x256_S256 hφ hacc (ix1 e)).trans ?_
  refine Finset.sum_congr rfl fun s' _ => congrArg src ?_
  funext a
  refine Fin.ext ?_
  match a with
  | ⟨0, _⟩ => rfl
  | ⟨1, _⟩ => rfl

/-- The keys' column sums, stored as a [1, 256] row: at column e, the sum over the sequence of the keys' column e. -/
theorem k1_pay4_apply (k : Vec Ideal S1x4096x256 .bf16) (e : Fin 256) :
    k1_pay4 (F := Ideal) k (ix2 (0 : Fin 1) e) = ∑ s' : Fin 4096, k (ix3 (0 : Fin 1) s' e) := by
  unfold k1_pay4
  refine (shapeCast_a_1a_apply _ _ (0 : Fin 1) e).trans ?_
  refine (colsum_apply _ _ _ e).trans ?_
  exact Finset.sum_congr rfl fun s' _ => k1_pay3_apply k s' e

/-- The key-value state at (d, e): the sum over the sequence of the keys' column d against the values' column e. -/
theorem k1_pay5_apply (k v : Vec Ideal S1x4096x256 .bf16) (d e : Fin 256) :
    k1_pay5 (F := Ideal) k v (ix2 d e) = ∑ s' : Fin 4096, k (ix3 (0 : Fin 1) s' d) * v (ix3 (0 : Fin 1) s' e) := by
  unfold k1_pay5
  refine (matmul_kv_apply _ _ d e).trans ?_
  refine Finset.sum_congr rfl fun s' _ => ?_
  rw [k1_pay3_apply, shapeCast_1ab_ab_apply]

end Cert.KernelIdeal.PayValue

end
-- ==== Proof.Pay1Mask.lean ====
/-
  The block-diagonal mask of the attention core, read at an index.

  The kernel builds, from 32-bit integer iotas over a [256, 256] grid, the words  row / 64  and  col / 64  by the
  lowered form of floor division: the truncated quotient, less one when the operands' signs differ and the remainder
  is not zero. On the words 0 … 255 the correction never fires and the result is the natural-number quotient d / 64,
  one of 0, 1, 2, 3. Entry (d, e) of the mask is kept exactly when  d / 64 = e / 64, that is, when row d and column e
  lie in the same block of 64: the same attention head.
-/
import proofs.«127050_j83339545411776_2_alg».proof.Proof.Gen.KernelIdeal.Skeleton
import proofs.«127050_j83339545411776_2_alg».proof.Proof.Spec
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- Floor division as lowered, on one lane: `q` is the truncated quotient of `x` by `c64`; it is decreased by one when the
    sign of `x` (its bit `x > c0` less its bit `x < 0`) differs from the sign of `c64` and the remainder of `x` by `c64`
    is not zero. -/
def fdivSel (c64 c0 x q : BitVec 32) : BitVec 32 :=
  Scalar.select
    (IntOp.andi
      (IntOp.cmpi .ne (IntOp.subi ((IntOp.cmpi .sgt x c0).setWidth 32) ((IntOp.cmpi .slt x 0#32).setWidth 32))
        (Scalar.subi (Scalar.extui (Scalar.cmpi .sgt c64 0#32)) (Scalar.extui (Scalar.cmpi .slt c64 0#32))))
      (IntOp.cmpi .ne (IntOp.remsi .vector x c64) 0#32))
    (IntOp.subi q 1#32) q

/-- On the words 0 … 255, lowered floor division by 64 is the natural-number quotient: checked on each of the 256 words. -/
theorem fdivSel_ofNat : ∀ d : Fin 256,
    fdivSel 64#32 0#32 (BitVec.ofNat 32 d.val) (IntOp.divsi .vector (BitVec.ofNat 32 d.val) 64#32)
      = BitVec.ofNat 32 (d.val / 64) := by
  decide

/-- Two block numbers below 4, as 32-bit words, compare equal exactly when they are equal. -/
theorem cmpi_eq_block : ∀ a b : Fin 4,
    IntOp.cmpi .eq (BitVec.ofNat 32 a.val) (BitVec.ofNat 32 b.val) = if a.val = b.val then 1#1 else 0#1 := by
  decide

/-- The row iota at (d, e) is the word of d. -/
theorem iota0_apply (d e : Fin 256) :
    iota .tc S256x256 32 [0] iota_S256x256_d0_w32 (ix2 d e) = BitVec.ofNat 32 d.val :=
  iota_single_apply .tc S256x256 32 0 iota_S256x256_d0_w32 (ix2 d e)

/-- The column iota at (d, e) is the word of e. -/
theorem iota1_apply (d e : Fin 256) :
    iota .tc S256x256 32 [1] iota_S256x256_d1_w32 (ix2 d e) = BitVec.ofNat 32 e.val :=
  iota_single_apply .tc S256x256 32 1 iota_S256x256_d1_w32 (ix2 d e)

/-- The row's block number at (d, e): the word of d / 64. -/
theorem k1_pay6_apply (d e : Fin 256) : k1_pay6 (ix2 d e) = BitVec.ofNat 32 (d.val / 64) := by
  have h : k1_pay6 (ix2 d e)
      = fdivSel 64#32 0#32 (iota .tc S256x256 32 [0] iota_S256x256_d0_w32 (ix2 d e))
          (IntOp.divsi .vector (iota .tc S256x256 32 [0] iota_S256x256_d0_w32 (ix2 d e)) 64#32) := rfl
  rw [h, iota0_apply]
  exact fdivSel_ofNat d

/-- The column's truncated quotient by 64 at (d, e). -/
theorem k1_pay7_apply (d e : Fin 256) :
    k1_pay7 (ix2 d e) = IntOp.divsi .vector (BitVec.ofNat 32 e.val) 64#32 := by
  have h : k1_pay7 (ix2 d e)
      = IntOp.divsi .vector (iota .tc S256x256 32 [1] iota_S256x256_d1_w32 (ix2 d e)) 64#32 := rfl
  rw [h, iota1_apply]

/-- The mask's bit at (d, e): one exactly when d and e lie in the same block of 64. -/
theorem maskBit_apply (d e : Fin 256) :
    IntOp.cmpi .eq (k1_pay6 (ix2 d e))
        (fdivSel 64#32 0#32 (iota .tc S256x256 32 [1] iota_S256x256_d1_w32 (ix2 d e)) (k1_pay7 (ix2 d e)))
      = if d.val / 64 = e.val / 64 then 1#1 else 0#1 := by
  rw [k1_pay6_apply, k1_pay7_apply, iota1_apply, fdivSel_ofNat e]
  exact cmpi_eq_block ⟨d.val / 64, by omega⟩ ⟨e.val / 64, by omega⟩

/-- A select on that bit is the `if` on the block test. -/
theorem select_mask {α : Type} (d e : Fin 256) (x y : α) :
    Scalar.select (if d.val / 64 = e.val / 64 then 1#1 else 0#1) x y = if d.val / 64 = e.val / 64 then x else y := by
  by_cases h : d.val / 64 = e.val / 64
  · rw [if_pos h, if_pos h]; exact select_one x y
  · rw [if_neg h, if_neg h]; exact select_zero x y

end Cert.KernelIdeal.PayValue

end
-- ==== Proof.LibMaskedSum.lean ====
/-
  A masked sum over 256 positions, four blocks of 64: when the mask keeps exactly the positions of block h, the sum is
  the sum over that block's 64 positions. The mask is the test  d / 64 = h  on the position's number; the positions of
  block h are 64·h + d', d' < 64. Stated over any commutative additive monoid.
-/
import Mathlib.Algebra.BigOperators.Fin

open scoped BigOperators

namespace Cert.Lib

/-- A sum over `Fin 256` of a function masked to the block `h` of 64 consecutive positions (kept where `d / 64 = h`,
    zero elsewhere), `h < 4`, is the sum over `Fin 64` of the function at `64 * h + d'`: the masked terms contribute
    nothing, and `d' ↦ 64 * h + d'` is a bijection from `Fin 64` onto the kept positions. -/
theorem sum_block_mask {M : Type*} [AddCommMonoid M] (f : Fin 256 → M) (h : ℕ) (hh : h < 4) :
    ∑ d : Fin 256, (if d.val / 64 = h then f d else 0)
      = ∑ d' : Fin 64, f (⟨64 * h + d'.val, by omega⟩ : Fin 256) := by
  rw [← Finset.sum_filter]
  refine (Finset.sum_bij (fun (d' : Fin 64) _ => (⟨64 * h + d'.val, by omega⟩ : Fin 256)) ?_ ?_ ?_ ?_).symm
  · intro d' _
    simp only [Finset.mem_filter, Finset.mem_univ, true_and]
    omega
  · intro a _ b _ hab
    have := congrArg Fin.val hab
    simp only at this
    exact Fin.ext (by omega)
  · intro d hd
    simp only [Finset.mem_filter, Finset.mem_univ, true_and] at hd
    exact ⟨⟨d.val % 64, Nat.mod_lt _ (by omega)⟩, Finset.mem_univ _, Fin.ext (by simp only; omega)⟩
  · intro d' _
    rfl

end Cert.Lib
-- ==== Proof.Pay1.lean ====
/-
  The attention core's stored block read at an index, on the extended reals.

  For one [1, 4096, 256] quad of queries q, keys k and values v (four heads of 64 columns), the kernel forms the keys'
  column sums, the key-value state kv[d, e] = Σ_s k[s, d] · v[s, e], masks kv to its four 64 × 64 diagonal blocks, and
  stores  (q · masked kv)[s, e] / (ksum[e] + ε).  A masked entry is exactly 0 and q · 0 = 0, so of the 256 terms of the
  product at column e only the 64 terms of e's own block survive:
    out[s, e] = (Σ_{d < 64} q[s, 64·(e/64) + d] · kv[64·(e/64) + d, e]) / (Σ_s k[s, e] + ε).
-/
import proofs.«127050_j83339545411776_2_alg».proof.Proof.Pay1Sums
import proofs.«127050_j83339545411776_2_alg».proof.Proof.Pay1Mask
import proofs.«127050_j83339545411776_2_alg».proof.Proof.LibMaskedSum

noncomputable section

open scoped BigOperators

namespace Cert.KernelIdeal.PayValue

open Cert.KernelIdeal Cert.KernelIdeal.Gen Idealize.ShloMosaic Idealize.ShloMosaic.ValueIdx

/-- The stored block at (0, s, e), for any operands: the product of row s of `v1` against the masked matrix — entry
    (d, e) of `v9` where the two block words agree, the zero word elsewhere — over the row `v8` at e plus the f32
    word of 1e-6. -/
theorem k1_pay1_apply (v1 : FVec Ideal S4096x256 .bf16) (v8 : FVec Ideal S1x256 .f32) (v9 : FVec Ideal S256x256 .f32)
    (v34 v35 : IVec S256x256 32) (c64 : BitVec 32) (v37 : IVec S256x256 32) (c0 : BitVec 32)
    (s : Fin 4096) (e : Fin 256) :
    k1_pay1 (F := Ideal) v1 v8 v9 v34 v35 c64 v37 c0 (ix3 (0 : Fin 1) s e)
      = Ideal.div
          (∑ d : Fin 256, v1 (ix2 s d) *
            Scalar.select (IntOp.cmpi .eq (v34 (ix2 d e)) (fdivSel c64 c0 (v35 (ix2 d e)) (v37 (ix2 d e))))
              (v9 (ix2 d e)) (Ideal.ofBits .f32 0x00000000#32))
          (v8 (ix2 (0 : Fin 1) e) + Ideal.ofBits .f32 0x358637BD#32) := by
  unfold k1_pay1
  refine (shapeCast_ab_1ab_apply _ _ (0 : Fin 1) s e).trans ?_
  rw [truncf_apply, divf_apply]
  refine congrArg₂ Ideal.div ((matmul_attn_apply _ _ s e).trans ?_) ((broadcastTo_1b_ab_apply _ _ s e).trans ?_)
  · exact Finset.sum_congr rfl fun d _ => rfl
  · rfl

/-- The attention core's stored block at (0, s, e): the query's head against that head's key-value state, over the
    keys' column sum plus ε. -/
theorem pay1 (q k v : Vec Ideal S1x4096x256 .bf16) (s : Fin 4096) (e : Fin 256) :
    k1_pay1 (F := Ideal) (k1_pay2 q) (k1_pay4 k) (k1_pay5 k v) k1_pay6
        (iota .tc S256x256 32 [1] iota_S256x256_d1_w32) 64#32 k1_pay7 0#32 (ix3 (0 : Fin 1) s e)
      = Ideal.div
          (∑ d : Fin 64, q (ix3 0 s ⟨64 * (e.val / 64) + d.val, by omega⟩) *
            (∑ s' : Fin 4096, k (ix3 0 s' ⟨64 * (e.val / 64) + d.val, by omega⟩) * v (ix3 0 s' e)))
          ((∑ s' : Fin 4096, k (ix3 0 s' e)) + Cert.LinAttn.eps) := by
  have hterm : ∀ d : Fin 256,
      k1_pay2 (F := Ideal) q (ix2 s d) *
          Scalar.select (IntOp.cmpi .eq (k1_pay6 (ix2 d e))
              (fdivSel 64#32 0#32 (iota .tc S256x256 32 [1] iota_S256x256_d1_w32 (ix2 d e)) (k1_pay7 (ix2 d e))))
            (k1_pay5 (F := Ideal) k v (ix2 d e)) (Ideal.ofBits .f32 0x00000000#32)
        = if d.val / 64 = e.val / 64 then
            q (ix3 0 s d) * (∑ s' : Fin 4096, k (ix3 0 s' d) * v (ix3 0 s' e))
          else 0 := by
    intro d
    rw [maskBit_apply, select_mask, k1_pay2_apply, k1_pay5_apply, Ideal.ofBits_zero_f32]
    by_cases h : d.val / 64 = e.val / 64
    · rw [if_pos h, if_pos h]
    · rw [if_neg h, if_neg h, mul_zero]
  rw [k1_pay1_apply, k1_pay4_apply, Finset.sum_congr rfl (fun d _ => hterm d)]
  refine congrArg₂ Ideal.div ?_ rfl
  exact Cert.Lib.sum_block_mask
    (fun d : Fin 256 => q (ix3 0 s d) * (∑ s' : Fin 4096, k (ix3 0 s' d) * v (ix3 0 s' e))) (e.val / 64) (by omega)

end Cert.KernelIdeal.PayValue

end
-- ==== Proof.Arr1.lean ====
/-
  The attention launch's output array after the run, as one function of the fused projection.

  The grid is (batch, head-quad), 4 × 4 points. Point (b, hq) reads three [1, 4096, 256] blocks of the fused
  [4, 4096, 3072] array — batch b, all 4096 positions, columns 256·hq + e of the queries' third, 1024 + 256·hq + e of the
  keys' and 2048 + 256·hq + e of the values' — and writes back the [1, 4096, 256] block of the [4, 4096, 1024] output at
  batch b, columns 256·hq + e. Output column j = 256·hq + e lies in head j / 64, whose first column is
  64·(j/64) = 256·hq + 64·(e/64): the head inside the quad is the head of the whole array. So every point writes back its
  block of ONE function of the fused array, and the sixteen blocks tile the output.
-/
import proofs.«127050_j83339545411776_2_alg».proof.Proof.Frame1
import proofs.«127050_j83339545411776_2_alg».proof.Proof.Pay1
import proofs.«127050_j83339545411776_2_alg».proof.Proof.ArrSpec
import Idealize.ShloMosaic.Lib.Pipeline.Value

noncomputable section

open scoped BigOperators

namespace Cert.KernelIdeal.ArrValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.PayValue

/-! ## One point's block, over variables -/

/-- If three [1, 4096, 256] blocks are batch `b`'s columns 256·hq + e, 1024 + 256·hq + e and 2048 + 256·hq + e of a
    fused array, the attention core's stored block at (0, s, e) is the whole-array attention at (b, s, 256·hq + e):
    the head's first column 64·((256·hq + e)/64) is 256·hq + 64·(e/64). -/
theorem attn_block_at (x0 x1 x2 : Vec Ideal S1x4096x256 .bf16) (qkv : FVec Ideal S4x4096x3072 .bf16)
    (b hq : ℕ) (hb : b < 4) (hhq : hq < 4)
    (h0 : ∀ (s : Fin 4096) (e : Fin 256),
      x0 (ix3 (0 : Fin 1) s e) = qkv (ix3 (⟨b, hb⟩ : Fin 4) s (⟨256 * hq + e.val, by omega⟩ : Fin 3072)))
    (h1 : ∀ (s : Fin 4096) (e : Fin 256),
      x1 (ix3 (0 : Fin 1) s e) = qkv (ix3 (⟨b, hb⟩ : Fin 4) s (⟨1024 + 256 * hq + e.val, by omega⟩ : Fin 3072)))
    (h2 : ∀ (s : Fin 4096) (e : Fin 256),
      x2 (ix3 (0 : Fin 1) s e) = qkv (ix3 (⟨b, hb⟩ : Fin 4) s (⟨2048 + 256 * hq + e.val, by omega⟩ : Fin 3072)))
    (s : Fin 4096) (e : Fin 256) :
    k1_pay1 (F := Ideal) (k1_pay2 x0) (k1_pay4 x1) (k1_pay5 x1 x2) k1_pay6
        (iota .tc S256x256 32 [1] iota_S256x256_d1_w32) 64#32 k1_pay7 0#32 (ix3 (0 : Fin 1) s e)
      = attnAt qkv ⟨b, hb⟩ s (⟨256 * hq + e.val, by omega⟩ : Fin 1024) := by
  have key : ∀ (s : Fin 4096) (z z' : Fin 3072), z.val = z'.val →
      qkv (ix3 (⟨b, hb⟩ : Fin 4) s z) = qkv (ix3 (⟨b, hb⟩ : Fin 4) s z') := fun s z z' h => by rw [Fin.ext h]
  rw [pay1]
  unfold attnAt
  refine congrArg₂ Ideal.div (Finset.sum_congr rfl fun d _ => ?_)
    (congrArg (· + Cert.LinAttn.eps) (Finset.sum_congr rfl fun s' _ => ?_))
  · refine congrArg₂ (· * ·) ((h0 _ _).trans (key _ _ _ (by dsimp only; omega)))
      (Finset.sum_congr rfl fun s' _ => congrArg₂ (· * ·) ((h1 _ _).trans (key _ _ _ (by dsimp only; omega)))
        ((h2 _ _).trans (key _ _ _ (by dsimp only; omega))))
  · exact (h1 _ _).trans (key _ _ _ (by dsimp only; omega))

/-! ## The windows' blocks as parts of the arrays -/

variable (V : (c : Dev nD) → (b : Ref sig .tc) → Buf (Elt Ideal) ((c : Thread nD τ).loc b))

/-- The printed index maps, decided over the sixteen grid points: the output window's block index is (b, 0, hq) with
    b, hq < 4, and the three input windows sit at the same batch and position block, at column blocks hq, hq + 4 and
    hq + 8 of the fused array. -/
theorem idx_facts1 : ∀ t : Fin cfg1.N,
    win1_3.index t (0 : Fin 3) < 4 ∧ win1_3.index t (1 : Fin 3) = 0 ∧ win1_3.index t (2 : Fin 3) < 4
    ∧ win1_0.index t (0 : Fin 3) = win1_3.index t (0 : Fin 3) ∧ win1_0.index t (1 : Fin 3) = 0
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3) + 4
    ∧ win1_2.index t (0 : Fin 3) = win1_3.index t (0 : Fin 3) ∧ win1_2.index t (1 : Fin 3) = 0
    ∧ win1_2.index t (2 : Fin 3) = win1_3.index t (2 : Fin 3) + 8 :=
  (by decide +kernel : ∀ t : Fin grid1.N, _)

/-- Every (batch, quad) pair is some point's output block. -/
theorem idx_onto1 : ∀ (q0 : Fin 4) (q2 : Fin 4), ∃ t : Fin cfg1.N, win1_3.index t = ![q0.val, 0, q2.val] :=
  (by decide +kernel : ∀ (q0 : Fin 4) (q2 : Fin 4), ∃ t : Fin grid1.N, win1_3.index t = ![q0.val, 0, q2.val])

/-- The queries' block at a point, read at (0, s, e), is the fused array at the block's batch, position s, and column (column block) · 256 + e. -/
theorem iblk1_0_apply (c : Dev nD) (t : Fin cfg1.N) (s : Fin 4096) (e : Fin 256) (k : S4x4096x3072.Idx)
    (hk0 : (k 0).val = win1_0.index t (0 : Fin 3)) (hi1 : win1_0.index t (1 : Fin 3) = 0) (hk1 : (k 1).val = s.val)
    (hk2 : (k 2).val = win1_0.index t (2 : Fin 3) * 256 + e.val) :
    (iblk1 V c 0 t : Vec Ideal S1x4096x256 .bf16) (ix3 (0 : Fin 1) s e)
      = (V c main_v5 : S4x4096x3072.Idx → Elt Ideal .bf16) k := by
  unfold iblk1
  rw [View.read_apply]
  show V c main_v5 _ = V c main_v5 _
  refine congrArg (V c main_v5) ?_
  funext a
  apply Fin.ext
  match a with
  | ⟨0, _⟩ => show win1_0.index t (0 : Fin 3) * 1 + 1 * 0 = (k 0).val; omega
  | ⟨1, _⟩ => show win1_0.index t (1 : Fin 3) * 4096 + 1 * s.val = (k 1).val; omega
  | ⟨2, _⟩ => show win1_0.index t (2 : Fin 3) * 256 + 1 * e.val = (k 2).val; omega

/-- The keys' block at a point, likewise. -/
theorem iblk1_1_apply (c : Dev nD) (t : Fin cfg1.N) (s : Fin 4096) (e : Fin 256) (k : S4x4096x3072.Idx)
    (hk0 : (k 0).val = win1_1.index t (0 : Fin 3)) (hi1 : win1_1.index t (1 : Fin 3) = 0) (hk1 : (k 1).val = s.val)
    (hk2 : (k 2).val = win1_1.index t (2 : Fin 3) * 256 + e.val) :
    (iblk1 V c 1 t : Vec Ideal S1x4096x256 .bf16) (ix3 (0 : Fin 1) s e)
      = (V c main_v5 : S4x4096x3072.Idx → Elt Ideal .bf16) k := by
  unfold iblk1
  rw [View.read_apply]
  show V c main_v5 _ = V c main_v5 _
  refine congrArg (V c main_v5) ?_
  funext a
  apply Fin.ext
  match a with
  | ⟨0, _⟩ => show win1_1.index t (0 : Fin 3) * 1 + 1 * 0 = (k 0).val; omega
  | ⟨1, _⟩ => show win1_1.index t (1 : Fin 3) * 4096 + 1 * s.val = (k 1).val; omega
  | ⟨2, _⟩ => show win1_1.index t (2 : Fin 3) * 256 + 1 * e.val = (k 2).val; omega

/-- The values' block at a point, likewise. -/
theorem iblk1_2_apply (c : Dev nD) (t : Fin cfg1.N) (s : Fin 4096) (e : Fin 256) (k : S4x4096x3072.Idx)
    (hk0 : (k 0).val = win1_2.index t (0 : Fin 3)) (hi1 : win1_2.index t (1 : Fin 3) = 0) (hk1 : (k 1).val = s.val)
    (hk2 : (k 2).val = win1_2.index t (2 : Fin 3) * 256 + e.val) :
    (iblk1 V c 2 t : Vec Ideal S1x4096x256 .bf16) (ix3 (0 : Fin 1) s e)
      = (V c main_v5 : S4x4096x3072.Idx → Elt Ideal .bf16) k := by
  unfold iblk1
  rw [View.read_apply]
  show V c main_v5 _ = V c main_v5 _
  refine congrArg (V c main_v5) ?_
  funext a
  apply Fin.ext
  match a with
  | ⟨0, _⟩ => show win1_2.index t (0 : Fin 3) * 1 + 1 * 0 = (k 0).val; omega
  | ⟨1, _⟩ => show win1_2.index t (1 : Fin 3) * 4096 + 1 * s.val = (k 1).val; omega
  | ⟨2, _⟩ => show win1_2.index t (2 : Fin 3) * 256 + 1 * e.val = (k 2).val; omega

theorem hz3 : (![0, 0, 0] : Fin 3 → Nat) = fun _ => 0 := funext fun a => by fin_cases a <;> rfl

/-! ## What a point writes back, and the array after the run -/

/-- WHAT POINT `t` WRITES BACK is block `t` of the whole-array attention of the fused array as the region finds it. -/
theorem flushed1_eq (c : Dev nD) (t : Fin cfg1.N) :
    (dat1 (F := Ideal) V c).flushed 3 t
      = ((cfg1.win 3).blk t).view.read (Elt Ideal) (attn3 (V c main_v5)) := by
  show (cfg1.win 3).cut (grid1.coords t) ((dat1 V c).after 3 t) = _
  rw [after1_3]
  unfold out1_3
  rw [View.canon_unit_zero hz3]
  simp only [View.ld_unit_zero (S := S1x4096x256) hz3]
  obtain ⟨b3, z3, q3, a0, a1, a2, b0, b1, b2, c0, c1, c2⟩ := idx_facts1 t
  funext j
  obtain ⟨u, s, e, rfl⟩ : ∃ (u : Fin 1) (s : Fin 4096) (e : Fin 256), j = ix3 u s e := ⟨j 0, j 1, j 2, @eq_ix3 1 4096 256 j⟩
  obtain rfl : u = 0 := Subsingleton.elim _ _
  rw [View.read_apply]
  have hemb : ((cfg1.win 3).blk t).view.emb (ix3 (0 : Fin 1) s e)
      = ix3 (⟨win1_3.index t (0 : Fin 3), b3⟩ : Fin 4) s (⟨256 * win1_3.index t (2 : Fin 3) + e.val, by omega⟩ : Fin 1024) := by
    funext a
    apply Fin.ext
    match a with
    | ⟨0, _⟩ => show win1_3.index t (0 : Fin 3) * 1 + 1 * 0 = win1_3.index t (0 : Fin 3); omega
    | ⟨1, _⟩ => show win1_3.index t (1 : Fin 3) * 4096 + 1 * s.val = s.val; omega
    | ⟨2, _⟩ => show win1_3.index t (2 : Fin 3) * 256 + 1 * e.val = 256 * win1_3.index t (2 : Fin 3) + e.val; omega
  rw [hemb, attn3_apply]
  refine attn_block_at (iblk1 V c 0 t) (iblk1 V c 1 t) (iblk1 V c 2 t) (V c main_v5)
    (win1_3.index t (0 : Fin 3)) (win1_3.index t (2 : Fin 3)) b3 q3 ?_ ?_ ?_ s e
  · intro s e
    exact iblk1_0_apply V c t s e _ (by show win1_3.index t (0 : Fin 3) = _; omega) a1 rfl
      (by show 256 * win1_3.index t (2 : Fin 3) + e.val = _; omega)
  · intro s e
    exact iblk1_1_apply V c t s e _ (by show win1_3.index t (0 : Fin 3) = _; omega) b1 rfl
      (by show 1024 + 256 * win1_3.index t (2 : Fin 3) + e.val = _; omega)
  · intro s e
    exact iblk1_2_apply V c t s e _ (by show win1_3.index t (0 : Fin 3) = _; omega) c1 rfl
      (by show 2048 + 256 * win1_3.index t (2 : Fin 3) + e.val = _; omega)

/-- An index of the output array is in point `t`'s block iff each coordinate is in the block's range on its axis. -/
theorem mem_blk1 (t : Fin cfg1.N) (i : S4x4096x1024.Idx) :
    i ∈ ((cfg1.win 3).blk t).view.set
      ↔ ∀ a : Fin 3, win1_3.index t a * S1x4096x256.size a ≤ (i a).val
          ∧ (i a).val < win1_3.index t a * S1x4096x256.size a + S1x4096x256.size a := by
  show i ∈ ((View.whole main_v6).slice (win1_3.rect t)).set ↔ _
  rw [View.set_slice_whole, Rect.mem_set_unit]
  exact Iff.rfl

/-- THE ARRAY after the run: the whole-array attention of the fused array, everywhere — the sixteen blocks tile it, the
    point that covers (b, s, j) being the one whose output block is (b, 0, j / 256). -/
theorem final1 (c : Dev nD) : (dat1 (F := Ideal) V c).arrAt 3 cfg1.N = attn3 (V c main_v5) :=
  (dat1 (F := Ideal) V c).arrAt_eq_of_cover 3 (attn3 (V c main_v5)) (fun t _ => flushed1_eq V c t) fun i => by
    have hi0 : (i 0).val < 4 := (i 0).isLt
    have hi1 : (i 1).val < 4096 := (i 1).isLt
    have hi2 : (i 2).val < 1024 := (i 2).isLt
    obtain ⟨t, ht⟩ := idx_onto1 ⟨(i 0).val, hi0⟩ ⟨(i 2).val / 256, by omega⟩
    have q0 : win1_3.index t (0 : Fin 3) = (i 0).val := congrFun ht 0
    have q1 : win1_3.index t (1 : Fin 3) = 0 := congrFun ht 1
    have q2 : win1_3.index t (2 : Fin 3) = (i 2).val / 256 := congrFun ht 2
    refine ⟨t, flush1_3 t, ?_⟩
    rw [mem_blk1]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 4096 ≤ (i 1).val ∧ (i 1).val < win1_3.index t (1 : Fin 3) * 4096 + 4096; omega
    | ⟨2, _⟩ => show win1_3.index t (2 : Fin 3) * 256 ≤ (i 2).val ∧ (i 2).val < win1_3.index t (2 : Fin 3) * 256 + 256; omega

end Cert.KernelIdeal.ArrValue

end
-- ==== Proof.Pay2.lean ====
/-
  The output projection's block read at an index, on the extended reals.

  One grid point of the third kernel multiplies a [512, 1024] block of attention rows against the [1024, 1024] output
  weights, contracting the second axis of both, into a zero accumulator, and adds the [1, 1024] bias row broadcast over
  the 512 rows. At entry (r, e) this is  (Σ_k block[r, k] · wo[e, k]) + bo[0, e].
-/
import proofs.«127050_j83339545411776_2_alg».proof.Proof.Gen.KernelIdeal.Skeleton
import proofs.«127050_j83339545411776_2_alg».proof.Proof.Spec
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The output projection's dimension numbers: [512,1024] × [1024,1024] → [512,1024], contracting the second axis of both operands. -/
abbrev dotOut := dot_S512x1024_S1024x1024_S512x1024_1_1_0_0_n_n

/-- The operand indices of that product at output entry `i` and contraction position `q`: the free axes read `i`, the contracted axes read `q`. -/
theorem lhs_free_out (i : S512x1024.Idx) (q : dotOut.contr.Idx) : (dotOut.lhsIdx i q 0).val = (i 0).val := by
  unfold DotDims.lhsIdx
  rw [dif_neg (show ¬(0 : Fin S512x1024.rank) ∈ dotOut.lhsBatch by decide),
    dif_pos (show (0 : Fin S512x1024.rank) ∈ dotOut.lhsNonContracting by decide)]
  rfl
theorem lhs_contr_out (i : S512x1024.Idx) (q : dotOut.contr.Idx) :
    (dotOut.lhsIdx i q 1).val = (q ⟨0, by decide⟩).val :=
  dotOut.lhsIdx_val_of_single rfl i q
theorem rhs_free_out (i : S512x1024.Idx) (q : dotOut.contr.Idx) : (dotOut.rhsIdx i q 0).val = (i 1).val := by
  unfold DotDims.rhsIdx
  rw [dif_neg (show ¬(0 : Fin S1024x1024.rank) ∈ dotOut.rhsBatch by decide),
    dif_pos (show (0 : Fin S1024x1024.rank) ∈ dotOut.rhsNonContracting by decide)]
  rfl
theorem rhs_contr_out (i : S512x1024.Idx) (q : dotOut.contr.Idx) :
    (dotOut.rhsIdx i q 1).val = (q ⟨0, by decide⟩).val :=
  dotOut.rhsIdx_val_of_single rfl i q

/-- That product into the zero accumulator, at entry (r, e): the sum over the shared axis of row r of the left operand against row e of the right. -/
theorem matmul_out_apply (a : FVec Ideal S512x1024 .bf16) (b : FVec Ideal S1024x1024 .bf16) (r : Fin 512) (e : Fin 1024) :
    matmul dotOut none a b (constant S512x1024 .f32 0x00000000#32) (ix2 r e)
      = ∑ k : Fin 1024, a (ix2 r k) * b (ix2 e k) := by
  refine (Ideal.matmul_constant_zero_apply dotOut none a b (ix2 r e)).trans ?_
  rw [← Equiv.sum_comp (contrEquiv1 dotOut 1024 rfl rfl).symm]
  refine Finset.sum_congr rfl fun k _ => ?_
  have hk := contrEquiv1_symm_val dotOut 1024 rfl rfl k
  have el : dotOut.lhsIdx (ix2 r e) ((contrEquiv1 dotOut 1024 rfl rfl).symm k) = ix2 r k :=
    funext fun ax => Fin.ext (by
      match ax with
      | ⟨0, _⟩ => exact lhs_free_out _ _
      | ⟨1, _⟩ => exact (lhs_contr_out _ _).trans hk)
  have er : dotOut.rhsIdx (ix2 r e) ((contrEquiv1 dotOut 1024 rfl rfl).symm k) = ix2 e k :=
    funext fun ax => Fin.ext (by
      match ax with
      | ⟨0, _⟩ => exact rhs_free_out _ _
      | ⟨1, _⟩ => exact (rhs_contr_out _ _).trans hk)
  rw [el, er]

/-- The output projection's block at entry (r, e): row r of the attention block against row e of the output weights,
    plus the bias at column e. -/
theorem pay2 (v0 : Vec Ideal S512x1024 .bf16) (v2 : Vec Ideal S1024x1024 .bf16) (v5 : Vec Ideal S1x1024 .f32)
    (r : Fin 512) (e : Fin 1024) :
    k2_pay1 (F := Ideal) v0 v2 v5 (ix2 r e)
      = (∑ k : Fin 1024, v0 (ix2 r k) * v2 (ix2 e k)) + v5 (ix2 (0 : Fin 1) e) := by
  unfold k2_pay1
  rw [addf_apply, shapeCast_self, shapeCast_self, shapeCast_self]
  exact congrArg₂ (· + ·) (matmul_out_apply _ _ r e) (broadcastTo_1b_ab_apply _ _ r e)

end Cert.KernelIdeal.PayValue

end
-- ==== Proof.Arr2.lean ====
/-
  The output projection's launch, from blocks to the whole array, on the extended reals.

  Grid point t of the third launch reads rows [512 t, 512 t + 512) of the attention output, all of the output weights and
  the bias row, and writes rows [512 t, 512 t + 512) of the result: entry (r, e) of the block is
  (Σ_k block[r, k] · wo[e, k]) + bo[0, e]. The 32 points' row blocks tile the [16384, 1024] array, so after the launch the
  array holds, at every (i, e), (Σ_k a[i, k] · wo[e, k]) + bo[0, e] of the arrays the launch was entered with.
-/
import proofs.«127050_j83339545411776_2_alg».proof.Proof.Frame2
import proofs.«127050_j83339545411776_2_alg».proof.Proof.Pay2
import proofs.«127050_j83339545411776_2_alg».proof.Proof.ArrSpec
import Idealize.ShloMosaic.Lib.Pipeline.Value
import Idealize.ShloMosaic.Lib.ValueIdx

set_option maxRecDepth 16384

noncomputable section

open scoped BigOperators

namespace Cert.KernelIdeal.ArrValue

open Cert.KernelIdeal Cert.KernelIdeal.Gen Cert.KernelIdeal.Fr Cert.KernelIdeal.PayValue
open Idealize.ShloMosaic Idealize.ShloMosaic.TcCoe Idealize.ShloMosaic.ValueIdx
open Idealize.ShloMosaic.Pipeline (Dat)

-- the TensorCore's buffer contents when the launch is entered
variable (V : (c : Dev nD) → (b : Ref sig .tc) → Buf (Elt Ideal) ((c : Thread nD τ).loc b))

theorem zero_off : (![0, 0] : Fin 2 → Nat) = fun _ => 0 := funext fun a => by fin_cases a <;> rfl

/-- One entry of a block is the entry of the whole-array function it sits at, once the block's row is the array's row,
    the weights' row is the array's column's and the bias entry is the column's. -/
theorem block_entry (x0 : Vec Ideal S512x1024 .bf16) (x1 : Vec Ideal S1024x1024 .bf16) (x2 : Vec Ideal S1x1024 .f32)
    (a2 : FVec Ideal S16384x1024 .bf16) (wo : FVec Ideal S1024x1024 .bf16) (b2 : FVec Ideal S1x1024 .f32)
    (y : S512x1024.Idx) (i : S16384x1024.Idx)
    (h0 : ∀ k : Fin 1024, x0 (ix2 (y 0) k) = a2 (ix2 (i 0) k))
    (h1 : ∀ k : Fin 1024, x1 (ix2 (y 1) k) = wo (ix2 (i 1) k))
    (h2 : x2 (ix2 (0 : Fin 1) (y 1)) = b2 (ix2 (0 : Fin 1) (i 1))) :
    k2_pay1 (F := Ideal) x0 x1 x2 y = out2d a2 wo b2 i := by
  refine (congrArg (k2_pay1 (F := Ideal) x0 x1 x2) (eq_ix2 y)).trans ((pay2 x0 x1 x2 (y 0) (y 1)).trans ?_)
  unfold out2d outAt
  rw [h2]
  exact congrArg (· + _) (Finset.sum_congr rfl fun k _ => by rw [h0 k, h1 k])

/-- The printed index maps, decided once over the 32 grid points: the attention block and the result block are row block
    t, the weights and the bias are whole arrays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t of the whole-array function of the arrays the launch was entered with. -/
theorem flushed2_eq (c : Dev nD) (t : Fin cfg2.N) :
    (dat2 (F := Ideal) V c).flushed 3 t
      = ((cfg2.win 3).blk t).view.read (Elt Ideal) (out2d (V c main_v7) (V c main_v2) (V c main_v8)) := by
  show (cfg2.win 3).cut (grid2.coords t) ((dat2 (F := Ideal) V c).after 3 t) = _
  rw [after2_3]
  unfold out2_3
  rw [View.canon_unit_zero zero_off]
  simp only [View.ld_unit_zero (S := S512x1024) zero_off, View.ld_unit_zero (S := S1024x1024) zero_off,
    View.ld_unit_zero (S := S1x1024) zero_off]
  obtain ⟨e0, e1, e2, e3, e4, e5, e6, e7⟩ := idx_facts2 t
  funext y
  show k2_pay1 (F := Ideal) (iblk2 V c 0 t) (iblk2 V c 1 t) (iblk2 V c 2 t) y
    = out2d (V c main_v7) (V c main_v2) (V c main_v8) (((cfg2.win 3).blk t).view.emb y)
  refine block_entry (iblk2 V c 0 t) (iblk2 V c 1 t) (iblk2 V c 2 t) (V c main_v7) (V c main_v2) (V c main_v8) y
    (((cfg2.win 3).blk t).view.emb y) (fun k => ?_) (fun k => ?_) ?_
  · show V c main_v7 (((cfg2.win 0).blk t).view.emb (ix2 (y 0) k)) = V c main_v7 (ix2 ((((cfg2.win 3).blk t).view.emb y) 0) k)
    refine congrArg (V c main_v7) (funext fun a => Fin.ext ?_)
    match a with
    | ⟨0, _⟩ => show win2_0.index t (0 : Fin 2) * 512 + 1 * (y 0).val = win2_3.index t (0 : Fin 2) * 512 + 1 * (y 0).val; omega
    | ⟨1, _⟩ => show win2_0.index t (1 : Fin 2) * 1024 + 1 * k.val = k.val; omega
  · show V c main_v2 (((cfg2.win 1).blk t).view.emb (ix2 (y 1) k)) = V c main_v2 (ix2 ((((cfg2.win 3).blk t).view.emb y) 1) k)
    refine congrArg (V c main_v2) (funext fun a => Fin.ext ?_)
    match a with
    | ⟨0, _⟩ => show win2_1.index t (0 : Fin 2) * 1024 + 1 * (y 1).val = win2_3.index t (1 : Fin 2) * 1024 + 1 * (y 1).val; omega
    | ⟨1, _⟩ => show win2_1.index t (1 : Fin 2) * 1024 + 1 * k.val = k.val; omega
  · show V c main_v8 (((cfg2.win 2).blk t).view.emb (ix2 (0 : Fin 1) (y 1))) = V c main_v8 (ix2 (0 : Fin 1) ((((cfg2.win 3).blk t).view.emb y) 1))
    refine congrArg (V c main_v8) (funext fun a => Fin.ext ?_)
    match a with
    | ⟨0, _⟩ => show win2_2.index t (0 : Fin 2) * 1 + 1 * 0 = 0; omega
    | ⟨1, _⟩ => show win2_2.index t (1 : Fin 2) * 1024 + 1 * (y 1).val = win2_3.index t (1 : Fin 2) * 1024 + 1 * (y 1).val; omega

/-- An index of the array is in point t's block iff each coordinate is in the block's range on its axis. -/
theorem mem_blk2 (t : Fin cfg2.N) (i : S16384x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v9).slice (win2_3.rect t)).set ↔ _
  rw [View.set_slice_whole, Rect.mem_set_unit]
  exact Iff.rfl

/-- Every index of the array is in some point's block: row r is in the block of point r / 512. -/
theorem cover2 (i : S16384x1024.Idx) :
    ∃ t : Fin cfg2.N, (cfg2.win 3).flush t = true ∧ i ∈ ((cfg2.win 3).blk t).view.set := by
  have hN : grid2.N = 32 := N_2
  have hi0 : (i 0).val < 16384 := (i 0).isLt
  have hi1 : (i 1).val < 1024 := (i 1).isLt
  have hlt : (i 0).val / 512 < cfg2.N := by show _ < grid2.N; omega
  obtain ⟨e0, e1, e2, e3, e4, e5, e6, e7⟩ := idx_facts2 ⟨(i 0).val / 512, hlt⟩
  refine ⟨⟨(i 0).val / 512, hlt⟩, flush2_3 _, ?_⟩
  rw [mem_blk2]
  intro a
  match a with
  | ⟨0, _⟩ =>
    show win2_3.index ⟨(i 0).val / 512, hlt⟩ (0 : Fin 2) * 512 ≤ (i 0).val
      ∧ (i 0).val < win2_3.index ⟨(i 0).val / 512, hlt⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, hlt⟩ (1 : Fin 2) * 1024 ≤ (i 1).val
      ∧ (i 1).val < win2_3.index ⟨(i 0).val / 512, hlt⟩ (1 : Fin 2) * 1024 + 1024
    rw [e7]; omega

/-- The result array after the launch is the whole-array function of the arrays the launch was entered with. -/
theorem final2 (c : Dev nD) :
    (dat2 (F := Ideal) V c).arrAt 3 cfg2.N = out2d (V c main_v7) (V c main_v2) (V c main_v8) :=
  (dat2 (F := Ideal) V c).arrAt_eq_of_cover 3 (out2d (V c main_v7) (V c main_v2) (V c main_v8))
    (fun t _ => flushed2_eq V c t) cover2

end Cert.KernelIdeal.ArrValue

end
-- ==== Proof.KernelMath.lean ====
/-
  The kernel's three launches composed through the host reshapes between them, as ONE term of the five argument
  arrays, and that term is the layer G. Row r = 4096·batch + position of a [16384, …] array is (batch, position) of
  the [4, 4096, …] one; the narrowing of the weights is the identity on the extended reals; the fused projection's
  columns below 2048 carry the feature map (queries at column c, keys at 1024 + c) and those from 2048 on do not
  (values at 2048 + c), so the attention core's sums are the specification's sums term by term.
-/
import proofs.«127050_j83339545411776_2_alg».proof.Proof.Spec
import proofs.«127050_j83339545411776_2_alg».proof.Proof.ArrSpec
import proofs.«127050_j83339545411776_2_alg».proof.Proof.Gen.KernelIdeal
import Idealize.ShloMosaic.Lib.ValueIdx
import Idealize.ShloMosaic.Lib.Pipeline.Value

noncomputable section

open scoped BigOperators

namespace Cert.KernelIdeal.KValue

open Cert.KernelIdeal Cert.KernelIdeal.Gen Cert.KernelIdeal.ArrValue Idealize.ShloMosaic Idealize.ShloMosaic.ValueIdx Cert.LinAttn

variable (x : FVec Ideal S4x4096x1024 .f32) (w : FVec Ideal S3072x1024 .f32) (b : FVec Ideal S3072 .f32)
  (wo : FVec Ideal S1024x1024 .f32) (bo : FVec Ideal S1024 .f32)

/-- The input as [16384, 1024] rows. -/
def x2K : FVec Ideal S16384x1024 .f32 := shapeCast S16384x1024 x shapeCasts_S4x4096x1024_S16384x1024
/-- The fused weights, narrowed. -/
def wqK : FVec Ideal S3072x1024 .bf16 := truncf .bf16 w bitsLt_bf16_f32
/-- The output weights, narrowed. -/
def woK : FVec Ideal S1024x1024 .bf16 := truncf .bf16 wo bitsLt_bf16_f32
/-- The fused bias as one row. -/
def b2K : FVec Ideal S1x3072 .f32 := shapeCast S1x3072 b shapeCasts_S3072_S1x3072
/-- The output bias as one row. -/
def bo2K : FVec Ideal S1x1024 .f32 := shapeCast S1x1024 bo shapeCasts_S1024_S1x1024
/-- The first launch's output, viewed [4, 4096, 3072]. -/
def p3K : FVec Ideal S4x4096x3072 .bf16 :=
  shapeCast S4x4096x3072 (proj2d (x2K x) (wqK w) (b2K b)) shapeCasts_S16384x3072_S4x4096x3072
/-- The second launch's output, viewed as [16384, 1024] rows. -/
def a2K : FVec Ideal S16384x1024 .bf16 :=
  shapeCast S16384x1024 (attn3 (p3K x w b)) shapeCasts_S4x4096x1024_S16384x1024
/-- The third launch's output, viewed [4, 4096, 1024]: the kernel's result as a term of the five arguments. -/
def kernelTerm : FVec Ideal S4x4096x1024 .f32 :=
  shapeCast S4x4096x1024 (out2d (a2K x w b) (woK wo) (bo2K bo)) shapeCasts_S16384x1024_S4x4096x1024

/-- Row 4096·batch + position of the input's rows is (batch, position). -/
theorem x2K_apply (bb : Fin 4) (s : Fin 4096) (k : Fin 1024) (r : Fin 16384) (hr : r.val = 4096 * bb.val + s.val) :
    x2K x (ix2 r k) = x (ix3 bb s k) := by
  unfold x2K
  refine shapeCast_apply _ _ (ix2 r k) (ix3 bb s k) ?_
  rw [Shape.rowMajor_val_three, Shape.rowMajor_val_two]
  show (bb.val * 4096 + s.val) * 1024 + k.val = r.val * 1024 + k.val
  omega

/-- The one-row biases read the bias at the column. -/
theorem b2K_apply (e : Fin 3072) : b2K b (ix2 (0 : Fin 1) e) = b (ix1 e) := by
  unfold b2K
  refine shapeCast_apply _ _ (ix2 (0 : Fin 1) e) (ix1 e) ?_
  rw [Shape.rowMajor_val_one, Shape.rowMajor_val_two]
  show e.val = 0 * 3072 + e.val
  omega
@[inherit_doc b2K_apply]
theorem bo2K_apply (e : Fin 1024) : bo2K bo (ix2 (0 : Fin 1) e) = bo (ix1 e) := by
  unfold bo2K
  refine shapeCast_apply _ _ (ix2 (0 : Fin 1) e) (ix1 e) ?_
  rw [Shape.rowMajor_val_one, Shape.rowMajor_val_two]
  show e.val = 0 * 1024 + e.val
  omega

/-- The first launch's output at row 4096·batch + position, column e: the specification's projection there, through
    the feature map below column 2048. -/
theorem projAt_eq (bb : Fin 4) (s : Fin 4096) (r : Fin 16384) (hr : r.val = 4096 * bb.val + s.val) (e : Fin 3072) :
    projAt (x2K x) (wqK w) (b2K b) r e = if e.val < 2048 then phi (proj x w b bb s e) else proj x w b bb s e := by
  have hs : (∑ k : Fin 1024, x2K x (ix2 r k) * wqK w (ix2 e k)) + b2K b (ix2 (0 : Fin 1) e) = proj x w b bb s e := by
    unfold proj
    rw [b2K_apply]
    congr 1
    exact Finset.sum_congr rfl fun k _ => congrArg (· * w (ix2 e k)) (x2K_apply x bb s k r hr)
  unfold projAt
  rw [hs]

/-- The same through the view [4, 4096, 3072]. -/
theorem p3K_apply (bb : Fin 4) (s : Fin 4096) (e : Fin 3072) :
    p3K x w b (ix3 bb s e) = if e.val < 2048 then phi (proj x w b bb s e) else proj x w b bb s e := by
  unfold p3K
  refine (shapeCast_apply _ _ (ix3 bb s e) (ix2 (⟨4096 * bb.val + s.val, by omega⟩ : Fin 16384) e) ?_).trans ?_
  · rw [Shape.rowMajor_val_two, Shape.rowMajor_val_three]
    show (4096 * bb.val + s.val) * 3072 + e.val = (bb.val * 4096 + s.val) * 3072 + e.val
    omega
  rw [proj2d_apply]
  exact projAt_eq x w b bb s _ rfl e

/-- Column c is the query's, column 1024 + c the key's, column 2048 + c the value's. -/
theorem p3K_q (bb : Fin 4) (s : Fin 4096) (c : Fin 1024) (e : Fin 3072) (he : e.val = c.val) :
    p3K x w b (ix3 bb s e) = qf x w b bb s c := by
  have := c.isLt
  rw [p3K_apply, if_pos (by omega)]
  unfold qf
  exact congrArg (fun e' => phi (proj x w b bb s e')) (Fin.ext he)
@[inherit_doc p3K_q]
theorem p3K_k (bb : Fin 4) (s : Fin 4096) (c : Fin 1024) (e : Fin 3072) (he : e.val = 1024 + c.val) :
    p3K x w b (ix3 bb s e) = kf x w b bb s c := by
  have := c.isLt
  rw [p3K_apply, if_pos (by omega)]
  unfold kf
  exact congrArg (fun e' => phi (proj x w b bb s e')) (Fin.ext he)
@[inherit_doc p3K_q]
theorem p3K_v (bb : Fin 4) (s : Fin 4096) (c : Fin 1024) (e : Fin 3072) (he : e.val = 2048 + c.val) :
    p3K x w b (ix3 bb s e) = vf x w b bb s c := by
  rw [p3K_apply, if_neg (by omega)]
  unfold vf
  exact congrArg (fun e' => proj x w b bb s e') (Fin.ext he)

/-- The attention core over the first launch's output is the specification's attention. -/
theorem attnAt_eq (bb : Fin 4) (s : Fin 4096) (j : Fin 1024) : attnAt (p3K x w b) bb s j = attn x w b bb s j := by
  unfold attnAt attn
  congr 1
  · refine Finset.sum_congr rfl fun d _ => ?_
    rw [p3K_q x w b bb s (headCol j d) _ rfl]
    congr 1
    unfold kv
    refine Finset.sum_congr rfl fun s' _ => ?_
    rw [p3K_k x w b bb s' (headCol j d) _
        (by show 1024 + 64 * (j.val / 64) + d.val = 1024 + (64 * (j.val / 64) + d.val); omega),
      p3K_v x w b bb s' j _ rfl]
  · unfold ksum
    congr 1
    exact Finset.sum_congr rfl fun s' _ => p3K_k x w b bb s' j _ rfl

/-- The second launch's output at row 4096·batch + position, column k. -/
theorem a2K_apply (bb : Fin 4) (s : Fin 4096) (k : Fin 1024) (r : Fin 16384) (hr : r.val = 4096 * bb.val + s.val) :
    a2K x w b (ix2 r k) = attn x w b bb s k := by
  unfold a2K
  refine (shapeCast_apply _ _ (ix2 r k) (ix3 bb s k) ?_).trans ?_
  · rw [Shape.rowMajor_val_three, Shape.rowMajor_val_two]
    show (bb.val * 4096 + s.val) * 1024 + k.val = r.val * 1024 + k.val
    omega
  rw [attn3_apply]
  exact attnAt_eq x w b bb s k

/-- The kernel's composed term is the layer. -/
theorem kernelTerm_eq_G : kernelTerm x w b wo bo = G x w b wo bo := by
  funext i
  obtain ⟨bb, s, e, rfl⟩ : ∃ (bb : Fin 4) (s : Fin 4096) (e : Fin 1024), i = ix3 bb s e := ⟨i 0, i 1, i 2, eq_ix3 i⟩
  rw [G_apply]
  unfold kernelTerm out
  refine (shapeCast_apply _ _ (ix3 bb s e) (ix2 (⟨4096 * bb.val + s.val, by omega⟩ : Fin 16384) e) ?_).trans ?_
  · rw [Shape.rowMajor_val_two, Shape.rowMajor_val_three]
    show (4096 * bb.val + s.val) * 1024 + e.val = (bb.val * 4096 + s.val) * 1024 + e.val
    omega
  rw [out2d_apply]
  unfold outAt
  rw [bo2K_apply]
  congr 1
  exact Finset.sum_congr rfl fun k _ => congrArg (· * wo (ix2 e k)) (a2K_apply x w b bb s k _ rfl)

end Cert.KernelIdeal.KValue

end
-- ==== Proof.KernelGlue.lean ====
/-
  The kernel's buffers at @main's boundaries, read back to the five argument arrays. Each host stretch is a reshape or
  a narrowing of a buffer the previous item left; each launch leaves, in its output array, the function of its input
  arrays that its value equation names; a buffer no item in between writes is carried unchanged. Composed, the result
  buffer holds the kernel's term of the arguments.
-/
import proofs.«127050_j83339545411776_2_alg».proof.Proof.FrameFold
import proofs.«127050_j83339545411776_2_alg».proof.Proof.ArrSpec
import proofs.«127050_j83339545411776_2_alg».proof.Proof.KernelMath

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Fr Cert.KernelIdeal.ArrValue

/-! ## The host stretches at any contents -/

section Host

variable (V : Valuation τ sig (Elt Ideal))

theorem after0_v0 : after (hostOps0 (F := Ideal)) V (Proc.devRef .tc main_v0)
    = shapeCast S16384x1024 (V (Proc.devRef .tc main_arg0)) shapeCasts_S4x4096x1024_S16384x1024 := by
  (after_results) <;> rfl
theorem after0_v1 : after (hostOps0 (F := Ideal)) V (Proc.devRef .tc main_v1)
    = (truncf .bf16 (V (Proc.devRef .tc main_arg1) : FVec Ideal S3072x1024 .f32) bitsLt_bf16_f32 : FVec Ideal S3072x1024 .bf16) := by
  (after_results) <;> rfl
theorem after0_v2 : after (hostOps0 (F := Ideal)) V (Proc.devRef .tc main_v2)
    = (truncf .bf16 (V (Proc.devRef .tc main_arg3) : FVec Ideal S1024x1024 .f32) bitsLt_bf16_f32 : FVec Ideal S1024x1024 .bf16) := by
  (after_results) <;> rfl
theorem after0_v3 : after (hostOps0 (F := Ideal)) V (Proc.devRef .tc main_v3)
    = shapeCast S1x3072 (V (Proc.devRef .tc main_arg2)) shapeCasts_S3072_S1x3072 := by
  (after_results) <;> rfl
theorem after1_v5 : after (hostOps1 (F := Ideal)) V (Proc.devRef .tc main_v5)
    = shapeCast S4x4096x3072 (V (Proc.devRef .tc main_v4)) shapeCasts_S16384x3072_S4x4096x3072 := by
  (after_results) <;> rfl
theorem after2_v7 : after (hostOps2 (F := Ideal)) V (Proc.devRef .tc main_v7)
    = shapeCast S16384x1024 (V (Proc.devRef .tc main_v6)) shapeCasts_S4x4096x1024_S16384x1024 := by
  (after_results) <;> rfl
theorem after2_v8 : after (hostOps2 (F := Ideal)) V (Proc.devRef .tc main_v8)
    = shapeCast S1x1024 (V (Proc.devRef .tc main_arg4)) shapeCasts_S1024_S1x1024 := by
  (after_results) <;> rfl
theorem after3_v10 : after (hostOps3 (F := Ideal)) V (Proc.devRef .tc main_v10)
    = shapeCast S4x4096x1024 (V (Proc.devRef .tc main_v9)) shapeCasts_S16384x1024_S4x4096x1024 := by
  (after_results) <;> rfl

end Host

/-! ## The boundaries read back -/

section Chain

variable
  (h0 : ∀ (V : (c : Dev nD) → (b : Ref sig .tc) → Buf (Elt Ideal) ((c : Thread nD τ).loc b)) (c : Dev nD),
    (dat0 (F := Ideal) V c).arrAt 3 cfg0.N = proj2d (V c main_v0) (V c main_v1) (V c main_v3))
  (h1 : ∀ (V : (c : Dev nD) → (b : Ref sig .tc) → Buf (Elt Ideal) ((c : Thread nD τ).loc b)) (c : Dev nD),
    (dat1 (F := Ideal) V c).arrAt 3 cfg1.N = attn3 (V c main_v5))
  (h2 : ∀ (V : (c : Dev nD) → (b : Ref sig .tc) → Buf (Elt Ideal) ((c : Thread nD τ).loc b)) (c : Dev nD),
    (dat2 (F := Ideal) V c).arrAt 3 cfg2.N = out2d (V c main_v7) (V c main_v2) (V c main_v8))
  (m : (ℓ : Loc nD τ sig) → Buf (Elt Ideal) ℓ) (ρ : Dev nD → PrngReg) (c : Dev nD)

/-- At the first launch's entry: the input as rows, the narrowed weights, the bias as one row. -/
theorem b1_v0 : Wb1 m ρ c (Proc.devRef .tc main_v0) = x2K (m ((c.tc : Thread nD τ).loc main_arg0)) := after0_v0 _
@[inherit_doc b1_v0]
theorem b1_v1 : Wb1 m ρ c (Proc.devRef .tc main_v1) = wqK (m ((c.tc : Thread nD τ).loc main_arg1)) := after0_v1 _
@[inherit_doc b1_v0]
theorem b1_v2 : Wb1 m ρ c (Proc.devRef .tc main_v2) = woK (m ((c.tc : Thread nD τ).loc main_arg3)) := after0_v2 _
@[inherit_doc b1_v0]
theorem b1_v3 : Wb1 m ρ c (Proc.devRef .tc main_v3) = b2K (m ((c.tc : Thread nD τ).loc main_arg2)) := after0_v3 _

/-- The output bias is untouched up to the second launch's exit. -/
theorem b4_arg4 : Wb4 m ρ c (Proc.devRef .tc main_arg4) = (m ((c.tc : Thread nD τ).loc main_arg4)) :=
  calc Wb4 m ρ c (Proc.devRef .tc main_arg4)
    _ = Wb3 m ρ c (Proc.devRef .tc main_arg4) := Wb4_of_ne m ρ c main_arg4 (by decide)
    _ = Wb2 m ρ c (Proc.devRef .tc main_arg4) := after_of_writes_sub hostOps1 _ hostOps1_writes (by decide)
    _ = Wb1 m ρ c (Proc.devRef .tc main_arg4) := Wb2_of_ne m ρ c main_arg4 (by decide)
    _ = Wb0 m ρ c (Proc.devRef .tc main_arg4) := after_of_writes_sub hostOps0 _ hostOps0_writes (by decide)
    _ = (m ((c.tc : Thread nD τ).loc main_arg4)) := rfl

/-- The narrowed output weights are carried from the first stretch to the third launch's entry. -/
theorem b5_v2 : Wb5 m ρ c (Proc.devRef .tc main_v2) = woK (m ((c.tc : Thread nD τ).loc main_arg3)) :=
  calc Wb5 m ρ c (Proc.devRef .tc main_v2)
    _ = Wb4 m ρ c (Proc.devRef .tc main_v2) := after_of_writes_sub hostOps2 _ hostOps2_writes (by decide)
    _ = Wb3 m ρ c (Proc.devRef .tc main_v2) := Wb4_of_ne m ρ c main_v2 (by decide)
    _ = Wb2 m ρ c (Proc.devRef .tc main_v2) := after_of_writes_sub hostOps1 _ hostOps1_writes (by decide)
    _ = Wb1 m ρ c (Proc.devRef .tc main_v2) := Wb2_of_ne m ρ c main_v2 (by decide)
    _ = woK (m ((c.tc : Thread nD τ).loc main_arg3)) := b1_v2 m ρ c

/-- At the third launch's entry: the output bias as one row. -/
theorem b5_v8 : Wb5 m ρ c (Proc.devRef .tc main_v8) = bo2K (m ((c.tc : Thread nD τ).loc main_arg4)) :=
  (after2_v8 _).trans (congrArg (fun a => shapeCast S1x1024 a shapeCasts_S1024_S1x1024) (b4_arg4 m ρ c))

include h0

/-- At the first launch's exit its output array holds the fused projection. -/
theorem b2_v4 : Wb2 m ρ c (Proc.devRef .tc main_v4)
    = proj2d (x2K (m ((c.tc : Thread nD τ).loc main_arg0))) (wqK (m ((c.tc : Thread nD τ).loc main_arg1))) (b2K (m ((c.tc : Thread nD τ).loc main_arg2))) :=
  (Wb2_arr m ρ c 3).trans ((h0 (Vb1 m ρ) c).trans
    (congr (congr (congrArg proj2d (b1_v0 m ρ c)) (b1_v1 m ρ c)) (b1_v3 m ρ c)))

/-- At the second launch's entry: that array viewed [4, 4096, 3072]. -/
theorem b3_v5 : Wb3 m ρ c (Proc.devRef .tc main_v5)
    = p3K (m ((c.tc : Thread nD τ).loc main_arg0)) (m ((c.tc : Thread nD τ).loc main_arg1)) (m ((c.tc : Thread nD τ).loc main_arg2)) :=
  (after1_v5 _).trans (congrArg (fun a => shapeCast S4x4096x3072 a shapeCasts_S16384x3072_S4x4096x3072) (b2_v4 h0 m ρ c))

include h1

/-- At the second launch's exit its output array holds the attention core of it. -/
theorem b4_v6 : Wb4 m ρ c (Proc.devRef .tc main_v6)
    = attn3 (p3K (m ((c.tc : Thread nD τ).loc main_arg0)) (m ((c.tc : Thread nD τ).loc main_arg1)) (m ((c.tc : Thread nD τ).loc main_arg2))) :=
  (Wb4_arr m ρ c 3).trans ((h1 (Vb3 m ρ) c).trans (congrArg attn3 (b3_v5 h0 m ρ c)))

/-- At the third launch's entry: the attention output as rows. -/
theorem b5_v7 : Wb5 m ρ c (Proc.devRef .tc main_v7)
    = a2K (m ((c.tc : Thread nD τ).loc main_arg0)) (m ((c.tc : Thread nD τ).loc main_arg1)) (m ((c.tc : Thread nD τ).loc main_arg2)) :=
  (after2_v7 _).trans (congrArg (fun a => shapeCast S16384x1024 a shapeCasts_S4x4096x1024_S16384x1024) (b4_v6 h0 h1 m ρ c))
include h2

/-- At the third launch's exit its output array holds the output projection. -/
theorem b6_v9 : Wb6 m ρ c (Proc.devRef .tc main_v9)
    = out2d (a2K (m ((c.tc : Thread nD τ).loc main_arg0)) (m ((c.tc : Thread nD τ).loc main_arg1)) (m ((c.tc : Thread nD τ).loc main_arg2))) (woK (m ((c.tc : Thread nD τ).loc main_arg3))) (bo2K (m ((c.tc : Thread nD τ).loc main_arg4))) :=
  (Wb6_arr m ρ c 3).trans ((h2 (Vb5 m ρ) c).trans
    (congr (congr (congrArg out2d (b5_v7 h0 h1 m ρ c)) (b5_v2 m ρ c)) (b5_v8 m ρ c)))

/-- What @main returns from: the result buffer holds the kernel's term of the five arguments. -/
theorem b7_v10 : Wb7 m ρ c (Proc.devRef .tc main_v10)
    = kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (after3_v10 _).trans (congrArg (fun a => shapeCast S4x4096x1024 a shapeCasts_S16384x1024_S4x4096x1024) (b6_v9 h0 h1 h2 m ρ c))

end Chain

end Cert.KernelIdeal.KValue

end
-- ==== Proof.KernelValue.lean ====
/-
  The kernel's result is the layer G: the result buffer at @main's return holds the kernel's term of the five argument
  arrays (the boundaries read back through the three launches' value equations), and that term is G.
-/
import proofs.«127050_j83339545411776_2_alg».proof.Proof.KernelGlue

noncomputable section

namespace Cert.KernelIdeal.KValue

open Idealize.ShloMosaic Idealize.ShloMosaic.TcCoe Idealize.SL.Sem
open Cert.KernelIdeal Cert.KernelIdeal.Gen Cert.KernelIdeal.Fr Cert.KernelIdeal.ArrValue

/-- Given what each launch leaves in its output array as a function of the arrays it reads, the result buffer at
    @main's return is the layer G of the five argument arrays as launched. -/
theorem kernel_value
    (h0 : ∀ (V : (c : Dev nD) → (b : Ref sig .tc) → Buf (Elt Ideal) ((c : Thread nD τ).loc b)) (c : Dev nD),
      (dat0 (F := Ideal) V c).arrAt 3 cfg0.N = proj2d (V c main_v0) (V c main_v1) (V c main_v3))
    (h1 : ∀ (V : (c : Dev nD) → (b : Ref sig .tc) → Buf (Elt Ideal) ((c : Thread nD τ).loc b)) (c : Dev nD),
      (dat1 (F := Ideal) V c).arrAt 3 cfg1.N = attn3 (V c main_v5))
    (h2 : ∀ (V : (c : Dev nD) → (b : Ref sig .tc) → Buf (Elt Ideal) ((c : Thread nD τ).loc b)) (c : Dev nD),
      (dat2 (F := Ideal) V c).arrAt 3 cfg2.N = out2d (V c main_v7) (V c main_v2) (V c main_v8))
    (m : (ℓ : Loc nD τ sig) → Buf (Elt Ideal) ℓ) (ρ : Dev nD → PrngReg) (c : Dev nD) :
    Wb7 (F := Ideal) m ρ c (Proc.devRef .tc main_v10)
      = Cert.LinAttn.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (b7_v10 h0 h1 h2 m ρ c).trans (kernelTerm_eq_G _ _ _ _ _)

end Cert.KernelIdeal.KValue

end
-- ==== Proof.lean ====
/-
  A linear-attention layer: the fused q/k/v projection, the elu(+1) feature map on queries and keys, per-head
  attention  out = q · (kᵀ v) / (Σ_s k + ε)  and the output projection — computed by three kernel launches against a
  plain reference.

  The kernel: (1) a [16384, 1024] × [3072, 1024]ᵀ projection with bias, rows in blocks of 256, the feature map applied to the
  first two thirds of the columns; (2) per (batch, quad of four heads), the keys' column sums, the 256 × 256 product kᵀ v
  with the twelve cross-head 64 × 64 blocks zeroed, the queries against it, divided by the column sums plus ε; (3) a
  [16384, 1024] × [1024, 1024]ᵀ projection with bias, rows in blocks of 512. The reference: the same layer head by head.

  Frames. Each program runs to the end, faults nowhere and leaves its five argument arrays as launched: the kernel's
  from its run through the three launches (the attention launch reads one array through three windows, each at a part
  of the full share), the reference's from its run operation by operation.
  The ideal pass rewrote nothing, so the idealization is the program's own text read on the extended reals.
  Values. On the extended reals both results are the function `LinAttn.G` of the arguments, index by index. The one law
  between the two arrangements: a sum over the 256 columns of a quad in which the terms outside the output column's head
  are exactly zero is the sum over that head's 64 columns. No finiteness of the inputs is used.
-/
import proofs.«127050_j83339545411776_2_alg».proof.Defs
import proofs.«127050_j83339545411776_2_alg».proof.Proof.Gen.Kernel
import proofs.«127050_j83339545411776_2_alg».proof.Proof.Gen.KernelIdeal
import proofs.«127050_j83339545411776_2_alg».proof.Proof.Gen.ReferenceIdeal
import proofs.«127050_j83339545411776_2_alg».proof.Proof.Gen.Pre_finite_inputs
import proofs.«127050_j83339545411776_2_alg».proof.Proof.FrameRegs
import proofs.«127050_j83339545411776_2_alg».proof.Proof.KFrameRegs
import proofs.«127050_j83339545411776_2_alg».proof.Proof.RefValue
import proofs.«127050_j83339545411776_2_alg».proof.Proof.Arr0
import proofs.«127050_j83339545411776_2_alg».proof.Proof.Arr1
import proofs.«127050_j83339545411776_2_alg».proof.Proof.Arr2
import proofs.«127050_j83339545411776_2_alg».proof.Proof.KernelValue

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Fr.frame m ρ

/-- So does the kernel read on the extended reals. -/
theorem frame_ki : Cert.frame_KernelIdeal := fun m ρ _ => Cert.KernelIdeal.Fr.frame m ρ

/-- The reference's run, with the result dropped. -/
theorem frame_ri : Cert.frame_ReferenceIdeal := fun m ρ _ =>
  (θ_run Cert.ReferenceIdeal.defs _ _).mono (fun _ h c => (h c).2) (Cert.ReferenceIdeal.RefValue.run_G m ρ)

/-- The ideal pass rewrote no operation. -/
theorem preserves : Cert.preserves_Kernel_KernelIdeal := trivial

/-- On the extended reals the kernel's result array ends at `G` of the arguments — its run's last contents, read through
    the three launches' output arrays — and so does the reference's, from arguments that agree. -/
theorem algebraic : Cert.algebraic_KernelIdeal_ReferenceIdeal := by
  intro m ρ m' ρ' _ hagree
  refine ⟨fun c => Cert.LinAttn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Fr.run_main (F := Ideal) m ρ)
    · exact (h c _ (Cert.KernelIdeal.Fr.mem_uc Cert.KernelIdeal.main_v10 (by decide))).trans
        (Cert.KernelIdeal.KValue.kernel_value Cert.KernelIdeal.ArrValue.final0 Cert.KernelIdeal.ArrValue.final1 Cert.KernelIdeal.ArrValue.final2 m ρ c)
    · exact (h c _ (Cert.KernelIdeal.Fr.mem_uc Cert.KernelIdeal.main_arg0 (by decide))).trans (Cert.KernelIdeal.Fr.Wb7_main_arg0 m ρ c)
    · exact (h c _ (Cert.KernelIdeal.Fr.mem_uc Cert.KernelIdeal.main_arg1 (by decide))).trans (Cert.KernelIdeal.Fr.Wb7_main_arg1 m ρ c)
    · exact (h c _ (Cert.KernelIdeal.Fr.mem_uc Cert.KernelIdeal.main_arg2 (by decide))).trans (Cert.KernelIdeal.Fr.Wb7_main_arg2 m ρ c)
    · exact (h c _ (Cert.KernelIdeal.Fr.mem_uc Cert.KernelIdeal.main_arg3 (by decide))).trans (Cert.KernelIdeal.Fr.Wb7_main_arg3 m ρ c)
    · exact (h c _ (Cert.KernelIdeal.Fr.mem_uc Cert.KernelIdeal.main_arg4 (by decide))).trans (Cert.KernelIdeal.Fr.Wb7_main_arg4 m ρ c)
  · refine (θ_run Cert.ReferenceIdeal.defs _ _).mono (fun r h c => ⟨?_, (h c).2⟩) (Cert.ReferenceIdeal.RefValue.run_G m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
